-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S10x8x128 : Shape := ⟨3, ![10, 8, 128]⟩
abbrev S5000x128 : Shape := ⟨2, ![5000, 128]⟩
abbrev S5000x1 : Shape := ⟨2, ![5000, 1]⟩
abbrev S1x8x128 : Shape := ⟨3, ![1, 8, 128]⟩
abbrev S1x1x128 : Shape := ⟨3, ![1, 1, 128]⟩
abbrev S10x1x128 : Shape := ⟨3, ![10, 1, 128]⟩
abbrev S10x128 : Shape := ⟨2, ![10, 128]⟩

abbrev nBuf : Space → Nat
  | .hbm => 67
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S_, .f32⟩
  | .hbm, ⟨25, _⟩ => ⟨S800000, .f32⟩
  | .hbm, ⟨26, _⟩ => ⟨S_, .f32⟩
  | .hbm, ⟨27, _⟩ => ⟨S50000, .f32⟩
  | .hbm, ⟨28, _⟩ => ⟨S800000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S128x128, .f32⟩
  | .hbm, ⟨38, _⟩ => ⟨S128x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S10x8x128, .f32⟩
  | .hbm, ⟨43, _⟩ => ⟨S10x8x128, .f32⟩
  | .hbm, ⟨44, _⟩ => ⟨S10x1x128, .f32⟩
  | .hbm, ⟨45, _⟩ => ⟨S10x128, .f32⟩
  | .hbm, ⟨46, _⟩ => ⟨S_, .f32⟩
  | .hbm, ⟨47, _⟩ => ⟨S128, .f32⟩
  | .hbm, ⟨48, _⟩ => ⟨S1x128, .f32⟩
  | .hbm, ⟨49, _⟩ => ⟨S10x1x128, .f32⟩
  | .hbm, ⟨50, _⟩ => ⟨S10x128, .f32⟩
  | .hbm, ⟨51, _⟩ => ⟨S_, .f32⟩
  | .hbm, ⟨52, _⟩ => ⟨S128, .f32⟩
  | .hbm, ⟨53, _⟩ => ⟨S1x128, .f32⟩
  | .hbm, ⟨54, _⟩ => ⟨S_, .f32⟩
  | .hbm, ⟨55, _⟩ => ⟨S1x128, .f32⟩
  | .hbm, ⟨56, _⟩ => ⟨S1x128, .f32⟩
  | .hbm, ⟨57, _⟩ => ⟨S_, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S_, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S1x8x128, .f32⟩
  | .local _ .vmem, ⟨10, _⟩ => ⟨S1x8x128, .f32⟩
  | .local _ .vmem, ⟨11, _⟩ => ⟨S1x8x128, .f32⟩
  | .local _ .vmem, ⟨12, _⟩ => ⟨S1x8x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S128x128, .f32⟩
  | .local _ .vmem, ⟨20, _⟩ => ⟨S128x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28_0 : Ref sig .tc := ⟨.hbm, 42, rfl⟩
abbrev main_v28_1 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg10_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem10_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  bitsLt_bf16_f32 : FTy.bits .bf16 < FTy.bits .f32
  broadcasts_S1x128_S5000x128 : S1x128.Broadcasts S5000x128
  reduces_S5000x128_S128 : S5000x128.Reduces [0] S128
  shapeCasts_S1x128_S1x1x128 : S1x128.ShapeCasts S1x1x128
  shapeCasts_S1x1x128_S1x1x128 : S1x1x128.ShapeCasts S1x1x128
  broadcasts_S1x1x128_S1x8x128 : S1x1x128.Broadcasts S1x8x128
  inb_S1x8x128_S1x8x128_0_0_0 : ∀ a, (![0, 0, 0] : Fin 3 → Nat) a + S1x8x128.size a ≤ S1x8x128.size a
  h_S1x8x128 : 0 < S1x8x128.numel
  slices_S10x8x128_S10x1x128_0_0_0 : S10x8x128.Slices ![0, 0, 0] S10x1x128
  shapeCasts_S10x1x128_S10x128 : S10x1x128.ShapeCasts S10x128
  reducesTo_S10x128_S128_d0 : S10x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x128.size a ≤ S10x8x128.size a
  hwx0_6 : ∀ i : grid0.Coords, EltTy.bits .f32 = 32 ∨ (Rect.block (s := S10x8x128) S1x8x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8x128.size a ≤ S10x8x128.size a
  hwx0_7 : ∀ i : grid0.Coords, EltTy.bits .f32 = 32 ∨ (Rect.block (s := S10x8x128) S1x8x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x128.size a ≤ S50000x128.size a
  hwx1_10 : ∀ i : grid1.Coords, EltTy.bits .f32 = 32 ∨ (Rect.block (s := S50000x128) S5000x128.size (cc1_transform_10 i) (hinb1_10 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28_0) S1x8x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v28_1) S1x8x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v13) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v38) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v45) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v26) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v27) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v46) S5000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 92
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S_, .f32⟩
  | .hbm, ⟨25, _⟩ => ⟨S800000, .f32⟩
  | .hbm, ⟨26, _⟩ => ⟨S_, .f32⟩
  | .hbm, ⟨27, _⟩ => ⟨S50000, .f32⟩
  | .hbm, ⟨28, _⟩ => ⟨S800000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S128x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S128x128, .f32⟩
  | .hbm, ⟨42, _⟩ => ⟨S50000x128, .f32⟩
  | .hbm, ⟨43, _⟩ => ⟨S50000x128, .f32⟩
  | .hbm, ⟨44, _⟩ => ⟨S_, .f32⟩
  | .hbm, ⟨45, _⟩ => ⟨S128, .f32⟩
  | .hbm, ⟨46, _⟩ => ⟨S_, .f32⟩
  | .hbm, ⟨47, _⟩ => ⟨S128, .f32⟩
  | .hbm, ⟨48, _⟩ => ⟨S128, .f32⟩
  | .hbm, ⟨49, _⟩ => ⟨S_, .i32⟩
  | .hbm, ⟨50, _⟩ => ⟨S_, .f32⟩
  | .hbm, ⟨51, _⟩ => ⟨S128, .f32⟩
  | .hbm, ⟨52, _⟩ => ⟨S1x128, .f32⟩
  | .hbm, ⟨53, _⟩ => ⟨S_, .f32⟩
  | .hbm, ⟨54, _⟩ => ⟨S1x128, .f32⟩
  | .hbm, ⟨55, _⟩ => ⟨S1x128, .f32⟩
  | .hbm, ⟨56, _⟩ => ⟨S50000x128, .f32⟩
  | .hbm, ⟨57, _⟩ => ⟨S50000x128, .f32⟩
  | .hbm, ⟨58, _⟩ => ⟨S50000x128, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S128, .f32⟩
  | .hbm, ⟨64, _⟩ => ⟨S128, .f32⟩
  | .hbm, ⟨65, _⟩ => ⟨S128, .f32⟩
  | .hbm, ⟨66, _⟩ => ⟨S_, .f32⟩
  | .hbm, ⟨67, _⟩ => ⟨S_, .i1⟩
  | .hbm, ⟨68, _⟩ => ⟨S_, .f32⟩
  | .hbm, ⟨69, _⟩ => ⟨S_, .f32⟩
  | .hbm, ⟨70, _⟩ => ⟨S128, .f32⟩
  | .hbm, ⟨71, _⟩ => ⟨S128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S_, .f32⟩
  | .hbm, ⟨79, _⟩ => ⟨S128, .f32⟩
  | .hbm, ⟨80, _⟩ => ⟨S128, .f32⟩
  | .hbm, ⟨81, _⟩ => ⟨S128, .f32⟩
  | .hbm, ⟨82, _⟩ => ⟨S1x128, .f32⟩
  | .hbm, ⟨83, _⟩ => ⟨S50000x128, .f32⟩
  | .hbm, ⟨84, _⟩ => ⟨S50000x128, .f32⟩
  | .hbm, ⟨85, _⟩ => ⟨S1x128, .f32⟩
  | .hbm, ⟨86, _⟩ => ⟨S50000x128, .f32⟩
  | .hbm, ⟨87, _⟩ => ⟨S50000x128, .f32⟩
  | .hbm, ⟨88, _⟩ => ⟨S_, .f32⟩
  | .hbm, ⟨89, _⟩ => ⟨S50000x128, .f32⟩
  | .hbm, ⟨90, _⟩ => ⟨S50000x128, .f32⟩
  | .hbm, ⟨91, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_call0_cst : Ref sig .tc := ⟨.hbm, 50, rfl⟩
abbrev main_call0_v0 : Ref sig .tc := ⟨.hbm, 51, rfl⟩
abbrev main_call0_v1 : Ref sig .tc := ⟨.hbm, 52, rfl⟩
abbrev main_call0_cst_0 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_v6 : Ref sig .tc := ⟨.hbm, 58, rfl⟩
abbrev main_call0_v7 : Ref sig .tc := ⟨.hbm, 59, rfl⟩
abbrev main_call0_cst_1 : Ref sig .tc := ⟨.hbm, 60, rfl⟩
abbrev main_call0_v8 : Ref sig .tc := ⟨.hbm, 61, rfl⟩
abbrev main_call0_cst_2 : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_call0_cst_3 : Ref sig .tc := ⟨.hbm, 66, rfl⟩
abbrev main_call0_v12 : Ref sig .tc := ⟨.hbm, 67, rfl⟩
abbrev main_call0_cst_4 : Ref sig .tc := ⟨.hbm, 68, rfl⟩
abbrev main_call0_call0_v0 : Ref sig .tc := ⟨.hbm, 69, rfl⟩
abbrev main_call0_call0_v1 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_7 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_call1_cst : Ref sig .tc := ⟨.hbm, 88, rfl⟩
abbrev main_call1_v0 : Ref sig .tc := ⟨.hbm, 89, rfl⟩
abbrev main_v50 : Ref sig .tc := ⟨.hbm, 90, rfl⟩
abbrev main_v51 : Ref sig .tc := ⟨.hbm, 91, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KRun.lean ====
/-
  The kernel program's run with its result named.

  Every weakly fair execution of the kernel program from a memory with zero counters terminates without a fault, and
  in the final state the result buffer holds the contents the last segment boundary assigns to it, while the seven
  argument arrays hold what they held at launch. The final thread state fixes every unscoped buffer at the last
  boundary's contents; the result buffer is one of them and is read there exactly as the arguments are.
-/
import proofs.«135360_j87393994539131_2_alg».proof.Proof.Gen.KernelIdeal.Frame
import Idealize.ShloMosaic.PureOps.Ideal

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run of the kernel program: termination without a fault, the result buffer at the last boundary's contents, and
    each argument array as launched. -/
theorem run_result : θ_run (defs (F := Ideal)) (onTc (τ := τ) (main (F := Ideal))) ⟨m, fun _ => 0, ρ⟩ (fun r => ∀ c : Dev nD,
      r.2.mem ((c.tc : Thread nD τ).loc main_v46) = Gen.W4 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v46 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.KRun

end
-- ==== Proof.Spec.lean ====
/-
  The result of the two programs, entry by entry, as formulas over the extended reals.

  Both programs first aggregate: `M` is the matrix whose row `n` is the sum of the feature rows `h[src e]` over the
  edges `e` with `dst e = n`, and `dm n = max (number of such edges) 1`. The mean aggregation of row `n` is `M n / dm n`.
  The layer's output before normalization is, at row `r` and column `q`,
      O r q = (Σ_k agg r k · W_l q k + b_l q) + Σ_k h r k · W_r q k,
  the normalization is over the 50000 rows of each column (mean `μ q`, biased variance `v q`), and the result is
      max (γ q · (O r q − μ q) · (v q + ε)^(-1/2) + β q) 0 + h r q.
  One program divides by `dm` and takes the variance as the mean of squared deviations (`preBNR`, `meanR`,
  `invstdR`); the other multiplies by the reciprocal `1 / dm`, sums each column in ten blocks of 5000 rows, and takes
  the variance as the mean of squares minus the squared mean (`preBN`, `meanK`, `invstdK`).
-/
import Idealize.ShloMosaic.PureOps.Ideal
import Idealize.ShloMosaic.Lib.ValueIdx

noncomputable section

namespace Cert.Spec

open Idealize.ShloMosaic Idealize.ShloMosaic.ValueIdx

abbrev SND : Shape := ⟨2, ![50000, 128]⟩
abbrev SN1 : Shape := ⟨2, ![50000, 1]⟩
abbrev SN : Shape := ⟨1, ![50000]⟩
abbrev SDD : Shape := ⟨2, ![128, 128]⟩
abbrev S1D : Shape := ⟨2, ![1, 128]⟩
abbrev SD : Shape := ⟨1, ![128]⟩

/-- The float literal `50000.0`, the number of rows. -/
def nRows : EReal := Ideal.ofBits .f32 0x47435000#32
/-- The float literal added to the variance before the inverse square root. -/
def eps : EReal := Ideal.ofBits .f32 0x3727C5AC#32

theorem nRows_eq : nRows = ((50000 : ℝ) : EReal) := by
  unfold nRows; simp [Ideal.ofBits, Ideal.ieee, -EReal.coe_mul]; norm_num
theorem ofBits_zero : Ideal.ofBits .f32 0x00000000#32 = 0 := by
  simp [Ideal.ofBits, Ideal.ieee]
theorem ofBits_one : Ideal.ofBits .f32 0x3F800000#32 = 1 := by
  simp [Ideal.ofBits, Ideal.ieee, -EReal.coe_mul]; norm_num

/-! ## The form with the reciprocal factor, blocked column sums, and E[X²] − μ² -/

/-- Entry `(r, q)` before normalization: row `r` of `Mx` scaled by its own factor `iv r`, projected by column `q` of
    `wl`, plus the bias, plus row `r` of `hx` projected by column `q` of `wr` (`wl`, `wr` are indexed `(k, q)`). -/
def preBN (Mx : SND.Idx → EReal) (iv : SN1.Idx → EReal) (hx : SND.Idx → EReal) (wl wr : SDD.Idx → EReal)
    (b2 : S1D.Idx → EReal) (r : Fin 50000) (q : Fin 128) : EReal :=
  ((∑ k : Fin 128, (Mx (ix2 r k) * iv (ix2 r (0 : Fin 1))) * wl (ix2 k q)) + b2 (ix2 (0 : Fin 1) q))
    + ∑ k : Fin 128, hx (ix2 r k) * wr (ix2 k q)

/-- Row `p` of block `t`, the blocks being ten consecutive runs of 5000 rows. -/
def row (t : Fin 10) (p : Fin 5000) : Fin 50000 := ⟨t.val * 5000 + p.val, by omega⟩

/-- A sum over the 50000 rows taken block by block. -/
def blockedSum (f : Fin 50000 → EReal) : EReal := ∑ t : Fin 10, ∑ p : Fin 5000, f (row t p)

/-- Column mean from the blocked sum. -/
def meanK (O : Fin 50000 → Fin 128 → EReal) (q : Fin 128) : EReal :=
  Ideal.div (blockedSum fun r => O r q) nRows

/-- Inverse standard deviation of a column, the variance as mean of squares minus squared mean. -/
def invstdK (O : Fin 50000 → Fin 128 → EReal) (q : Fin 128) : EReal :=
  Ideal.rsqrt ((Ideal.div (blockedSum fun r => O r q * O r q) nRows - meanK O q * meanK O q) + eps)

/-- The normalized, rectified entry plus the residual row. -/
def outEntry (O : Fin 50000 → Fin 128 → EReal) (hx : SND.Idx → EReal) (mu is g be : Fin 128 → EReal)
    (r : Fin 50000) (q : Fin 128) : EReal :=
  max (((g q * (O r q - mu q)) * is q) + be q) 0 + hx (ix2 r q)

/-! ## The form with the quotient, whole column sums, and E[(X − μ)²] -/

/-- Entry `(r, q)` before normalization with the aggregated row DIVIDED by `dm r`; `Wl`, `Wr` are indexed `(q, k)`. -/
def preBNR (M : SND.Idx → EReal) (dm : SN.Idx → EReal) (hx : SND.Idx → EReal) (Wl Wr : SDD.Idx → EReal)
    (bl : SD.Idx → EReal) (r : Fin 50000) (q : Fin 128) : EReal :=
  ((∑ k : Fin 128, Ideal.div (M (ix2 r k)) (dm (ix1 r)) * Wl (ix2 q k)) + bl (ix1 q))
    + ∑ k : Fin 128, hx (ix2 r k) * Wr (ix2 q k)

/-- Column mean from the whole sum. -/
def meanR (O : Fin 50000 → Fin 128 → EReal) (q : Fin 128) : EReal :=
  Ideal.div (∑ r : Fin 50000, O r q) nRows

/-- Inverse standard deviation of a column, the variance as the mean of squared deviations. -/
def invstdR (O : Fin 50000 → Fin 128 → EReal) (q : Fin 128) : EReal :=
  Ideal.rsqrt (Ideal.div (∑ r : Fin 50000, (O r q - meanR O q) * (O r q - meanR O q)) nRows + eps)

end Cert.Spec

end
-- ==== Proof.LibPlainDot.lean ====
/-
  A plain matrix product — an [M, K] operand times a [K, N] operand, the left one contracted on its second axis
  and the right one on its first, no batch axis — read at the entry (r, c) over the extended reals: the sum over
  k of the left operand at (r, k) times the right operand at (k, c). Stated once for the on-chip product
  accumulated into a zero splat and once for the host's dot_general, for any dimension record that is the plain
  one, so that both sides of a comparison land on the same sum over `Fin K`.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The contraction index of the plain product has one axis, of extent `K`. -/
theorem contr_rank : (DotDims.plain M K N).contr.rank = 1 := rfl
theorem contr_size : (DotDims.plain M K N).contr.size ⟨0, by rw [contr_rank]; exact Nat.one_pos⟩ = K := rfl

/-- The one-coordinate contraction index with coordinate `k`. -/
abbrev cidx (k : Fin K) : (DotDims.plain M K N).contr.Idx := (contrEquiv1 (DotDims.plain M K N) K contr_rank contr_size).symm k

/-- The left operand is read at row `r`, column `k`. -/
theorem lhsIdx_eq (r : Fin M) (c : Fin N) (k : Fin K) :
    (DotDims.plain M K N).lhsIdx (ix2 r c) (cidx k) = ix2 r k := by
  funext a
  apply Fin.ext
  match a with
  | ⟨0, _⟩ => rfl
  | ⟨1, _⟩ =>
    exact ((DotDims.plain M K N).lhsIdx_val_of_single rfl (ix2 r c) (cidx k)).trans
      (contrEquiv1_symm_val (DotDims.plain M K N) K contr_rank contr_size k)

/-- The right operand is read at row `k`, column `c`. -/
theorem rhsIdx_eq (r : Fin M) (c : Fin N) (k : Fin K) :
    (DotDims.plain M K N).rhsIdx (ix2 r c) (cidx k) = ix2 k c := by
  funext a
  apply Fin.ext
  match a with
  | ⟨0, _⟩ =>
    exact ((DotDims.plain M K N).rhsIdx_val_of_single rfl (ix2 r c) (cidx k)).trans
      (contrEquiv1_symm_val (DotDims.plain M K N) K contr_rank contr_size k)
  | ⟨1, _⟩ => rfl

/-- The contraction sum of the plain product, re-indexed over `Fin K`. -/
theorem sum_eq (l : (⟨2, ![M, K]⟩ : Shape).Idx → EReal) (r : (⟨2, ![K, N]⟩ : Shape).Idx → EReal) (p : Fin M) (c : Fin N) :
    (∑ q : (DotDims.plain M K N).contr.Idx, l ((DotDims.plain M K N).lhsIdx (ix2 p c) q) * r ((DotDims.plain M K N).rhsIdx (ix2 p c) q))
      = ∑ k : Fin K, l (ix2 p k) * r (ix2 k c) := by
  rw [← Equiv.sum_comp (contrEquiv1 (DotDims.plain M K N) K contr_rank contr_size).symm]
  refine Finset.sum_congr rfl fun k _ => ?_
  rw [lhsIdx_eq p c k, rhsIdx_eq p c k]

/-- The on-chip product accumulated into the zero splat, at entry `(p, c)`: the plain sum. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 p k) * r (ix2 k c) := by
  subst hd
  rw [Ideal.matmul_constant_zero_apply]
  exact sum_eq l r p c

/-- The host's dot_general at entry `(p, c)`: the same plain sum, whatever the precision and the schedule key. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂) (p : Fin M) (c : Fin N) :
    FloatOps.dotGeneral d prec sched l r (ix2 p c) = ∑ k : Fin K, l (ix2 p k) * r (ix2 k c) := by
  subst hd
  rw [Ideal.dotGeneral_apply]
  exact sum_eq l r p c

end Cert.PlainDot

end
-- ==== Proof.LibColumn.lean ====
/-
  Two layout operations read at an index given by coordinates, for a column kept after a sum along the rows'
  entries (`keepdims`): a vector `[a]` cast to the column `[a, 1]`, and a column `[a, 1]` broadcast along a new
  second axis to `[a, b]`. Both are instances of the general "layout operation read at an index" lemmas with the
  coordinates' arithmetic discharged, in the same form as the row versions the index library already has.
-/
import Idealize.ShloMosaic.Lib.Pipeline.Value
import Idealize.ShloMosaic.Lib.ValueIdx

namespace Cert.GraphConv.Column

open Idealize.ShloMosaic Idealize.ShloMosaic.ValueIdx

variable {α : Type}

/-- A vector `[a]` cast to the column `[a, 1]` reads, at `(i, u)`, the operand at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.GraphConv.Column
-- ==== Proof.KFinalPay.lean ====
/-
  The normalized output block, entry by entry.

  At one grid point the second region's body receives a block of 5000 rows of the aggregated features, of the node
  features and of the reciprocal degrees, the two weight matrices, and five rows of 128 entries (bias, column mean,
  column inverse standard deviation, scale, shift). Its one store writes, at row `p` and column `q` of the block,
      max (γ q · (O p q − μ q) · s q + β q) 0 + h p q,
  where `O p q = (Σ_k (M p k · d p) · Wl k q + b q) + Σ_k h p k · Wr k q`: the aggregated row is scaled by its own
  reciprocal degree before the first product, both products are plain sums over the 128 shared coordinates (the
  accumulator starts at the zero word, a change of float format is the identity on extended reals), and every
  one-row operand is repeated down the 5000 rows.
-/
import proofs.«135360_j87393994539131_2_alg».proof.Proof.Gen.KernelIdeal.Skeleton
import proofs.«135360_j87393994539131_2_alg».proof.Proof.Spec
import proofs.«135360_j87393994539131_2_alg».proof.Proof.LibPlainDot
import proofs.«135360_j87393994539131_2_alg».proof.Proof.LibColumn
import Idealize.ShloMosaic.PureOps.Ideal
import Idealize.ShloMosaic.Lib.ValueIdx
import Idealize.ShloMosaic.Lib.ValueLayout
import Idealize.ShloMosaic.Lib.Pipeline.Value

noncomputable section

namespace Cert.KernelIdeal.KFinal

open Idealize.ShloMosaic Idealize.ShloMosaic.ValueIdx
open Cert.KernelIdeal.Gen

/-- The block's entry as a formula of the loaded blocks' entries. -/
def blockEntry (x0 x1 : S5000x128.Idx → EReal) (x2 : S5000x1.Idx → EReal) (x3 x4 : S128x128.Idx → EReal)
    (x5 x6 x7 x8 x9 : S1x128.Idx → EReal) (p : Fin 5000) (q : Fin 128) : EReal :=
  max (((x8 (ix2 (0 : Fin 1) q)
          * ((((∑ k : Fin 128, (x0 (ix2 p k) * x2 (ix2 p (0 : Fin 1))) * x3 (ix2 k q)) + x5 (ix2 (0 : Fin 1) q))
              + ∑ k : Fin 128, x1 (ix2 p k) * x4 (ix2 k q)) - x6 (ix2 (0 : Fin 1) q)))
        * x7 (ix2 (0 : Fin 1) q)) + x9 (ix2 (0 : Fin 1) q)) 0 + x1 (ix2 p q)

/-- The record of the body's two products is the plain [5000,128] x [128,128] one. -/
theorem dot_plain : dot_S5000x128_S128x128_S5000x128_1_0_0_1_n_n = DotDims.plain 5000 128 128 := rfl

/-- The first product's left operand: the aggregated block scaled row by row, read at `(p, k)`. -/
theorem scaled_apply (x0 : Vec Ideal S5000x128 .f32) (x2 : Vec Ideal S5000x1 .f32) (p : Fin 5000) (k : Fin 128) :
    (mulf (shapeCast S5000x128 x0 shapeCasts_S5000x128_S5000x128)
        (broadcastTo S5000x128 (shapeCast S5000x1 x2 shapeCasts_S5000x1_S5000x1) broadcasts_S5000x1_S5000x128)
      : FVec Ideal S5000x128 .f32) (ix2 p k) = x0 (ix2 p k) * x2 (ix2 p (0 : Fin 1)) := by
  rw [mulf_apply, shapeCast_self, shapeCast_self]
  exact congrArg (x0 (ix2 p k) * ·) (Cert.GraphConv.Column.broadcastTo_a1_ab_apply x2 broadcasts_S5000x1_S5000x128 p k)

/-- A one-row operand repeated down the rows, read at `(p, q)`. -/
theorem row_apply (x : Vec Ideal S1x128 .f32) (p : Fin 5000) (q : Fin 128) :
    (broadcastTo S5000x128 (shapeCast S1x128 x shapeCasts_S1x128_S1x128) broadcasts_S1x128_S5000x128 : FVec Ideal S5000x128 .f32) (ix2 p q)
      = x (ix2 (0 : Fin 1) q) := by
  rw [shapeCast_self]
  exact broadcastTo_1b_ab_apply x broadcasts_S1x128_S5000x128 p q

/-- A weight matrix on its way into a product: unchanged, entry by entry. -/
theorem weight_apply (x : Vec Ideal S128x128 .f32) (k q : Fin 128) :
    (shapeCast S128x128 x shapeCasts_S128x128_S128x128 : FVec Ideal S128x128 .f32) (ix2 k q) = x (ix2 k q) := by
  rw [shapeCast_self]

/-- Either product of the body, accumulated from the zero word, at `(p, q)`: the plain sum over the shared coordinate. -/
theorem prod_apply {φ₁ φ₂ : FTy} (l : FVec Ideal S5000x128 φ₁) (r : FVec Ideal S128x128 φ₂) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) :=
  Cert.PlainDot.matmul_zero_apply dot_S5000x128_S128x128_S5000x128_1_0_0_1_n_n dot_plain none l r p q

/-- The store's value at `(p, q)`. -/
theorem pay_apply (x0 x1 : Vec Ideal S5000x128 .f32) (x2 : Vec Ideal S5000x1 .f32) (x3 x4 : Vec Ideal S128x128 .f32)
    (x5 x6 x7 x8 x9 : Vec Ideal S1x128 .f32) (p : Fin 5000) (q : Fin 128) :
    k1_pay1 (F := Ideal) (k1_pay2 x0 x2 x1 x3 x4 x5 x8 x6 x7) (k1_pay3 x9) x1 (ix2 p q)
      = blockEntry x0 x1 x2 x3 x4 x5 x6 x7 x8 x9 p q := by
  unfold k1_pay1 k1_pay2 k1_pay3 blockEntry
  dsimp only
  rw [addf_apply, maximumf_apply, addf_apply, broadcast_apply, mulf_apply, mulf_apply, subf_apply, addf_apply, addf_apply]
  rw [row_apply x9 p q, row_apply x7 p q, row_apply x8 p q, row_apply x6 p q, row_apply x5 p q]
  rw [prod_apply, prod_apply]
  simp only [truncf_apply, scaled_apply, weight_apply]
  rw [Ideal.ofBits_def, Spec.ofBits_zero]

end Cert.KernelIdeal.KFinal

end
-- ==== Proof.KFinalBlocks.lean ====
/-
  Where each input block of the second region sits in its array.

  The region has a one-axis grid of ten points. At point `t` the three row-blocked inputs (aggregated features, node
  features, reciprocal degrees) are at block `(t, 0)`: rows `5000·t … 5000·t + 4999` of their arrays; the two weight
  matrices and the five one-row operands are at block `(0, 0)`, which is the whole array. An element of a block sits in
  its array at block index × block size + its coordinate inside the block, axis by axis.
-/
import proofs.«135360_j87393994539131_2_alg».proof.Proof.Gen.KernelIdeal.Frame
import proofs.«135360_j87393994539131_2_alg».proof.Proof.KFinalPay
import proofs.«135360_j87393994539131_2_alg».proof.Proof.Spec
import Idealize.ShloMosaic.Lib.Pipeline.Value
import Idealize.ShloMosaic.PureOps.Ideal

set_option maxRecDepth 16384

noncomputable section

namespace Cert.KernelIdeal.KFinal

open Idealize.ShloMosaic Idealize.ShloMosaic.TcCoe Idealize.SL.Sem Idealize.ShloMosaic.ValueIdx
open Idealize.ShloMosaic.Pipeline (Dat)
open Cert.KernelIdeal.Gen

-- the buffer contents when the region is entered: a parameter throughout, instantiated once at the end
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows at block `(t, 0)`, the others at `(0, 0)`. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_10.index t (0 : Fin 2) = t.val ∧ win1_10.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0) :=
  (by decide +kernel : ∀ t : Fin grid1.N, _)

/-- The grid has ten points. -/
theorem lt_ten (t : Fin cfg1.N) : t.val < 10 := by
  have h := t.isLt
  have hN : cfg1.N = 10 := N_1
  omega

/-! ## Each input block read where its rows and columns sit in the array -/

/-- Window 0 (aggregated features): entry `(p, k)` of block `t` is entry `(5000·t + p, k)` of the array. -/
theorem blk0_apply (c : Dev nD) (t : Fin cfg1.N) (p : Fin 5000) (k : Fin 128) (r : Fin 50000) (hr : r.val = t.val * 5000 + p.val) :
    (iblk1 V c 0 t : Vec Ideal S5000x128 .f32) (ix2 p k) = (V c (Pipeline.arrRef spec1 0) : S50000x128.Idx → EReal) (ix2 r k) := by
  obtain ⟨⟨e0, e1⟩, -⟩ := idx_facts t
  unfold iblk1
  rw [View.read_apply]
  show (V c (Pipeline.arrRef spec1 0) : S50000x128.Idx → EReal) (((cfg1.win 0).blk t).view.emb (ix2 p k)) = _
  refine congrArg (V c (Pipeline.arrRef spec1 0) : S50000x128.Idx → EReal) ?_
  funext a; apply Fin.ext
  match a with
  | ⟨0, _⟩ => show win1_0.index t (0 : Fin 2) * 5000 + 1 * p.val = r.val; omega
  | ⟨1, _⟩ => show win1_0.index t (1 : Fin 2) * 128 + 1 * k.val = k.val; omega

/-- Window 1 (node features): the same rows. -/
theorem blk1_apply (c : Dev nD) (t : Fin cfg1.N) (p : Fin 5000) (k : Fin 128) (r : Fin 50000) (hr : r.val = t.val * 5000 + p.val) :
    (iblk1 V c 1 t : Vec Ideal S5000x128 .f32) (ix2 p k) = (V c (Pipeline.arrRef spec1 1) : S50000x128.Idx → EReal) (ix2 r k) := by
  obtain ⟨-, ⟨e0, e1⟩, -⟩ := idx_facts t
  unfold iblk1
  rw [View.read_apply]
  show (V c (Pipeline.arrRef spec1 1) : S50000x128.Idx → EReal) (((cfg1.win 1).blk t).view.emb (ix2 p k)) = _
  refine congrArg (V c (Pipeline.arrRef spec1 1) : S50000x128.Idx → EReal) ?_
  funext a; apply Fin.ext
  match a with
  | ⟨0, _⟩ => show win1_1.index t (0 : Fin 2) * 5000 + 1 * p.val = r.val; omega
  | ⟨1, _⟩ => show win1_1.index t (1 : Fin 2) * 128 + 1 * k.val = k.val; omega

/-- Window 2 (reciprocal degrees, one column): the same rows. -/
theorem blk2_apply (c : Dev nD) (t : Fin cfg1.N) (p : Fin 5000) (r : Fin 50000) (hr : r.val = t.val * 5000 + p.val) :
    (iblk1 V c 2 t : Vec Ideal S5000x1 .f32) (ix2 p (0 : Fin 1)) = (V c (Pipeline.arrRef spec1 2) : S50000x1.Idx → EReal) (ix2 r (0 : Fin 1)) := by
  obtain ⟨-, -, ⟨e0, e1⟩, -⟩ := idx_facts t
  unfold iblk1
  rw [View.read_apply]
  show (V c (Pipeline.arrRef spec1 2) : S50000x1.Idx → EReal) (((cfg1.win 2).blk t).view.emb (ix2 p (0 : Fin 1))) = _
  refine congrArg (V c (Pipeline.arrRef spec1 2) : S50000x1.Idx → EReal) ?_
  funext a; apply Fin.ext
  match a with
  | ⟨0, _⟩ => show win1_2.index t (0 : Fin 2) * 5000 + 1 * p.val = r.val; omega
  | ⟨1, _⟩ => show win1_2.index t (1 : Fin 2) * 1 + 1 * 0 = 0; omega

/-! ## The windows whose one block is the whole array -/

/-- Window 3 (first weight matrix): its block at every point is the whole array. -/
theorem blk3_eq (c : Dev nD) (t : Fin cfg1.N) :
    (iblk1 V c 3 t : Vec Ideal S128x128 .f32) = (V c (Pipeline.arrRef spec1 3) : S128x128.Idx → EReal) := by
  obtain ⟨-, -, -, -, ⟨e0, e1⟩, -⟩ := idx_facts t
  unfold iblk1
  funext j
  rw [View.read_apply]
  show (V c (Pipeline.arrRef spec1 3) : S128x128.Idx → EReal) (((cfg1.win 3).blk t).view.emb j) = _
  refine congrArg (V c (Pipeline.arrRef spec1 3) : S128x128.Idx → EReal) ?_
  funext a; apply Fin.ext
  match a with
  | ⟨0, _⟩ => show win1_3.index t (0 : Fin 2) * 128 + 1 * (j 0).val = (j 0).val; omega
  | ⟨1, _⟩ => show win1_3.index t (1 : Fin 2) * 128 + 1 * (j 1).val = (j 1).val; omega

/-- Window 4 (second weight matrix): its block at every point is the whole array. -/
theorem blk4_eq (c : Dev nD) (t : Fin cfg1.N) :
    (iblk1 V c 4 t : Vec Ideal S128x128 .f32) = (V c (Pipeline.arrRef spec1 4) : S128x128.Idx → EReal) := by
  obtain ⟨-, -, -, -, -, ⟨e0, e1⟩, -⟩ := idx_facts t
  unfold iblk1
  funext j
  rw [View.read_apply]
  show (V c (Pipeline.arrRef spec1 4) : S128x128.Idx → EReal) (((cfg1.win 4).blk t).view.emb j) = _
  refine congrArg (V c (Pipeline.arrRef spec1 4) : S128x128.Idx → EReal) ?_
  funext a; apply Fin.ext
  match a with
  | ⟨0, _⟩ => show win1_4.index t (0 : Fin 2) * 128 + 1 * (j 0).val = (j 0).val; omega
  | ⟨1, _⟩ => show win1_4.index t (1 : Fin 2) * 128 + 1 * (j 1).val = (j 1).val; omega

/-- Window 5 (bias row): its block at every point is the whole array. -/
theorem blk5_eq (c : Dev nD) (t : Fin cfg1.N) :
    (iblk1 V c 5 t : Vec Ideal S1x128 .f32) = (V c (Pipeline.arrRef spec1 5) : S1x128.Idx → EReal) := by
  obtain ⟨-, -, -, -, -, -, ⟨e0, e1⟩, -⟩ := idx_facts t
  unfold iblk1
  funext j
  rw [View.read_apply]
  show (V c (Pipeline.arrRef spec1 5) : S1x128.Idx → EReal) (((cfg1.win 5).blk t).view.emb j) = _
  refine congrArg (V c (Pipeline.arrRef spec1 5) : S1x128.Idx → EReal) ?_
  funext a; apply Fin.ext
  match a with
  | ⟨0, _⟩ => show win1_5.index t (0 : Fin 2) * 1 + 1 * (j 0).val = (j 0).val; omega
  | ⟨1, _⟩ => show win1_5.index t (1 : Fin 2) * 128 + 1 * (j 1).val = (j 1).val; omega

/-- Window 6 (column means): its block at every point is the whole array. -/
theorem blk6_eq (c : Dev nD) (t : Fin cfg1.N) :
    (iblk1 V c 6 t : Vec Ideal S1x128 .f32) = (V c (Pipeline.arrRef spec1 6) : S1x128.Idx → EReal) := by
  obtain ⟨-, -, -, -, -, -, -, ⟨e0, e1⟩, -⟩ := idx_facts t
  unfold iblk1
  funext j
  rw [View.read_apply]
  show (V c (Pipeline.arrRef spec1 6) : S1x128.Idx → EReal) (((cfg1.win 6).blk t).view.emb j) = _
  refine congrArg (V c (Pipeline.arrRef spec1 6) : S1x128.Idx → EReal) ?_
  funext a; apply Fin.ext
  match a with
  | ⟨0, _⟩ => show win1_6.index t (0 : Fin 2) * 1 + 1 * (j 0).val = (j 0).val; omega
  | ⟨1, _⟩ => show win1_6.index t (1 : Fin 2) * 128 + 1 * (j 1).val = (j 1).val; omega

/-- Window 7 (column inverse standard deviations): its block at every point is the whole array. -/
theorem blk7_eq (c : Dev nD) (t : Fin cfg1.N) :
    (iblk1 V c 7 t : Vec Ideal S1x128 .f32) = (V c (Pipeline.arrRef spec1 7) : S1x128.Idx → EReal) := by
  obtain ⟨-, -, -, -, -, -, -, -, ⟨e0, e1⟩, -⟩ := idx_facts t
  unfold iblk1
  funext j
  rw [View.read_apply]
  show (V c (Pipeline.arrRef spec1 7) : S1x128.Idx → EReal) (((cfg1.win 7).blk t).view.emb j) = _
  refine congrArg (V c (Pipeline.arrRef spec1 7) : S1x128.Idx → EReal) ?_
  funext a; apply Fin.ext
  match a with
  | ⟨0, _⟩ => show win1_7.index t (0 : Fin 2) * 1 + 1 * (j 0).val = (j 0).val; omega
  | ⟨1, _⟩ => show win1_7.index t (1 : Fin 2) * 128 + 1 * (j 1).val = (j 1).val; omega

/-- Window 8 (scale row): its block at every point is the whole array. -/
theorem blk8_eq (c : Dev nD) (t : Fin cfg1.N) :
    (iblk1 V c 8 t : Vec Ideal S1x128 .f32) = (V c (Pipeline.arrRef spec1 8) : S1x128.Idx → EReal) := by
  obtain ⟨-, -, -, -, -, -, -, -, -, ⟨e0, e1⟩, -⟩ := idx_facts t
  unfold iblk1
  funext j
  rw [View.read_apply]
  show (V c (Pipeline.arrRef spec1 8) : S1x128.Idx → EReal) (((cfg1.win 8).blk t).view.emb j) = _
  refine congrArg (V c (Pipeline.arrRef spec1 8) : S1x128.Idx → EReal) ?_
  funext a; apply Fin.ext
  match a with
  | ⟨0, _⟩ => show win1_8.index t (0 : Fin 2) * 1 + 1 * (j 0).val = (j 0).val; omega
  | ⟨1, _⟩ => show win1_8.index t (1 : Fin 2) * 128 + 1 * (j 1).val = (j 1).val; omega

/-- Window 9 (shift row): its block at every point is the whole array. -/
theorem blk9_eq (c : Dev nD) (t : Fin cfg1.N) :
    (iblk1 V c 9 t : Vec Ideal S1x128 .f32) = (V c (Pipeline.arrRef spec1 9) : S1x128.Idx → EReal) := by
  obtain ⟨-, -, -, -, -, -, -, -, -, -, ⟨e0, e1⟩⟩ := idx_facts t
  unfold iblk1
  funext j
  rw [View.read_apply]
  show (V c (Pipeline.arrRef spec1 9) : S1x128.Idx → EReal) (((cfg1.win 9).blk t).view.emb j) = _
  refine congrArg (V c (Pipeline.arrRef spec1 9) : S1x128.Idx → EReal) ?_
  funext a; apply Fin.ext
  match a with
  | ⟨0, _⟩ => show win1_9.index t (0 : Fin 2) * 1 + 1 * (j 0).val = (j 0).val; omega
  | ⟨1, _⟩ => show win1_9.index t (1 : Fin 2) * 128 + 1 * (j 1).val = (j 1).val; omega

end Cert.KernelIdeal.KFinal

end
-- ==== Proof.KFinal.lean ====
/-
  The second region's result array as one function of the arrays the region finds.

  At grid point `t` the body's one store fills the output block with the normalized, rectified entries computed from
  the point's input blocks. Reading each input block where it sits in its array turns entry `(p, q)` of that block
  into the formula of the specification at row `5000·t + p` and column `q` of the arrays. The block written back at
  point `t` is therefore rows `5000·t … 5000·t + 4999` of one function of the arrays; the ten blocks cover the
  50000 rows (row `r` lies in block `r / 5000`); so the array ends holding that function everywhere.
-/
import proofs.«135360_j87393994539131_2_alg».proof.Proof.Gen.KernelIdeal.Frame
import proofs.«135360_j87393994539131_2_alg».proof.Proof.KFinalPay
import proofs.«135360_j87393994539131_2_alg».proof.Proof.KFinalBlocks
import proofs.«135360_j87393994539131_2_alg».proof.Proof.Spec
import Idealize.ShloMosaic.Lib.Pipeline.Value
import Idealize.ShloMosaic.PureOps.Ideal

set_option maxRecDepth 16384

noncomputable section

namespace Cert.KernelIdeal.KFinal

open Idealize.ShloMosaic Idealize.ShloMosaic.TcCoe Idealize.SL.Sem Idealize.ShloMosaic.ValueIdx
open Idealize.ShloMosaic.Pipeline (Dat)
open Cert.KernelIdeal.Gen

/-- The body's stored value as one function of the block index. -/
theorem body_eq (x0 x1 : Vec Ideal S5000x128 .f32) (x2 : Vec Ideal S5000x1 .f32) (x3 x4 : Vec Ideal S128x128 .f32)
    (x5 x6 x7 x8 x9 : Vec Ideal S1x128 .f32) :
    k1_pay1 (F := Ideal) (k1_pay2 x0 x2 x1 x3 x4 x5 x8 x6 x7) (k1_pay3 x9) x1
      = fun j : S5000x128.Idx => blockEntry x0 x1 x2 x3 x4 x5 x6 x7 x8 x9 (j 0) (j 1) := by
  funext j
  obtain ⟨p, q, rfl⟩ : ∃ (p : Fin 5000) (q : Fin 128), j = ix2 p q := ⟨j 0, j 1, eq_ix2 j⟩
  exact pay_apply x0 x1 x2 x3 x4 x5 x6 x7 x8 x9 p q

section
-- the buffer contents when the region is entered: a parameter, instantiated once at the end
variable (V : (c : Dev nD) → (b : Ref sig .tc) → Buf (Elt Ideal) ((c : Thread nD τ).loc b))

/-- Entry `(r, q)` of the result, from the region's ten input arrays in operand order. -/
def resultEntry (c : Dev nD) (r : Fin 50000) (q : Fin 128) : EReal :=
  Spec.outEntry (Spec.preBN (V c (Pipeline.arrRef spec1 0) : S50000x128.Idx → EReal) (V c (Pipeline.arrRef spec1 2) : S50000x1.Idx → EReal) (V c (Pipeline.arrRef spec1 1) : S50000x128.Idx → EReal) (V c (Pipeline.arrRef spec1 3) : S128x128.Idx → EReal) (V c (Pipeline.arrRef spec1 4) : S128x128.Idx → EReal) (V c (Pipeline.arrRef spec1 5) : S1x128.Idx → EReal))
    (V c (Pipeline.arrRef spec1 1) : S50000x128.Idx → EReal) (fun q => (V c (Pipeline.arrRef spec1 6) : S1x128.Idx → EReal) (ix2 (0 : Fin 1) q)) (fun q => (V c (Pipeline.arrRef spec1 7) : S1x128.Idx → EReal) (ix2 (0 : Fin 1) q)) (fun q => (V c (Pipeline.arrRef spec1 8) : S1x128.Idx → EReal) (ix2 (0 : Fin 1) q)) (fun q => (V c (Pipeline.arrRef spec1 9) : S1x128.Idx → EReal) (ix2 (0 : Fin 1) q)) r q

/-- The result array. -/
def resultArr (c : Dev nD) : S50000x128.Idx → EReal := fun i => resultEntry V c (i 0) (i 1)

/-- Entry `(p, q)` of the block stored at point `t` is the result's entry at row `5000·t + p`, column `q`. -/
theorem entry_eq (c : Dev nD) (t : Fin cfg1.N) (p : Fin 5000) (q : Fin 128) (r : Fin 50000) (q' : Fin 128)
    (hr : r.val = t.val * 5000 + p.val) (hq : q'.val = q.val) :
    blockEntry (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) p q = resultEntry V c r q' := by
  obtain rfl : q' = q := Fin.ext hq
  rw [blk3_eq V c t, blk4_eq V c t, blk5_eq V c t, blk6_eq V c t, blk7_eq V c t, blk8_eq V c t, blk9_eq V c t]
  unfold blockEntry resultEntry Spec.outEntry Spec.preBN
  simp only [blk0_apply V c t p _ r hr, blk1_apply V c t p _ r hr, blk2_apply V c t p r hr]

/-- What point `t` writes back is block `t` of the result array. -/
theorem flushed_eq (c : Dev nD) (t : Fin cfg1.N) :
    (dat1 V c).flushed 10 t = ((cfg1.win 10).blk t).view.read (Elt Ideal) (resultArr V c) := by
  obtain ⟨-, -, -, ⟨e0, e1⟩, -⟩ := idx_facts t
  show (cfg1.win 10).cut (grid1.coords t) ((dat1 V c).after 10 t) = _
  rw [after1_10]
  unfold out1_10
  rw [View.canon_unit_zero hz]
  simp only [View.ld_unit_zero (S := S5000x128) hz, View.ld_unit_zero (S := S5000x1) hz, View.ld_unit_zero (S := S128x128) hz,
    View.ld_unit_zero (S := S1x128) hz]
  refine (congrArg ((cfg1.win 10).cut (grid1.coords t))
    (body_eq (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t))).trans ?_
  funext j
  rw [View.read_apply]
  have hp : (j 0).val < 5000 := (j 0).isLt
  have hq : (j 1).val < 128 := (j 1).isLt
  have hr0 : ((((cfg1.win 10).blk t).view.emb j 0 : Fin 50000)).val = t.val * 5000 + (j 0).val := by
    show win1_10.index t (0 : Fin 2) * 5000 + 1 * (j 0).val = _; omega
  have hr1 : ((((cfg1.win 10).blk t).view.emb j 1 : Fin 128)).val = (j 1).val := by
    show win1_10.index t (1 : Fin 2) * 128 + 1 * (j 1).val = _; omega
  exact entry_eq V c t ⟨(j 0).val, hp⟩ ⟨(j 1).val, hq⟩ (((cfg1.win 10).blk t).view.emb j 0) (((cfg1.win 10).blk t).view.emb j 1) hr0 hr1

/-- Every row lies in one of the ten blocks: row `r` in block `r / 5000`. -/
theorem cover (i : S50000x128.Idx) :
    ∃ t : Fin cfg1.N, (cfg1.win 10).flush t = true ∧ i ∈ ((cfg1.win 10).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by omega⟩, rfl⟩
  obtain ⟨-, -, -, ⟨e0, e1⟩, -⟩ := idx_facts t
  refine ⟨t, flush1_10 t, ?_⟩
  show i ∈ ((View.whole main_v46).slice (win1_10.rect t)).set
  rw [View.set_slice_whole, Rect.mem_set_unit]
  intro a
  match a with
  | ⟨0, _⟩ =>
    show win1_10.index t (0 : Fin 2) * 5000 ≤ (i 0).val ∧ (i 0).val < win1_10.index t (0 : Fin 2) * 5000 + 5000
    omega
  | ⟨1, _⟩ =>
    show win1_10.index t (1 : Fin 2) * 128 ≤ (i 1).val ∧ (i 1).val < win1_10.index t (1 : Fin 2) * 128 + 128
    omega

/-- The output array after the region is the result array. -/
theorem final_arr (c : Dev nD) : (dat1 V c).arrAt 10 cfg1.N = resultArr V c :=
  (dat1 V c).arrAt_eq_of_cover 10 (resultArr V c) (fun t _ => flushed_eq V c t) cover

end

variable (m : (ℓ : Loc nD τ sig) → Buf (Elt Ideal) ℓ) (ρ : Dev nD → PrngReg)

/-- The result buffer at the last boundary, entry by entry, from the arrays the second region is entered with. -/
theorem final_apply (c : Dev nD) (r : Fin 50000) (q : Fin 128) :
    (Gen.W4 m ρ c (Proc.devRef .tc main_v46) : S50000x128.Idx → EReal) (ix2 r q)
      = Spec.outEntry (Spec.preBN (Gen.V3 m ρ c (Pipeline.arrRef spec1 0) : S50000x128.Idx → EReal) (Gen.V3 m ρ c (Pipeline.arrRef spec1 2) : S50000x1.Idx → EReal) (Gen.V3 m ρ c (Pipeline.arrRef spec1 1) : S50000x128.Idx → EReal) (Gen.V3 m ρ c (Pipeline.arrRef spec1 3) : S128x128.Idx → EReal) (Gen.V3 m ρ c (Pipeline.arrRef spec1 4) : S128x128.Idx → EReal) (Gen.V3 m ρ c (Pipeline.arrRef spec1 5) : S1x128.Idx → EReal))
          (Gen.V3 m ρ c (Pipeline.arrRef spec1 1) : S50000x128.Idx → EReal) (fun q => (Gen.V3 m ρ c (Pipeline.arrRef spec1 6) : S1x128.Idx → EReal) (ix2 (0 : Fin 1) q)) (fun q => (Gen.V3 m ρ c (Pipeline.arrRef spec1 7) : S1x128.Idx → EReal) (ix2 (0 : Fin 1) q)) (fun q => (Gen.V3 m ρ c (Pipeline.arrRef spec1 8) : S1x128.Idx → EReal) (ix2 (0 : Fin 1) q)) (fun q => (Gen.V3 m ρ c (Pipeline.arrRef spec1 9) : S1x128.Idx → EReal) (ix2 (0 : Fin 1) q)) r q :=
  congrFun ((W4_arr m ρ c 10).trans (final_arr (V3 m ρ) c)) (ix2 r q)

end Cert.KernelIdeal.KFinal

end
-- ==== Proof.KHostFold.lean ====
/-
  Buffers carried through the run unchanged.

  Between the entry of the first on-chip region and the entry of the second, the run consists of the first region's
  write-backs (which change only its two output arrays) and of the second stretch of host operations (which writes only
  its own results). So each array that the first stretch of host operations prepared, and each argument, is at the
  second region's entry what it was at the first region's entry.
-/
import proofs.«135360_j87393994539131_2_alg».proof.Proof.Gen.KernelIdeal.Frame
import Idealize.ShloMosaic.PureOps.Ideal

noncomputable section

open Idealize.ShloMosaic Idealize.ShloMosaic.TcCoe Idealize.SL.Sem
open Idealize.ShloMosaic.Pipeline (Dat)

namespace Cert.KernelIdeal.KStats

open Cert.KernelIdeal Cert.KernelIdeal.Gen

variable (m : (ℓ : Loc nD τ sig) → Buf (Elt Ideal) ℓ) (ρ : Dev nD → PrngReg)

/-- A buffer that the second stretch of host operations does not write is read through it unchanged. -/
theorem W3_eq_W2 (c : Dev nD) (b : Ref sig .tc)
    (hb : b ∉ ([main_v29, main_v30, main_cst_5, main_v31, main_v32, main_v33, main_v34, main_cst_6, main_v35, main_v36,
      main_cst_7, main_v37, main_v38, main_cst_8, main_v39, main_v40, main_v41, main_v42, main_cst_9, main_v43, main_v44,
      main_v45] : List (Ref sig .tc))) :
    Gen.W3 m ρ c (Proc.devRef .tc b) = Gen.W2 m ρ c (Proc.devRef .tc b) := by
  refine StableHlo.after_of_forall_not_mem (b := Proc.devRef .tc b) _ _ (List.forall_iff_forall_mem.mp ?_)
  simp only [Gen.hostOps1, List.Forall, StableHlo.nullary_writes, StableHlo.unary_writes, StableHlo.binary_writes,
    StableHlo.reshape_writes, Finset.mem_singleton]
  repeat' apply And.intro
  all_goals (refine StableHlo.devRef_ne_of_ne fun e => hb ?_; rw [e]; decide)

/-- An input array of the first region is, after the region, what it was at its entry. -/
theorem W2_in (c : Dev nD) (w : Fin cfg0.W) (hw : (cfg0.win w).isOut = false) :
    Gen.W2 m ρ c (Proc.devRef .tc (Pipeline.arrRef spec0 w)) = Gen.V1 m ρ c (Pipeline.arrRef spec0 w) :=
  (Gen.W2_arr m ρ c w).trans (((Gen.dat0 (Gen.V1 m ρ) c).arrAt_in w hw _).trans (Gen.A_eq0 (Gen.V1 m ρ) c w))

/-- The scattered sums, the features, the reciprocal column, the two transposed weights and the bias row: inputs of the
    first region, untouched by the second stretch. -/
theorem V3_eq_V1_msg (c : Dev nD) : Gen.V3 m ρ c main_v13 = Gen.V1 m ρ c main_v13 :=
  (W3_eq_W2 m ρ c main_v13 (by decide)).trans (W2_in m ρ c 0 rfl)
theorem V3_eq_V1_h (c : Dev nD) : Gen.V3 m ρ c main_arg0 = Gen.V1 m ρ c main_arg0 :=
  (W3_eq_W2 m ρ c main_arg0 (by decide)).trans (W2_in m ρ c 1 rfl)
theorem V3_eq_V1_inv (c : Dev nD) : Gen.V3 m ρ c main_v22 = Gen.V1 m ρ c main_v22 :=
  (W3_eq_W2 m ρ c main_v22 (by decide)).trans (W2_in m ρ c 2 rfl)
theorem V3_eq_V1_wl (c : Dev nD) : Gen.V3 m ρ c main_v23 = Gen.V1 m ρ c main_v23 :=
  (W3_eq_W2 m ρ c main_v23 (by decide)).trans (W2_in m ρ c 3 rfl)
theorem V3_eq_V1_wr (c : Dev nD) : Gen.V3 m ρ c main_v24 = Gen.V1 m ρ c main_v24 :=
  (W3_eq_W2 m ρ c main_v24 (by decide)).trans (W2_in m ρ c 4 rfl)
theorem V3_eq_V1_bl (c : Dev nD) : Gen.V3 m ρ c main_v25 = Gen.V1 m ρ c main_v25 :=
  (W3_eq_W2 m ρ c main_v25 (by decide)).trans (W2_in m ρ c 5 rfl)

/-- The scale and shift rows: no array of the first region, untouched by the second stretch. -/
theorem V3_eq_V1_gamma (c : Dev nD) : Gen.V3 m ρ c main_v26 = Gen.V1 m ρ c main_v26 :=
  (W3_eq_W2 m ρ c main_v26 (by decide)).trans (Gen.W2_of_ne m ρ c main_v26 (by decide))
theorem V3_eq_V1_beta (c : Dev nD) : Gen.V3 m ρ c main_v27 = Gen.V1 m ρ c main_v27 :=
  (W3_eq_W2 m ρ c main_v27 (by decide)).trans (Gen.W2_of_ne m ρ c main_v27 (by decide))

/-- The first region's two output arrays reach the second stretch as the region left them. -/
theorem W2_sums (c : Dev nD) : Gen.W2 m ρ c (Proc.devRef .tc main_v28_0) = (Gen.dat0 (Gen.V1 m ρ) c).arrAt 6 cfg0.N :=
  Gen.W2_arr m ρ c 6
theorem W2_sumsq (c : Dev nD) : Gen.W2 m ρ c (Proc.devRef .tc main_v28_1) = (Gen.dat0 (Gen.V1 m ρ) c).arrAt 7 cfg0.N :=
  Gen.W2_arr m ρ c 7

end Cert.KernelIdeal.KStats

end
-- ==== Proof.LibRealLaw.lean ====
/-
  Extended reals that are real numbers, and the one law this certificate rests on.

  Both programs score a user against every point of interest by the inner product of the user's preference
  vector `u` (256 entries) with the point's region embedding `r`, scaled by `a`.  One program scales the
  preference vector first and then takes the inner product, `∑ k, (u k * a) * r k`; the other takes the inner
  product and scales the result, `a * ∑ k, u k * r k`.  On the extended reals a factor moves across a sum only
  when no term is infinite, so the law is stated for entries that are real numbers; it is then the ring identity
  `∑ k, (u k * a) * r k = a * ∑ k, u k * r k` in `ℝ`.

  The rest of the file says which operations keep an extended real a real number: products, sums over a finite
  index set, maxima, and the ideal quotient by a divisor that is at least one.
-/
import Idealize.ShloMosaic.PureOps.Ideal
import Idealize.ShloMosaic.PureOps.Ideal.Laws

noncomputable section

namespace Cert.Scores

open Idealize.ShloMosaic

/-- The extended real `x` is a real number (neither infinity). -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

/-- The maximum of a real number and one is a real number that is not zero. -/
theorem max_one_eq (s : ℝ) : max (s : EReal) 1 = ((max s 1 : ℝ) : EReal) := by
  have h := (EReal.coe_strictMono.monotone).map_max (a := s) (b := (1 : ℝ))
  rw [h]; rfl

/-- The ideal quotient of a real number by the maximum of a real number and one is a real number: the divisor is
    a real number at least one, so it is not zero and the quotient is the product with its reciprocal. -/
theorem IsReal.div_max_one {x s : EReal} (hx : IsReal x) (hs : IsReal s) : IsReal (Ideal.div x (max s 1)) := by
  obtain ⟨s', rfl⟩ := hs
  rw [max_one_eq, Ideal.div_coe (ne_of_gt (lt_of_lt_of_le one_pos (le_max_right s' 1)))]
  exact hx.mul (isReal_coe _)

/-- THE LAW.  For real entries, scaling the first factor of every product by `a` scales the inner product by `a`. -/
theorem scaled_inner {n : Nat} (u r : Fin n → EReal) (a : EReal)
    (hu : ∀ k, IsReal (u k)) (hr : ∀ k, IsReal (r k)) (ha : IsReal a) :
    ∑ k : Fin n, (u k * a) * r k = a * ∑ k : Fin n, u k * r k := by
  choose u' hu' using hu
  choose r' hr' using hr
  obtain ⟨a', rfl⟩ := ha
  have hl : ∀ k : Fin n, (u k * (a' : EReal)) * r k = ((u' k * a' * r' k : ℝ) : EReal) := fun k => by
    rw [hu' k, hr' k, EReal.coe_mul, EReal.coe_mul]
  have hr2 : ∀ k : Fin n, u k * r k = ((u' k * r' k : ℝ) : EReal) := fun k => by
    rw [hu' k, hr' k, EReal.coe_mul]
  rw [Finset.sum_congr rfl fun k _ => hl k, Finset.sum_congr rfl fun k _ => hr2 k, ← coe_sum, ← coe_sum,
    ← EReal.coe_mul, Finset.mul_sum]
  exact congrArg _ (Finset.sum_congr rfl fun k _ => by ring)

end Cert.Scores

end
-- ==== Proof.Prelude.lean ====
/-
  The aggregation both programs start with, named once.

  From the edge list (row 0 the sources, row 1 the destinations) and the node features `h`, both programs first form
  `msgSum`: row `n` is the sum of `h[src e]` over the edges `e` with `dst e = n` (a gather of source rows followed by a
  scatter-add into a zero matrix), and `degMax`: entry `n` is `max (number of edges into n) 1` (ones scattered into a
  zero vector, then the maximum with one).  The two programs spell these with the same operations in the same order, so
  the terms are stated once per program and shown equal; everything after treats them as two given arrays.
  What the rest needs of them: every entry of `msgSum` is a real number when every entry of `h` is, and every entry of
  `degMax` is a real number at least one.
-/
import proofs.«135360_j87393994539131_2_alg».proof.Proof.Gen.KernelIdeal
import proofs.«135360_j87393994539131_2_alg».proof.Proof.Gen.ReferenceIdeal
import proofs.«135360_j87393994539131_2_alg».proof.Proof.LibRealLaw
import proofs.«135360_j87393994539131_2_alg».proof.Proof.Spec

noncomputable section

namespace Cert.Prelude

open Idealize.ShloMosaic

section K
open Cert.KernelIdeal Cert.KernelIdeal.Facts₀

/-- The destination node of every edge, as an index column. -/
def dstK (ei : (⟨Cert.KernelIdeal.S2x800000, .i32⟩ : BufTy).Contents (Elt Ideal)) : (⟨Cert.KernelIdeal.S800000x1, .i32⟩ : BufTy).Contents (Elt Ideal) :=
  broadcastInDim S800000x1 ![0] bcast_S800000_S800000x1_0
    (fun i => shapeCast S800000 (extractStridedSlice S1x800000 ![1, 0] ei slices_S2x800000_S1x800000_1_0) shapeCasts_S1x800000_S800000 i)

/-- The source node of every edge, a negative index wrapped once by the number of nodes, as an index column. -/
def srcK (ei : (⟨Cert.KernelIdeal.S2x800000, .i32⟩ : BufTy).Contents (Elt Ideal)) : (⟨Cert.KernelIdeal.S800000x1, .i32⟩ : BufTy).Contents (Elt Ideal) :=
  let v1 : (⟨S800000, .i32⟩ : BufTy).Contents (Elt Ideal) :=
    fun i => shapeCast S800000 (extractStridedSlice S1x800000 ![0, 0] ei slices_S2x800000_S1x800000_0_0) shapeCasts_S1x800000_S800000 i
  broadcastInDim S800000x1 ![0] bcast_S800000_S800000x1_0
    (select (cmpi .slt v1 (broadcastInDim S800000 ![] bcast_S_S800000 (constantI S_ 32 0#32)))
      (addi v1 (broadcastInDim S800000 ![] bcast_S_S800000 (constantI S_ 32 50000#32))) v1)

/-- Row `n` is the sum, over the edges into node `n`, of the source node's feature row. -/
def msgSumK (h : (⟨Cert.KernelIdeal.S50000x128, .f32⟩ : BufTy).Contents (Elt Ideal)) (ei : (⟨Cert.KernelIdeal.S2x800000, .i32⟩ : BufTy).Contents (Elt Ideal)) :
    (⟨Cert.KernelIdeal.S50000x128, .f32⟩ : BufTy).Contents (Elt Ideal) :=
  Host.scatterAdd (F := Ideal) scatter_S50000x128_S800000x1_S800000x128_1_0_0_1
    (broadcastInDim S50000x128 ![] bcast_S_S50000x128 (constant (F := Ideal) S_ .f32 0x00000000#32))
    (dstK ei)
    (Host.gather gather_S50000x128_S800000x1_S800000x128_1_0_n_n_0_1_1128 h (srcK ei))

/-- Entry `n` is the number of edges into node `n`, or one when there is none. -/
def degMaxK (ei : (⟨Cert.KernelIdeal.S2x800000, .i32⟩ : BufTy).Contents (Elt Ideal)) : (⟨Cert.KernelIdeal.S50000, .f32⟩ : BufTy).Contents (Elt Ideal) :=
  maximumf
    (Host.scatterAdd (F := Ideal) scatter_S50000_S800000x1_S800000_n_0_0_1
      (broadcastInDim S50000 ![] bcast_S_S50000 (constant (F := Ideal) S_ .f32 0x00000000#32))
      (dstK ei)
      (broadcastInDim S800000 ![] bcast_S_S800000 (constant (F := Ideal) S_ .f32 0x3F800000#32)))
    (broadcastInDim S50000 ![] bcast_S_S50000 (constant (F := Ideal) S_ .f32 0x3F800000#32))

end K

section R
open Cert.ReferenceIdeal Cert.ReferenceIdeal.Facts₀

/-- The destination node of every edge, as an index column. -/
def dstR (ei : (⟨Cert.ReferenceIdeal.S2x800000, .i32⟩ : BufTy).Contents (Elt Ideal)) : (⟨Cert.ReferenceIdeal.S800000x1, .i32⟩ : BufTy).Contents (Elt Ideal) :=
  broadcastInDim S800000x1 ![0] bcast_S800000_S800000x1_0
    (fun i => shapeCast S800000 (extractStridedSlice S1x800000 ![1, 0] ei slices_S2x800000_S1x800000_1_0) shapeCasts_S1x800000_S800000 i)

/-- The source node of every edge, a negative index wrapped once by the number of nodes, as an index column. -/
def srcR (ei : (⟨Cert.ReferenceIdeal.S2x800000, .i32⟩ : BufTy).Contents (Elt Ideal)) : (⟨Cert.ReferenceIdeal.S800000x1, .i32⟩ : BufTy).Contents (Elt Ideal) :=
  let v1 : (⟨S800000, .i32⟩ : BufTy).Contents (Elt Ideal) :=
    fun i => shapeCast S800000 (extractStridedSlice S1x800000 ![0, 0] ei slices_S2x800000_S1x800000_0_0) shapeCasts_S1x800000_S800000 i
  broadcastInDim S800000x1 ![0] bcast_S800000_S800000x1_0
    (select (cmpi .slt v1 (broadcastInDim S800000 ![] bcast_S_S800000 (constantI S_ 32 0#32)))
      (addi v1 (broadcastInDim S800000 ![] bcast_S_S800000 (constantI S_ 32 50000#32))) v1)

/-- Row `n` is the sum, over the edges into node `n`, of the source node's feature row. -/
def msgSumR (h : (⟨Cert.ReferenceIdeal.S50000x128, .f32⟩ : BufTy).Contents (Elt Ideal)) (ei : (⟨Cert.ReferenceIdeal.S2x800000, .i32⟩ : BufTy).Contents (Elt Ideal)) :
    (⟨Cert.ReferenceIdeal.S50000x128, .f32⟩ : BufTy).Contents (Elt Ideal) :=
  Host.scatterAdd (F := Ideal) scatter_S50000x128_S800000x1_S800000x128_1_0_0_1
    (broadcastInDim S50000x128 ![] bcast_S_S50000x128 (constant (F := Ideal) S_ .f32 0x00000000#32))
    (dstR ei)
    (Host.gather gather_S50000x128_S800000x1_S800000x128_1_0_n_n_0_1_1128 h (srcR ei))

/-- Entry `n` is the number of edges into node `n`, or one when there is none. -/
def degMaxR (ei : (⟨Cert.ReferenceIdeal.S2x800000, .i32⟩ : BufTy).Contents (Elt Ideal)) : (⟨Cert.ReferenceIdeal.S50000, .f32⟩ : BufTy).Contents (Elt Ideal) :=
  maximumf
    (Host.scatterAdd (F := Ideal) scatter_S50000_S800000x1_S800000_n_0_0_1
      (broadcastInDim S50000 ![] bcast_S_S50000 (constant (F := Ideal) S_ .f32 0x00000000#32))
      (dstR ei)
      (broadcastInDim S800000 ![] bcast_S_S800000 (constant (F := Ideal) S_ .f32 0x3F800000#32)))
    (broadcastInDim S50000 ![] bcast_S_S50000 (constant (F := Ideal) S_ .f32 0x3F800000#32))

end R

/-- The two programs' aggregation terms are one function. -/
theorem msgSum_eq (h) (ei) : msgSumK h ei = msgSumR h ei := rfl
theorem degMax_eq (ei) : degMaxK ei = degMaxR ei := rfl

end Cert.Prelude

end
-- ==== Proof.KHostMsg.lean ====
/-
  The scattered sums as the first on-chip region finds them.

  The first stretch of host operations gathers the source rows of the feature matrix, edge by edge, and adds each into
  the row of its destination node, starting from a zero matrix. Read back through the stretch, the buffer holding the
  result is that composed term of the features and the edge list.
-/
import proofs.«135360_j87393994539131_2_alg».proof.Proof.Gen.KernelIdeal.Frame
import proofs.«135360_j87393994539131_2_alg».proof.Proof.Prelude
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KStats

open Cert.KernelIdeal Cert.KernelIdeal.Gen

variable (m : (ℓ : Loc nD τ sig) → Buf (Elt Ideal) ℓ) (ρ : Dev nD → PrngReg)

/-- At the first region's entry the scattered-sum buffer holds the scatter-add of the gathered rows. -/
theorem V1_msg (c : Dev nD) :
    Gen.V1 m ρ c main_v13
      = Cert.Prelude.msgSumK (m ((c.tc : Thread nD τ).loc main_arg0)) (m ((c.tc : Thread nD τ).loc main_arg1)) := by
  show StableHlo.after Gen.hostOps0 _ (Proc.devRef .tc main_v13) = _
  after_results
  rfl

end Cert.KernelIdeal.KStats

end
-- ==== Proof.KHostInv.lean ====
/-
  The reciprocal column as the first on-chip region finds it.

  The first stretch of host operations counts the edges into each node (ones added into a zero vector), takes the
  maximum with one, divides one by it, and lays the result out as a column. Read at row r, the column holds one divided
  by that maximum at node r.
-/
import proofs.«135360_j87393994539131_2_alg».proof.Proof.Gen.KernelIdeal.Frame
import proofs.«135360_j87393994539131_2_alg».proof.Proof.Prelude
import proofs.«135360_j87393994539131_2_alg».proof.Proof.LibColumn
import Idealize.ShloMosaic.Lib.StableHlo.Run
import Idealize.ShloMosaic.Lib.IdealHost

noncomputable section

open Idealize.ShloMosaic Idealize.ShloMosaic.TcCoe Idealize.SL.Sem Idealize.ShloMosaic.ValueIdx
open Idealize.ShloMosaic.Pipeline (Dat)

namespace Cert.KernelIdeal.KStats

open Cert.KernelIdeal Cert.KernelIdeal.Gen

variable (m : (ℓ : Loc nD τ sig) → Buf (Elt Ideal) ℓ) (ρ : Dev nD → PrngReg)

/-- The column buffer is the cast, to a column, of the quotient of the all-ones vector by the clamped counts. -/
theorem V1_inv (c : Dev nD) :
    (Gen.V1 m ρ c main_v22 : S50000x1.Idx → EReal)
      = shapeCast S50000x1
          (Host.divf (F := Ideal) (broadcastInDim S50000 ![] bcast_S_S50000 (constant (F := Ideal) S_ .f32 0x3F800000#32))
            (Cert.Prelude.degMaxK (m ((c.tc : Thread nD τ).loc main_arg1))))
          shapeCasts_S50000_S50000x1 := by
  show StableHlo.after Gen.hostOps0 _ (Proc.devRef .tc main_v22) = _
  after_results
  rfl

/-- Row r of the column: one over the clamped count of node r. -/
theorem V1_inv_apply (c : Dev nD) (r : Fin 50000) :
    (Gen.V1 m ρ c main_v22 : S50000x1.Idx → EReal) (ix2 r (0 : Fin 1))
      = Ideal.div 1 (Cert.Prelude.degMaxK (m ((c.tc : Thread nD τ).loc main_arg1)) (ix1 r)) := by
  rw [V1_inv, Cert.GraphConv.Column.shapeCast_a_a1_apply, hostDivf_apply, broadcastInDim_scalar_apply]
  show Ideal.div (Ideal.ofBits .f32 0x3F800000#32) _ = _
  rw [Cert.Spec.ofBits_one]

end Cert.KernelIdeal.KStats

end
-- ==== Proof.KHostW.lean ====
/-
  The weights, the bias and the normalization's scale and shift as the on-chip regions find them.

  The first stretch of host operations transposes the two weight matrices and lays the bias, the scale and the shift
  vectors out as single rows. Read at an index: the transposed matrix at (k, q) is the matrix at (q, k), and a row at
  (0, q) is the vector at q.
-/
import proofs.«135360_j87393994539131_2_alg».proof.Proof.Gen.KernelIdeal.Frame
import Idealize.ShloMosaic.PureOps.Ideal
import Idealize.ShloMosaic.Lib.StableHlo.Run
import Idealize.ShloMosaic.Lib.Pipeline.Value
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.KStats

open Cert.KernelIdeal Cert.KernelIdeal.Gen

variable (m : (ℓ : Loc nD τ sig) → Buf (Elt Ideal) ℓ) (ρ : Dev nD → PrngReg)

theorem V1_wl (c : Dev nD) :
    (Gen.V1 m ρ c main_v23 : S128x128.Idx → EReal)
      = transpose S128x128 [1, 0] (m ((c.tc : Thread nD τ).loc main_arg2)) transposes_S128x128_S128x128_1_0 := by
  show StableHlo.after Gen.hostOps0 _ (Proc.devRef .tc main_v23) = _
  after_results
theorem V1_wr (c : Dev nD) :
    (Gen.V1 m ρ c main_v24 : S128x128.Idx → EReal)
      = transpose S128x128 [1, 0] (m ((c.tc : Thread nD τ).loc main_arg4)) transposes_S128x128_S128x128_1_0 := by
  show StableHlo.after Gen.hostOps0 _ (Proc.devRef .tc main_v24) = _
  after_results
theorem V1_bl (c : Dev nD) :
    (Gen.V1 m ρ c main_v25 : S1x128.Idx → EReal)
      = shapeCast S1x128 (m ((c.tc : Thread nD τ).loc main_arg3)) shapeCasts_S128_S1x128 := by
  show StableHlo.after Gen.hostOps0 _ (Proc.devRef .tc main_v25) = _
  after_results
  rfl
theorem V1_gamma (c : Dev nD) :
    (Gen.V1 m ρ c main_v26 : S1x128.Idx → EReal)
      = shapeCast S1x128 (m ((c.tc : Thread nD τ).loc main_arg5)) shapeCasts_S128_S1x128 := by
  show StableHlo.after Gen.hostOps0 _ (Proc.devRef .tc main_v26) = _
  after_results
  rfl
theorem V1_beta (c : Dev nD) :
    (Gen.V1 m ρ c main_v27 : S1x128.Idx → EReal)
      = shapeCast S1x128 (m ((c.tc : Thread nD τ).loc main_arg6)) shapeCasts_S128_S1x128 := by
  show StableHlo.after Gen.hostOps0 _ (Proc.devRef .tc main_v27) = _
  after_results
  rfl
theorem V1_h (c : Dev nD) : Gen.V1 m ρ c main_arg0 = m ((c.tc : Thread nD τ).loc main_arg0) := by
  show StableHlo.after Gen.hostOps0 _ (Proc.devRef .tc main_arg0) = _
  after_results

/-- The left weight as the regions read it: entry `(k, q)` is the argument's entry `(q, k)`. -/
theorem V1_wl_apply (c : Dev nD) (k q : Fin 128) :
    (Gen.V1 m ρ c main_v23 : S128x128.Idx → EReal) (ix2 k q)
      = (m ((c.tc : Thread nD τ).loc main_arg2) : S128x128.Idx → EReal) (ix2 q k) := by
  rw [V1_wl]; exact transpose_ix2_apply _ _ k q
/-- The right weight likewise. -/
theorem V1_wr_apply (c : Dev nD) (k q : Fin 128) :
    (Gen.V1 m ρ c main_v24 : S128x128.Idx → EReal) (ix2 k q)
      = (m ((c.tc : Thread nD τ).loc main_arg4) : S128x128.Idx → EReal) (ix2 q k) := by
  rw [V1_wr]; exact transpose_ix2_apply _ _ k q
/-- The bias row: entry `(0, q)` is the argument's entry `q`. -/
theorem V1_bl_apply (c : Dev nD) (q : Fin 128) :
    (Gen.V1 m ρ c main_v25 : S1x128.Idx → EReal) (ix2 (0 : Fin 1) q)
      = (m ((c.tc : Thread nD τ).loc main_arg3) : S128.Idx → EReal) (ix1 q) := by
  rw [V1_bl]; exact shapeCast_a_1a_apply _ _ 0 q
/-- The scale row likewise. -/
theorem V1_gamma_apply (c : Dev nD) (q : Fin 128) :
    (Gen.V1 m ρ c main_v26 : S1x128.Idx → EReal) (ix2 (0 : Fin 1) q)
      = (m ((c.tc : Thread nD τ).loc main_arg5) : S128.Idx → EReal) (ix1 q) := by
  rw [V1_gamma]; exact shapeCast_a_1a_apply _ _ 0 q
/-- The shift row likewise. -/
theorem V1_beta_apply (c : Dev nD) (q : Fin 128) :
    (Gen.V1 m ρ c main_v27 : S1x128.Idx → EReal) (ix2 (0 : Fin 1) q)
      = (m ((c.tc : Thread nD τ).loc main_arg6) : S128.Idx → EReal) (ix1 q) := by
  rw [V1_beta]; exact shapeCast_a_1a_apply _ _ 0 q

end Cert.KernelIdeal.KStats

end
-- ==== Proof.KHostA.lean ====
/-
  What the second on-chip region finds in the eight arrays that no region writes.

  Each is carried unchanged from the first region's entry, where it is what the first stretch of host operations made
  of the arguments: the scattered sums, the features themselves, the column of reciprocals of the clamped edge counts,
  the two weight matrices transposed, and the bias, scale and shift vectors as rows.
-/
import proofs.«135360_j87393994539131_2_alg».proof.Proof.KHostFold
import proofs.«135360_j87393994539131_2_alg».proof.Proof.KHostMsg
import proofs.«135360_j87393994539131_2_alg».proof.Proof.KHostInv
import proofs.«135360_j87393994539131_2_alg».proof.Proof.KHostW

noncomputable section

open Idealize.ShloMosaic Idealize.ShloMosaic.TcCoe Idealize.SL.Sem Idealize.ShloMosaic.ValueIdx
open Idealize.ShloMosaic.Pipeline (Dat)

namespace Cert.KernelIdeal.KStats

open Cert.KernelIdeal Cert.KernelIdeal.Gen

variable (m : (ℓ : Loc nD τ sig) → Buf (Elt Ideal) ℓ) (ρ : Dev nD → PrngReg)

/-- The scattered sums: the scatter-add, by destination node, of the gathered source rows. -/
theorem V3_msg (c : Dev nD) :
    Gen.V3 m ρ c main_v13
      = Cert.Prelude.msgSumK (m ((c.tc : Thread nD τ).loc main_arg0)) (m ((c.tc : Thread nD τ).loc main_arg1)) :=
  (V3_eq_V1_msg m ρ c).trans (V1_msg m ρ c)

/-- The features are the argument. -/
theorem V3_h (c : Dev nD) : Gen.V3 m ρ c main_arg0 = m ((c.tc : Thread nD τ).loc main_arg0) :=
  (V3_eq_V1_h m ρ c).trans (V1_h m ρ c)

/-- Row r of the reciprocal column: one over the clamped edge count of node r. -/
theorem V3_inv_apply (c : Dev nD) (r : Fin 50000) :
    (Gen.V3 m ρ c main_v22 : S50000x1.Idx → EReal) (ix2 r (0 : Fin 1))
      = Ideal.div 1 (Cert.Prelude.degMaxK (m ((c.tc : Thread nD τ).loc main_arg1)) (ix1 r)) := by
  rw [V3_eq_V1_inv]; exact V1_inv_apply m ρ c r

/-- The left weight transposed: entry (k, q) is the argument's entry (q, k). -/
theorem V3_wl_apply (c : Dev nD) (k q : Fin 128) :
    (Gen.V3 m ρ c main_v23 : S128x128.Idx → EReal) (ix2 k q)
      = (m ((c.tc : Thread nD τ).loc main_arg2) : S128x128.Idx → EReal) (ix2 q k) := by
  rw [V3_eq_V1_wl]; exact V1_wl_apply m ρ c k q
/-- The right weight transposed. -/
theorem V3_wr_apply (c : Dev nD) (k q : Fin 128) :
    (Gen.V3 m ρ c main_v24 : S128x128.Idx → EReal) (ix2 k q)
      = (m ((c.tc : Thread nD τ).loc main_arg4) : S128x128.Idx → EReal) (ix2 q k) := by
  rw [V3_eq_V1_wr]; exact V1_wr_apply m ρ c k q
/-- The bias as a row. -/
theorem V3_bl_apply (c : Dev nD) (q : Fin 128) :
    (Gen.V3 m ρ c main_v25 : S1x128.Idx → EReal) (ix2 (0 : Fin 1) q)
      = (m ((c.tc : Thread nD τ).loc main_arg3) : S128.Idx → EReal) (ix1 q) := by
  rw [V3_eq_V1_bl]; exact V1_bl_apply m ρ c q
/-- The scale as a row. -/
theorem V3_gamma_apply (c : Dev nD) (q : Fin 128) :
    (Gen.V3 m ρ c main_v26 : S1x128.Idx → EReal) (ix2 (0 : Fin 1) q)
      = (m ((c.tc : Thread nD τ).loc main_arg5) : S128.Idx → EReal) (ix1 q) := by
  rw [V3_eq_V1_gamma]; exact V1_gamma_apply m ρ c q
/-- The shift as a row. -/
theorem V3_beta_apply (c : Dev nD) (q : Fin 128) :
    (Gen.V3 m ρ c main_v27 : S1x128.Idx → EReal) (ix2 (0 : Fin 1) q)
      = (m ((c.tc : Thread nD τ).loc main_arg6) : S128.Idx → EReal) (ix1 q) := by
  rw [V3_eq_V1_beta]; exact V1_beta_apply m ρ c q

end Cert.KernelIdeal.KStats

end
-- ==== Proof.LibLaneSum.lean ====
/-
  A float sum along ONE axis of a vector, read over the extended reals at an index given by coordinates: it is the
  finite sum over that axis's coordinate of the source at the index with the coordinate put back. Three forms:
  along the last axis of a matrix `[a, b]` (each row's sum), along the last axis of a rank-3 array `[a, c, b]`
  (each row's sum, slab by slab), and along the first axis of a matrix `[a, b]` (each column's sum). Each is the
  general one-axis law with the re-inserted index written by coordinates.
-/
import Idealize.ShloMosaic.PureOps.Ideal.Laws
import Idealize.ShloMosaic.Lib.ValueIdx

namespace Cert.LaneSum

open Idealize.ShloMosaic Idealize.ShloMosaic.ValueIdx

variable {φ : FTy}

/-- The sum of row `i` of a matrix: over the column coordinate. -/
theorem sum_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ d : Fin b, src (ix2 i d) := by
  refine (Ideal.multiReduction_add_single src acc h hφ hacc (ix1 i)).trans ?_
  refine Finset.sum_congr rfl fun d _ => ?_
  exact congrArg src (funext fun ax => Fin.ext (by match ax with | ⟨0, _⟩ => rfl | ⟨1, _⟩ => rfl))

/-- The sum of row `(i, j)` of a rank-3 array: over the last coordinate. -/
theorem sum_last3 {a c b : ℕ} (src : FVec Ideal ⟨3, ![a, c, b]⟩ φ) (acc : BitVec φ.bits)
    (h : (⟨3, ![a, c, b]⟩ : Shape).Reduces [2] ⟨2, ![a, c]⟩) (hφ : FKind.Formats φ) (hacc : acc = FKind.add.neutral φ hφ)
    (i : Fin a) (j : Fin c) :
    multiReduction .add [2] ⟨2, ![a, c]⟩ src acc h hφ hacc (ix2 i j) = ∑ d : Fin b, src (ix3 i j d) := by
  refine (Ideal.multiReduction_add_single src acc h hφ hacc (ix2 i j)).trans ?_
  refine Finset.sum_congr rfl fun d _ => ?_
  exact congrArg src (funext fun ax => Fin.ext (by match ax with | ⟨0, _⟩ => rfl | ⟨1, _⟩ => rfl | ⟨2, _⟩ => rfl))

/-- The sum of column `j` of a matrix: over the row coordinate. -/
theorem sum_first2 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun ax => Fin.ext (by match ax with | ⟨0, _⟩ => rfl | ⟨1, _⟩ => rfl))

end Cert.LaneSum
-- ==== Proof.LibMidAxis.lean ====
/-
  Two layout operations read at an index given by coordinates, for a unit axis in the MIDDLE of a rank-3 shape: a
  matrix `[a, b]` cast to `[a, 1, b]` (each row kept as a one-row slab), and such a slab array `[a, 1, b]` broadcast
  along the unit axis to `[a, c, b]` (each row repeated `c` times). Both are instances of the general "layout operation
  read at an index" lemmas with the coordinates' arithmetic discharged, in the form the index library has for a
  leading unit axis.
-/
import Idealize.ShloMosaic.Lib.Pipeline.Value
import Idealize.ShloMosaic.Lib.ValueIdx

namespace Cert.MidAxis

open Idealize.ShloMosaic Idealize.ShloMosaic.ValueIdx

variable {α : Type}

/-- A matrix `[a, b]` cast to `[a, 1, b]` reads, at `(i, u, j)`, the operand at `(i, j)`, whatever the unit coordinate
    `u`: both indices have row-major position `i · b + j`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A slab array `[a, 1, b]` broadcast to `[a, c, b]` reads, at `(i, k, j)`, the slab of row `i` at `j`. -/
theorem broadcastTo_a1b_acb_apply {a c b : ℕ} (v : (⟨3, ![a, 1, b]⟩ : Shape).Idx → α)
    (h : (⟨3, ![a, 1, b]⟩ : Shape).Broadcasts ⟨3, ![a, c, b]⟩) (i : Fin a) (k : Fin c) (j : Fin b) :
    broadcastTo ⟨3, ![a, c, b]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

end Cert.MidAxis
-- ==== Proof.KStatsPay.lean ====
/-
  The arithmetic of the first on-chip region's body, read entry by entry over the extended reals.

  From a block of 5000 rows the body forms, at row p and column q, the aggregated row (each scattered-sum entry times
  the row's reciprocal factor) projected on column q of the first weight, plus the bias, plus the feature row projected
  on column q of the second weight. It then stores, in each of the eight rows of a one-slab output, the column sums of
  these entries over the block's 5000 rows, and likewise the column sums of their squares.
-/
import proofs.«135360_j87393994539131_2_alg».proof.Proof.Gen.KernelIdeal.Skeleton
import proofs.«135360_j87393994539131_2_alg».proof.Proof.LibPlainDot
import proofs.«135360_j87393994539131_2_alg».proof.Proof.LibColumn
import proofs.«135360_j87393994539131_2_alg».proof.Proof.LibLaneSum
import proofs.«135360_j87393994539131_2_alg».proof.Proof.LibMidAxis
import Idealize.ShloMosaic.Lib.ValueLayout
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.KStats

open Cert.KernelIdeal Cert.KernelIdeal.Gen

variable (v0 : S5000x128.Idx → EReal) (v2 : S5000x1.Idx → EReal) (v6 : S5000x128.Idx → EReal)
  (v7 v9 : S128x128.Idx → EReal) (v11 : S1x128.Idx → EReal)

/-- The body's two products are plain ones: rows by columns, one contracted axis. -/
theorem dot_plain : dot_S5000x128_S128x128_S5000x128_1_0_0_1_n_n = DotDims.plain 5000 128 128 := rfl

/-- The entry before normalization, at row p of the block and column q. -/
theorem pay1_apply (p : Fin 5000) (q : Fin 128) :
    (k0_pay1 (F := Ideal) v0 v2 v6 v7 v9 v11 : S5000x128.Idx → EReal) (ix2 p q)
      = ((∑ k : Fin 128, (v0 (ix2 p k) * v2 (ix2 p (0 : Fin 1))) * v7 (ix2 k q)) + v11 (ix2 (0 : Fin 1) q))
          + ∑ k : Fin 128, v6 (ix2 p k) * v9 (ix2 k q) := by
  unfold k0_pay1
  simp only [shapeCast_self]
  show (FloatOps.matmul _ none _ _ (constant (F := Ideal) S5000x128 .f32 0x00000000#32) (ix2 p q)
      + broadcastTo S5000x128 v11 broadcasts_S1x128_S5000x128 (ix2 p q))
      + FloatOps.matmul _ none _ _ (constant (F := Ideal) S5000x128 .f32 0x00000000#32) (ix2 p q) = _
  rw [Cert.PlainDot.matmul_zero_apply _ dot_plain, Cert.PlainDot.matmul_zero_apply _ dot_plain, broadcastTo_1b_ab_apply]
  congr 2
  refine Finset.sum_congr rfl fun k _ => ?_
  show (v0 (ix2 p k) * broadcastTo S5000x128 v2 broadcasts_S5000x1_S5000x128 (ix2 p k)) * v7 (ix2 k q) = _
  rw [Cert.GraphConv.Column.broadcastTo_a1_ab_apply]

/-- Every row of the first output slab holds, at column q, the sum of the block's entries of column q. -/
theorem pay2_apply (s : Fin 8) (q : Fin 128) :
    (k0_pay2 (F := Ideal) v0 v2 v6 v7 v9 v11 : S1x8x128.Idx → EReal) (ix3 (0 : Fin 1) s q)
      = ∑ p : Fin 5000, (k0_pay1 (F := Ideal) v0 v2 v6 v7 v9 v11 : S5000x128.Idx → EReal) (ix2 p q) := by
  unfold k0_pay2
  simp only [shapeCast_self]
  refine (Cert.MidAxis.broadcastTo_a1b_acb_apply _ _ (0 : Fin 1) s q).trans ?_
  refine (shapeCast_ab_1ab_apply _ _ (0 : Fin 1) (0 : Fin 1) q).trans ?_
  refine (shapeCast_a_1a_apply _ _ (0 : Fin 1) q).trans ?_
  exact Cert.LaneSum.sum_first2 _ _ _ _ _ q

/-- Every row of the second output slab holds, at column q, the sum of the squares of the block's entries of column q. -/
theorem pay3_apply (s : Fin 8) (q : Fin 128) :
    (k0_pay3 (F := Ideal) v0 v2 v6 v7 v9 v11 : S1x8x128.Idx → EReal) (ix3 (0 : Fin 1) s q)
      = ∑ p : Fin 5000, (k0_pay1 (F := Ideal) v0 v2 v6 v7 v9 v11 : S5000x128.Idx → EReal) (ix2 p q)
          * (k0_pay1 (F := Ideal) v0 v2 v6 v7 v9 v11 : S5000x128.Idx → EReal) (ix2 p q) := by
  unfold k0_pay3
  simp only [shapeCast_self]
  refine (Cert.MidAxis.broadcastTo_a1b_acb_apply _ _ (0 : Fin 1) s q).trans ?_
  refine (shapeCast_ab_1ab_apply _ _ (0 : Fin 1) (0 : Fin 1) q).trans ?_
  refine (shapeCast_a_1a_apply _ _ (0 : Fin 1) q).trans ?_
  exact Cert.LaneSum.sum_first2 _ _ _ _ _ q

end Cert.KernelIdeal.KStats

end
-- ==== Proof.KStatsBlock.lean ====
/-
  The first on-chip region's blocks as parts of its arrays, and its body's result on them.

  The region runs ten points; point t reads rows 5000·t … 5000·t + 4999 of the scattered sums, of the features and of
  the reciprocal column, and the whole of the two weights and of the bias row. So the body's entry at row p of the
  block is the entry before normalization at row 5000·t + p of the whole arrays, and the two slabs the point writes
  hold the sums over the block's rows of these entries and of their squares. Stated for the arrays as the region finds
  them, whatever they are.
-/
import proofs.«135360_j87393994539131_2_alg».proof.Proof.Gen.KernelIdeal.Frame
import proofs.«135360_j87393994539131_2_alg».proof.Proof.Spec
import proofs.«135360_j87393994539131_2_alg».proof.Proof.KStatsPay
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.KStats

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid: the three row-blocked inputs and the two outputs are at block t
    along their first axis, everything else at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val ∧ win0_6.index t (1 : Fin 3) = 0 ∧ win0_6.index t (2 : Fin 3) = 0
    ∧ win0_7.index t (0 : Fin 3) = t.val ∧ win0_7.index t (1 : Fin 3) = 0 ∧ win0_7.index t (2 : Fin 3) = 0 :=
  (by decide +kernel : ∀ t : Fin grid0.N, _)

/-- Row p of point t's block of the scattered sums is row 5000·t + p of the array. -/
theorem iblk0_0_apply (c : Dev nD) (t : Fin cfg0.N) (p : Fin 5000) (k : Fin 128) (r : Fin 50000)
    (hr : r.val = t.val * 5000 + p.val) :
    (iblk0 V c 0 t : S5000x128.Idx → EReal) (ix2 p k) = (V c main_v13 : S50000x128.Idx → EReal) (ix2 r k) := by
  obtain ⟨e0, e1, -⟩ := idx_facts t
  unfold iblk0
  rw [View.read_apply]
  show V c main_v13 _ = V c main_v13 _
  congr 1
  funext a; apply Fin.ext
  match a with
  | ⟨0, _⟩ => show win0_0.index t 0 * 5000 + 1 * p.val = r.val; rw [e0, hr]; omega
  | ⟨1, _⟩ => show win0_0.index t 1 * 128 + 1 * k.val = k.val; rw [e1]; omega

/-- Row p of point t's block of the features is row 5000·t + p of the array. -/
theorem iblk0_1_apply (c : Dev nD) (t : Fin cfg0.N) (p : Fin 5000) (k : Fin 128) (r : Fin 50000)
    (hr : r.val = t.val * 5000 + p.val) :
    (iblk0 V c 1 t : S5000x128.Idx → EReal) (ix2 p k) = (V c main_arg0 : S50000x128.Idx → EReal) (ix2 r k) := by
  obtain ⟨-, -, e0, e1, -⟩ := idx_facts t
  unfold iblk0
  rw [View.read_apply]
  show V c main_arg0 _ = V c main_arg0 _
  congr 1
  funext a; apply Fin.ext
  match a with
  | ⟨0, _⟩ => show win0_1.index t 0 * 5000 + 1 * p.val = r.val; rw [e0, hr]; omega
  | ⟨1, _⟩ => show win0_1.index t 1 * 128 + 1 * k.val = k.val; rw [e1]; omega

/-- Row p of point t's block of the reciprocal column is row 5000·t + p of the column. -/
theorem iblk0_2_apply (c : Dev nD) (t : Fin cfg0.N) (p : Fin 5000) (u : Fin 1) (r : Fin 50000)
    (hr : r.val = t.val * 5000 + p.val) :
    (iblk0 V c 2 t : S5000x1.Idx → EReal) (ix2 p u) = (V c main_v22 : S50000x1.Idx → EReal) (ix2 r u) := by
  obtain ⟨-, -, -, -, e0, e1, -⟩ := idx_facts t
  unfold iblk0
  rw [View.read_apply]
  show V c main_v22 _ = V c main_v22 _
  congr 1
  funext a; apply Fin.ext
  match a with
  | ⟨0, _⟩ => show win0_2.index t 0 * 5000 + 1 * p.val = r.val; rw [e0, hr]; omega
  | ⟨1, _⟩ => show win0_2.index t 1 * 1 + 1 * u.val = u.val; rw [e1]; omega

/-- Every point's block of the first weight is the whole array. -/
theorem iblk0_3_apply (c : Dev nD) (t : Fin cfg0.N) (k q : Fin 128) :
    (iblk0 V c 3 t : S128x128.Idx → EReal) (ix2 k q) = (V c main_v23 : S128x128.Idx → EReal) (ix2 k q) := by
  obtain ⟨-, -, -, -, -, -, e0, e1, -⟩ := idx_facts t
  unfold iblk0
  rw [View.read_apply]
  show V c main_v23 _ = V c main_v23 _
  congr 1
  funext a; apply Fin.ext
  match a with
  | ⟨0, _⟩ => show win0_3.index t 0 * 128 + 1 * k.val = k.val; rw [e0]; omega
  | ⟨1, _⟩ => show win0_3.index t 1 * 128 + 1 * q.val = q.val; rw [e1]; omega

/-- Every point's block of the second weight is the whole array. -/
theorem iblk0_4_apply (c : Dev nD) (t : Fin cfg0.N) (k q : Fin 128) :
    (iblk0 V c 4 t : S128x128.Idx → EReal) (ix2 k q) = (V c main_v24 : S128x128.Idx → EReal) (ix2 k q) := by
  obtain ⟨-, -, -, -, -, -, -, -, e0, e1, -⟩ := idx_facts t
  unfold iblk0
  rw [View.read_apply]
  show V c main_v24 _ = V c main_v24 _
  congr 1
  funext a; apply Fin.ext
  match a with
  | ⟨0, _⟩ => show win0_4.index t 0 * 128 + 1 * k.val = k.val; rw [e0]; omega
  | ⟨1, _⟩ => show win0_4.index t 1 * 128 + 1 * q.val = q.val; rw [e1]; omega

/-- Every point's block of the bias row is the whole row. -/
theorem iblk0_5_apply (c : Dev nD) (t : Fin cfg0.N) (u : Fin 1) (q : Fin 128) :
    (iblk0 V c 5 t : S1x128.Idx → EReal) (ix2 u q) = (V c main_v25 : S1x128.Idx → EReal) (ix2 u q) := by
  obtain ⟨-, -, -, -, -, -, -, -, -, -, e0, e1, -⟩ := idx_facts t
  unfold iblk0
  rw [View.read_apply]
  show V c main_v25 _ = V c main_v25 _
  congr 1
  funext a; apply Fin.ext
  match a with
  | ⟨0, _⟩ => show win0_5.index t 0 * 1 + 1 * u.val = u.val; rw [e0]; omega
  | ⟨1, _⟩ => show win0_5.index t 1 * 128 + 1 * q.val = q.val; rw [e1]; omega

/-- The entries before normalization, from the six arrays the region reads, as it finds them. -/
abbrev preO (c : Dev nD) : Fin 50000 → Fin 128 → EReal :=
  Cert.Spec.preBN (V c main_v13) (V c main_v22) (V c main_arg0) (V c main_v23) (V c main_v24) (V c main_v25)

/-- The body's entry at row p of point t's blocks is the entry before normalization at row 5000·t + p. -/
theorem pay1_blocks (c : Dev nD) (t : Fin cfg0.N) (t' : Fin 10) (ht : t'.val = t.val) (p : Fin 5000) (q : Fin 128) :
    (k0_pay1 (F := Ideal) (iblk0 V c 0 t) (iblk0 V c 2 t) (iblk0 V c 1 t) (iblk0 V c 3 t) (iblk0 V c 4 t) (iblk0 V c 5 t)
        : S5000x128.Idx → EReal) (ix2 p q)
      = preO V c (Cert.Spec.row t' p) q := by
  have hr : (Cert.Spec.row t' p).val = t.val * 5000 + p.val := by rw [← ht]; rfl
  refine (pay1_apply (iblk0 V c 0 t) (iblk0 V c 2 t) (iblk0 V c 1 t) (iblk0 V c 3 t) (iblk0 V c 4 t) (iblk0 V c 5 t) p q).trans ?_
  unfold preO Cert.Spec.preBN
  congr 1
  · congr 1
    · refine Finset.sum_congr rfl fun k _ => ?_
      rw [iblk0_0_apply V c t p k _ hr, iblk0_2_apply V c t p 0 _ hr, iblk0_3_apply V c t k q]
    · exact iblk0_5_apply V c t 0 q
  · refine Finset.sum_congr rfl fun k _ => ?_
    rw [iblk0_1_apply V c t p k _ hr, iblk0_4_apply V c t k q]

/-- What point t leaves in the first output's slab: in each of its eight rows, the column sums of the entries before
    normalization over the block's rows. -/
theorem pay2_blocks (c : Dev nD) (t : Fin cfg0.N) (t' : Fin 10) (ht : t'.val = t.val) (s : Fin 8) (q : Fin 128) :
    (k0_pay2 (F := Ideal) (iblk0 V c 0 t) (iblk0 V c 2 t) (iblk0 V c 1 t) (iblk0 V c 3 t) (iblk0 V c 4 t) (iblk0 V c 5 t)
        : S1x8x128.Idx → EReal) (ix3 (0 : Fin 1) s q)
      = ∑ p : Fin 5000, preO V c (Cert.Spec.row t' p) q :=
  (pay2_apply (iblk0 V c 0 t) (iblk0 V c 2 t) (iblk0 V c 1 t) (iblk0 V c 3 t) (iblk0 V c 4 t) (iblk0 V c 5 t) s q).trans
    (Finset.sum_congr rfl fun p _ => pay1_blocks V c t t' ht p q)

/-- What point t leaves in the second output's slab: the column sums of the squares. -/
theorem pay3_blocks (c : Dev nD) (t : Fin cfg0.N) (t' : Fin 10) (ht : t'.val = t.val) (s : Fin 8) (q : Fin 128) :
    (k0_pay3 (F := Ideal) (iblk0 V c 0 t) (iblk0 V c 2 t) (iblk0 V c 1 t) (iblk0 V c 3 t) (iblk0 V c 4 t) (iblk0 V c 5 t)
        : S1x8x128.Idx → EReal) (ix3 (0 : Fin 1) s q)
      = ∑ p : Fin 5000, preO V c (Cert.Spec.row t' p) q * preO V c (Cert.Spec.row t' p) q :=
  (pay3_apply (iblk0 V c 0 t) (iblk0 V c 2 t) (iblk0 V c 1 t) (iblk0 V c 3 t) (iblk0 V c 4 t) (iblk0 V c 5 t) s q).trans
    (Finset.sum_congr rfl fun p _ => by rw [pay1_blocks V c t t' ht p q])

end Cert.KernelIdeal.KStats

end
-- ==== Proof.KStatsSums.lean ====
/-
  The first output array of the first on-chip region: the per-block column sums.

  Point t writes its one slab back as slab t of the [10, 8, 128] array, and the ten slabs tile the array. So after the
  region the array holds, at (t, s, q), what point t's body left at (s, q) of its slab: the sum over the 5000 rows of block t of the entries before normalization in column q, the same in each of the eight rows s.
-/
import proofs.«135360_j87393994539131_2_alg».proof.Proof.KStatsBlock

noncomputable section

open Idealize.ShloMosaic Idealize.ShloMosaic.TcCoe Idealize.SL.Sem Idealize.ShloMosaic.ValueIdx
open Idealize.ShloMosaic.Pipeline (Dat)

namespace Cert.KernelIdeal.KStats

open Cert.KernelIdeal Cert.KernelIdeal.Gen

variable (V : (c : Dev nD) → (b : Ref sig .tc) → Buf (Elt Ideal) ((c : Thread nD τ).loc b))

/-- The array the region leaves, as one function of its index. -/
def blockSums (O : Fin 50000 → Fin 128 → EReal) : S10x8x128.Idx → EReal :=
  fun i => ∑ p : Fin 5000, O (Cert.Spec.row (i 0) p) (i 2)

theorem blockSums_apply (O : Fin 50000 → Fin 128 → EReal) (t : Fin 10) (s : Fin 8) (q : Fin 128) :
    blockSums O (ix3 t s q) = ∑ p : Fin 5000, O (Cert.Spec.row t p) q := rfl

/-- The grid point as a block number. -/
def blockOf6 (t : Fin cfg0.N) : Fin 10 := ⟨t.val, by have := t.isLt; have hN : cfg0.N = 10 := N_0; omega⟩

/-- Slab coordinate (u, s, q) of point t's block is array index (t, s, q). -/
theorem emb6 (t : Fin cfg0.N) (u : Fin 1) (s : Fin 8) (q : Fin 128) :
    ((cfg0.win 6).blk t).view.emb (ix3 u s q) = (ix3 (blockOf6 t) s q : S10x8x128.Idx) := by
  obtain ⟨-, -, -, -, -, -, -, -, -, -, -, -, e0, e1, e2, -⟩ := idx_facts t
  funext a; apply Fin.ext
  match a with
  | ⟨0, _⟩ => show win0_6.index t 0 * 1 + 1 * u.val = t.val; rw [e0]; omega
  | ⟨1, _⟩ => show win0_6.index t 1 * 8 + 1 * s.val = s.val; rw [e1]; omega
  | ⟨2, _⟩ => show win0_6.index t 2 * 128 + 1 * q.val = q.val; rw [e2]; omega

/-- What point t writes back is slab t of that function. -/
theorem flushed6_eq (c : Dev nD) (t : Fin cfg0.N) :
    (dat0 V c).flushed 6 t = ((cfg0.win 6).blk t).view.read (Elt Ideal) (blockSums (preO V c)) := by
  show (cfg0.win 6).cut (grid0.coords t) ((dat0 V c).after 6 t) = _
  rw [after0_6]
  unfold out0_6
  rw [View.canon_unit_zero hz3]
  simp only [View.ld_unit_zero (S := S5000x128) hz2, View.ld_unit_zero (S := S5000x1) hz2,
    View.ld_unit_zero (S := S128x128) hz2, View.ld_unit_zero (S := S1x128) hz2]
  funext j
  obtain ⟨u, s, q, rfl⟩ : ∃ (u : Fin 1) (s : Fin 8) (q : Fin 128), j = ix3 u s q := ⟨j 0, j 1, j 2, eq_ix3 j⟩
  obtain rfl : u = 0 := Subsingleton.elim _ _
  show (k0_pay2 (F := Ideal) (iblk0 V c 0 t) (iblk0 V c 2 t) (iblk0 V c 1 t) (iblk0 V c 3 t) (iblk0 V c 4 t) (iblk0 V c 5 t)
      : S1x8x128.Idx → EReal) (ix3 (0 : Fin 1) s q)
    = blockSums (preO V c) (((cfg0.win 6).blk t).view.emb (ix3 (0 : Fin 1) s q))
  rw [emb6 t 0 s q, blockSums_apply]
  exact pay2_blocks V c t (blockOf6 t) rfl s q

/-- An index of the array is in point t's block iff each coordinate is in the block's range on its axis. -/
theorem mem_blk6 (t : Fin cfg0.N) (i : S10x8x128.Idx) :
    i ∈ ((cfg0.win 6).blk t).view.set
      ↔ ∀ a : Fin 3, win0_6.index t a * S1x8x128.size a ≤ (i a).val ∧ (i a).val < win0_6.index t a * S1x8x128.size a + S1x8x128.size a := by
  show i ∈ ((View.whole main_v28_0).slice (win0_6.rect t)).set ↔ _
  rw [View.set_slice_whole, Rect.mem_set_unit]
  exact Iff.rfl

/-- Index (t, s, q) lies in point t's block. -/
theorem cover6 (i : S10x8x128.Idx) :
    ∃ t : Fin cfg0.N, (cfg0.win 6).flush t = true ∧ i ∈ ((cfg0.win 6).blk t).view.set := by
  have h0 : (i 0).val < 10 := (i 0).isLt
  have h1 : (i 1).val < 8 := (i 1).isLt
  have h2 : (i 2).val < 128 := (i 2).isLt
  have hN : cfg0.N = 10 := N_0
  have ht : ((⟨(i 0).val, by omega⟩ : Fin cfg0.N)).val = (i 0).val := rfl
  generalize (⟨(i 0).val, by omega⟩ : Fin cfg0.N) = t at ht
  refine ⟨t, flush0_6 t, ?_⟩
  obtain ⟨-, -, -, -, -, -, -, -, -, -, -, -, e0, e1, e2, -⟩ := idx_facts t
  rw [mem_blk6]
  intro a
  match a with
  | ⟨0, _⟩ =>
    show win0_6.index t 0 * 1 ≤ (i 0).val ∧ (i 0).val < win0_6.index t 0 * 1 + 1
    rw [e0, ht]; omega
  | ⟨1, _⟩ =>
    show win0_6.index t 1 * 8 ≤ (i 1).val ∧ (i 1).val < win0_6.index t 1 * 8 + 8
    rw [e1]; omega
  | ⟨2, _⟩ =>
    show win0_6.index t 2 * 128 ≤ (i 2).val ∧ (i 2).val < win0_6.index t 2 * 128 + 128
    rw [e2]; omega

/-- The array after the region's ten write-backs. -/
theorem final6 (c : Dev nD) : (dat0 V c).arrAt 6 cfg0.N = blockSums (preO V c) :=
  (dat0 V c).arrAt_eq_of_cover 6 (blockSums (preO V c)) (fun t _ => flushed6_eq V c t) cover6

end Cert.KernelIdeal.KStats

end
-- ==== Proof.KStatsSumsq.lean ====
/-
  The second output array of the first on-chip region: the per-block column sums of squares.

  Point t writes its one slab back as slab t of the [10, 8, 128] array, and the ten slabs tile the array. So after the
  region the array holds, at (t, s, q), what point t's body left at (s, q) of its slab: the sum over the 5000 rows of block t of the squares of the entries before normalization in column q, the same in each of the eight rows s.
-/
import proofs.«135360_j87393994539131_2_alg».proof.Proof.KStatsBlock

noncomputable section

open Idealize.ShloMosaic Idealize.ShloMosaic.TcCoe Idealize.SL.Sem Idealize.ShloMosaic.ValueIdx
open Idealize.ShloMosaic.Pipeline (Dat)

namespace Cert.KernelIdeal.KStats

open Cert.KernelIdeal Cert.KernelIdeal.Gen

variable (V : (c : Dev nD) → (b : Ref sig .tc) → Buf (Elt Ideal) ((c : Thread nD τ).loc b))

/-- The array the region leaves, as one function of its index. -/
def blockSumsq (O : Fin 50000 → Fin 128 → EReal) : S10x8x128.Idx → EReal :=
  fun i => ∑ p : Fin 5000, O (Cert.Spec.row (i 0) p) (i 2) * O (Cert.Spec.row (i 0) p) (i 2)

theorem blockSumsq_apply (O : Fin 50000 → Fin 128 → EReal) (t : Fin 10) (s : Fin 8) (q : Fin 128) :
    blockSumsq O (ix3 t s q) = ∑ p : Fin 5000, O (Cert.Spec.row t p) q * O (Cert.Spec.row t p) q := rfl

/-- The grid point as a block number. -/
def blockOf7 (t : Fin cfg0.N) : Fin 10 := ⟨t.val, by have := t.isLt; have hN : cfg0.N = 10 := N_0; omega⟩

/-- Slab coordinate (u, s, q) of point t's block is array index (t, s, q). -/
theorem emb7 (t : Fin cfg0.N) (u : Fin 1) (s : Fin 8) (q : Fin 128) :
    ((cfg0.win 7).blk t).view.emb (ix3 u s q) = (ix3 (blockOf7 t) s q : S10x8x128.Idx) := by
  obtain ⟨-, -, -, -, -, -, -, -, -, -, -, -, -, -, -, e0, e1, e2⟩ := idx_facts t
  funext a; apply Fin.ext
  match a with
  | ⟨0, _⟩ => show win0_7.index t 0 * 1 + 1 * u.val = t.val; rw [e0]; omega
  | ⟨1, _⟩ => show win0_7.index t 1 * 8 + 1 * s.val = s.val; rw [e1]; omega
  | ⟨2, _⟩ => show win0_7.index t 2 * 128 + 1 * q.val = q.val; rw [e2]; omega

/-- What point t writes back is slab t of that function. -/
theorem flushed7_eq (c : Dev nD) (t : Fin cfg0.N) :
    (dat0 V c).flushed 7 t = ((cfg0.win 7).blk t).view.read (Elt Ideal) (blockSumsq (preO V c)) := by
  show (cfg0.win 7).cut (grid0.coords t) ((dat0 V c).after 7 t) = _
  rw [after0_7]
  unfold out0_7
  rw [View.canon_unit_zero hz3]
  simp only [View.ld_unit_zero (S := S5000x128) hz2, View.ld_unit_zero (S := S5000x1) hz2,
    View.ld_unit_zero (S := S128x128) hz2, View.ld_unit_zero (S := S1x128) hz2]
  funext j
  obtain ⟨u, s, q, rfl⟩ : ∃ (u : Fin 1) (s : Fin 8) (q : Fin 128), j = ix3 u s q := ⟨j 0, j 1, j 2, eq_ix3 j⟩
  obtain rfl : u = 0 := Subsingleton.elim _ _
  show (k0_pay3 (F := Ideal) (iblk0 V c 0 t) (iblk0 V c 2 t) (iblk0 V c 1 t) (iblk0 V c 3 t) (iblk0 V c 4 t) (iblk0 V c 5 t)
      : S1x8x128.Idx → EReal) (ix3 (0 : Fin 1) s q)
    = blockSumsq (preO V c) (((cfg0.win 7).blk t).view.emb (ix3 (0 : Fin 1) s q))
  rw [emb7 t 0 s q, blockSumsq_apply]
  exact pay3_blocks V c t (blockOf7 t) rfl s q

/-- An index of the array is in point t's block iff each coordinate is in the block's range on its axis. -/
theorem mem_blk7 (t : Fin cfg0.N) (i : S10x8x128.Idx) :
    i ∈ ((cfg0.win 7).blk t).view.set
      ↔ ∀ a : Fin 3, win0_7.index t a * S1x8x128.size a ≤ (i a).val ∧ (i a).val < win0_7.index t a * S1x8x128.size a + S1x8x128.size a := by
  show i ∈ ((View.whole main_v28_1).slice (win0_7.rect t)).set ↔ _
  rw [View.set_slice_whole, Rect.mem_set_unit]
  exact Iff.rfl

/-- Index (t, s, q) lies in point t's block. -/
theorem cover7 (i : S10x8x128.Idx) :
    ∃ t : Fin cfg0.N, (cfg0.win 7).flush t = true ∧ i ∈ ((cfg0.win 7).blk t).view.set := by
  have h0 : (i 0).val < 10 := (i 0).isLt
  have h1 : (i 1).val < 8 := (i 1).isLt
  have h2 : (i 2).val < 128 := (i 2).isLt
  have hN : cfg0.N = 10 := N_0
  have ht : ((⟨(i 0).val, by omega⟩ : Fin cfg0.N)).val = (i 0).val := rfl
  generalize (⟨(i 0).val, by omega⟩ : Fin cfg0.N) = t at ht
  refine ⟨t, flush0_7 t, ?_⟩
  obtain ⟨-, -, -, -, -, -, -, -, -, -, -, -, -, -, -, e0, e1, e2⟩ := idx_facts t
  rw [mem_blk7]
  intro a
  match a with
  | ⟨0, _⟩ =>
    show win0_7.index t 0 * 1 ≤ (i 0).val ∧ (i 0).val < win0_7.index t 0 * 1 + 1
    rw [e0, ht]; omega
  | ⟨1, _⟩ =>
    show win0_7.index t 1 * 8 ≤ (i 1).val ∧ (i 1).val < win0_7.index t 1 * 8 + 8
    rw [e1]; omega
  | ⟨2, _⟩ =>
    show win0_7.index t 2 * 128 ≤ (i 2).val ∧ (i 2).val < win0_7.index t 2 * 128 + 128
    rw [e2]; omega

/-- The array after the region's ten write-backs. -/
theorem final7 (c : Dev nD) : (dat0 V c).arrAt 7 cfg0.N = blockSumsq (preO V c) :=
  (dat0 V c).arrAt_eq_of_cover 7 (blockSumsq (preO V c)) (fun t _ => flushed7_eq V c t) cover7

end Cert.KernelIdeal.KStats

end
-- ==== Proof.KStatsB.lean ====
/-
  The two arrays the first on-chip region leaves, entry by entry.

  With O the entries before normalization computed from the six arrays the region reads (as the first stretch of host
  operations left them), the first array holds at (t, s, q) the sum of O over the 5000 rows of block t in column q, and
  the second the sum of the squares, whatever the row s of the slab.
-/
import proofs.«135360_j87393994539131_2_alg».proof.Proof.KStatsSums
import proofs.«135360_j87393994539131_2_alg».proof.Proof.KStatsSumsq

noncomputable section

open Idealize.ShloMosaic Idealize.ShloMosaic.TcCoe Idealize.SL.Sem Idealize.ShloMosaic.ValueIdx
open Idealize.ShloMosaic.Pipeline (Dat)

namespace Cert.KernelIdeal.KStats

open Cert.KernelIdeal Cert.KernelIdeal.Gen

variable (m : (ℓ : Loc nD τ sig) → Buf (Elt Ideal) ℓ) (ρ : Dev nD → PrngReg)

/-- The per-block column sums. -/
theorem sums_apply (c : Dev nD) (t : Fin 10) (s : Fin 8) (q : Fin 128) :
    (Gen.W2 m ρ c (Proc.devRef .tc main_v28_0) : S10x8x128.Idx → EReal) (ix3 t s q)
      = ∑ p : Fin 5000, Cert.Spec.preBN (Gen.V1 m ρ c main_v13) (Gen.V1 m ρ c main_v22) (Gen.V1 m ρ c main_arg0) (Gen.V1 m ρ c main_v23) (Gen.V1 m ρ c main_v24) (Gen.V1 m ρ c main_v25) (Cert.Spec.row t p) q := by
  have e : (Gen.W2 m ρ c (Proc.devRef .tc main_v28_0) : S10x8x128.Idx → EReal) = blockSums (preO (Gen.V1 m ρ) c) :=
    (Gen.W2_arr m ρ c 6).trans (final6 (Gen.V1 m ρ) c)
  rw [e]
  exact blockSums_apply _ t s q

/-- The per-block column sums of squares. -/
theorem sumsq_apply (c : Dev nD) (t : Fin 10) (s : Fin 8) (q : Fin 128) :
    (Gen.W2 m ρ c (Proc.devRef .tc main_v28_1) : S10x8x128.Idx → EReal) (ix3 t s q)
      = ∑ p : Fin 5000, Cert.Spec.preBN (Gen.V1 m ρ c main_v13) (Gen.V1 m ρ c main_v22) (Gen.V1 m ρ c main_arg0) (Gen.V1 m ρ c main_v23) (Gen.V1 m ρ c main_v24) (Gen.V1 m ρ c main_v25) (Cert.Spec.row t p) q
          * Cert.Spec.preBN (Gen.V1 m ρ c main_v13) (Gen.V1 m ρ c main_v22) (Gen.V1 m ρ c main_arg0) (Gen.V1 m ρ c main_v23) (Gen.V1 m ρ c main_v24) (Gen.V1 m ρ c main_v25) (Cert.Spec.row t p) q := by
  have e : (Gen.W2 m ρ c (Proc.devRef .tc main_v28_1) : S10x8x128.Idx → EReal) = blockSumsq (preO (Gen.V1 m ρ) c) :=
    (Gen.W2_arr m ρ c 7).trans (final7 (Gen.V1 m ρ) c)
  rw [e]
  exact blockSumsq_apply _ t s q

end Cert.KernelIdeal.KStats

end
-- ==== Proof.KHostTailSpec.lean ====
/-
  The second stretch of host operations as functions of the two block-sum arrays, read entry by entry.

  From a [10, 8, 128] array the stretch takes row 0 of each of the ten slabs, adds the ten rows, and lays the result out
  as a single row: at column q, the sum over the ten slabs t of the array at (t, 0, q). The mean row is that total of the
  first array divided by the number of rows; the inverse standard deviation is the inverse square root of the total of
  the second array divided by the number of rows, minus the squared mean, plus the small constant.
-/
import proofs.«135360_j87393994539131_2_alg».proof.Proof.Gen.KernelIdeal
import proofs.«135360_j87393994539131_2_alg».proof.Proof.Spec
import Idealize.ShloMosaic.Lib.IdealHost
import Idealize.ShloMosaic.Lib.Pipeline.Value
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.KStats

open Cert.KernelIdeal Cert.KernelIdeal.Gen

/-- Row 0 of every slab, the ten rows added, as a single row. -/
def colTotal (A : FVec Ideal S10x8x128 .f32) : FVec Ideal S1x128 .f32 :=
  broadcastInDim S1x128 ![1] bcast_S128_S1x128_1
    (Host.reduceAdd (F := Ideal)
      (shapeCast S10x128 (extractStridedSlice S10x1x128 ![0, 0, 0] A slices_S10x8x128_S10x1x128_0_0_0) shapeCasts_S10x1x128_S10x128)
      (constant (F := Ideal) S_ .f32 0x00000000#32) reducesTo_S10x128_S128_d0 h_S_)

/-- The number of rows, as a row of constants. -/
def nRowsRow : FVec Ideal S1x128 .f32 := broadcastInDim S1x128 ![] bcast_S_S1x128 (constant (F := Ideal) S_ .f32 0x47435000#32)

/-- The mean row from the array of block sums. -/
def meanRow (A : FVec Ideal S10x8x128 .f32) : FVec Ideal S1x128 .f32 := Host.divf (F := Ideal) (φ := .f32) (colTotal A) nRowsRow

/-- The inverse-standard-deviation row from the arrays of block sums and of block sums of squares. -/
def invstdRow (A B : FVec Ideal S10x8x128 .f32) : FVec Ideal S1x128 .f32 :=
  Host.rsqrt (F := Ideal) (φ := .f32)
    (addf (F := Ideal) (φ := .f32) (subf (F := Ideal) (φ := .f32) (Host.divf (F := Ideal) (φ := .f32) (colTotal B) nRowsRow) (mulf (F := Ideal) (φ := .f32) (meanRow A) (meanRow A)))
      (broadcastInDim S1x128 ![] bcast_S_S1x128 (constant (F := Ideal) S_ .f32 0x3727C5AC#32)))

theorem reduces_S10x128_S128 : S10x128.Reduces [0] S128 := by decide

/-- The total at column q: the sum over the ten slabs of the array at (t, 0, q). -/
theorem colTotal_apply (A : FVec Ideal S10x8x128 .f32) (q : Fin 128) :
    colTotal A (ix2 (0 : Fin 1) q) = ∑ t : Fin 10, A (ix3 t (0 : Fin 8) q) := by
  unfold colTotal
  refine (broadcastInDim_apply _ _ _ (ix2 (0 : Fin 1) q) (ix1 q) fun a => by match a with | ⟨0, _⟩ => rfl).trans ?_
  rw [hostReduceAdd_apply, Ideal.hostReduceAdd_single _ reduces_S10x128_S128]
  show Ideal.ofBits .f32 0x00000000#32 + _ = _
  rw [Cert.Spec.ofBits_zero, zero_add]
  refine Finset.sum_congr rfl fun t _ => ?_
  have e : (reduces_S10x128_S128.lift (ix1 q) t : S10x128.Idx) = ix2 t q :=
    funext fun ax => Fin.ext (by match ax with | ⟨0, _⟩ => rfl | ⟨1, _⟩ => rfl)
  rw [e]
  refine (shapeCast_apply _ _ (ix2 t q) (ix3 t (0 : Fin 1) q) (by
    rw [Shape.rowMajor_val_three, Shape.rowMajor_val_two]
    show (t.val * 1 + 0) * 128 + q.val = t.val * 128 + q.val
    rw [Nat.mul_one, Nat.add_zero])).trans ?_
  exact extractStridedSlice_apply _ _ _ (ix3 t (0 : Fin 1) q) (ix3 t (0 : Fin 8) q) fun a => by
    match a with
    | ⟨0, _⟩ => exact (Nat.zero_add _).symm
    | ⟨1, _⟩ => exact (Nat.zero_add _).symm
    | ⟨2, _⟩ => exact (Nat.zero_add _).symm

theorem nRowsRow_apply (j : S1x128.Idx) : nRowsRow j = Cert.Spec.nRows := by
  unfold nRowsRow Cert.Spec.nRows
  rw [broadcastInDim_scalar_apply]
  rfl

/-- The mean row at column q. -/
theorem meanRow_apply (A : FVec Ideal S10x8x128 .f32) (q : Fin 128) :
    meanRow A (ix2 (0 : Fin 1) q) = Ideal.div (∑ t : Fin 10, A (ix3 t (0 : Fin 8) q)) Cert.Spec.nRows := by
  unfold meanRow
  rw [hostDivf_apply, colTotal_apply, nRowsRow_apply]

/-- The inverse-standard-deviation row at column q. -/
theorem invstdRow_apply (A B : FVec Ideal S10x8x128 .f32) (q : Fin 128) :
    invstdRow A B (ix2 (0 : Fin 1) q)
      = Ideal.rsqrt ((Ideal.div (∑ t : Fin 10, B (ix3 t (0 : Fin 8) q)) Cert.Spec.nRows
          - meanRow A (ix2 (0 : Fin 1) q) * meanRow A (ix2 (0 : Fin 1) q)) + Cert.Spec.eps) := by
  unfold invstdRow
  show Ideal.rsqrt ((Host.divf (F := Ideal) (φ := .f32) (colTotal B) nRowsRow (ix2 (0 : Fin 1) q)
      - meanRow A (ix2 (0 : Fin 1) q) * meanRow A (ix2 (0 : Fin 1) q))
      + broadcastInDim S1x128 ![] bcast_S_S1x128 (constant (F := Ideal) S_ .f32 0x3727C5AC#32) (ix2 (0 : Fin 1) q)) = _
  rw [hostDivf_apply, colTotal_apply, nRowsRow_apply, broadcastInDim_scalar_apply]
  rfl

end Cert.KernelIdeal.KStats

end
-- ==== Proof.KHostTail.lean ====
/-
  The mean row and the inverse-standard-deviation row as the second on-chip region finds them.

  Read back through the second stretch of host operations, the two rows are the stretch's functions of the two arrays
  the first region left: the per-block column sums and the per-block column sums of squares.
-/
import proofs.«135360_j87393994539131_2_alg».proof.Proof.Gen.KernelIdeal.Frame
import proofs.«135360_j87393994539131_2_alg».proof.Proof.KHostTailSpec
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KStats

open Cert.KernelIdeal Cert.KernelIdeal.Gen

variable (m : (ℓ : Loc nD τ sig) → Buf (Elt Ideal) ℓ) (ρ : Dev nD → PrngReg)

/-- The mean row is the stretch's mean of the block-sum array. -/
theorem V3_mean_term (c : Dev nD) :
    (Gen.V3 m ρ c main_v38 : S1x128.Idx → EReal) = meanRow (Gen.W2 m ρ c (Proc.devRef .tc main_v28_0)) := by
  show StableHlo.after Gen.hostOps1 (Gen.W2 m ρ c) (Proc.devRef .tc main_v38) = _
  generalize Gen.W2 m ρ c = W
  after_results
  rfl

/-- The inverse-standard-deviation row is the stretch's function of the two arrays. -/
theorem V3_invstd_term (c : Dev nD) :
    (Gen.V3 m ρ c main_v45 : S1x128.Idx → EReal)
      = invstdRow (Gen.W2 m ρ c (Proc.devRef .tc main_v28_0)) (Gen.W2 m ρ c (Proc.devRef .tc main_v28_1)) := by
  show StableHlo.after Gen.hostOps1 (Gen.W2 m ρ c) (Proc.devRef .tc main_v45) = _
  generalize Gen.W2 m ρ c = W
  after_results
  rfl

end Cert.KernelIdeal.KStats

end
-- ==== Proof.KHostC.lean ====
/-
  The column means and inverse standard deviations the second on-chip region reads.

  The mean row is, at column q, the blocked sum of column q of the entries before normalization, divided by the
  number of rows; the inverse-standard-deviation row is the inverse square root of the blocked sum of the squares
  divided by the number of rows, minus the squared mean, plus the small constant. The entries before normalization are
  those computed from the six arrays as the first stretch of host operations left them.
-/
import proofs.«135360_j87393994539131_2_alg».proof.Proof.KStatsB
import proofs.«135360_j87393994539131_2_alg».proof.Proof.KHostTail

noncomputable section

open Idealize.ShloMosaic Idealize.ShloMosaic.TcCoe Idealize.SL.Sem Idealize.ShloMosaic.ValueIdx
open Idealize.ShloMosaic.Pipeline (Dat)

namespace Cert.KernelIdeal.KStats

open Cert.KernelIdeal Cert.KernelIdeal.Gen

variable (m : (ℓ : Loc nD τ sig) → Buf (Elt Ideal) ℓ) (ρ : Dev nD → PrngReg)

/-- The mean row. -/
theorem V3_mean_apply (c : Dev nD) (q : Fin 128) :
    (Gen.V3 m ρ c main_v38 : S1x128.Idx → EReal) (ix2 (0 : Fin 1) q)
      = Cert.Spec.meanK (Cert.Spec.preBN (Gen.V1 m ρ c main_v13) (Gen.V1 m ρ c main_v22) (Gen.V1 m ρ c main_arg0) (Gen.V1 m ρ c main_v23) (Gen.V1 m ρ c main_v24) (Gen.V1 m ρ c main_v25)) q := by
  rw [V3_mean_term, meanRow_apply]
  unfold Cert.Spec.meanK Cert.Spec.blockedSum
  simp only [sums_apply m ρ c]

/-- The inverse-standard-deviation row. -/
theorem V3_invstd_apply (c : Dev nD) (q : Fin 128) :
    (Gen.V3 m ρ c main_v45 : S1x128.Idx → EReal) (ix2 (0 : Fin 1) q)
      = Cert.Spec.invstdK (Cert.Spec.preBN (Gen.V1 m ρ c main_v13) (Gen.V1 m ρ c main_v22) (Gen.V1 m ρ c main_arg0) (Gen.V1 m ρ c main_v23) (Gen.V1 m ρ c main_v24) (Gen.V1 m ρ c main_v25)) q := by
  rw [V3_invstd_term, invstdRow_apply, meanRow_apply]
  unfold Cert.Spec.invstdK Cert.Spec.meanK Cert.Spec.blockedSum
  simp only [sums_apply m ρ c, sumsq_apply m ρ c]

end Cert.KernelIdeal.KStats

end
-- ==== Proof.Finite.lean ====
/-
  What the precondition gives, and what the aggregation keeps.

  The precondition says that the absolute value of every entry of every float input is below `+∞`; on the extended
  reals that is exactly: the entry is a real number.  The aggregated matrix is, entry by entry, zero plus a finite sum
  of entries of `h`, so its entries are real numbers; the edge count into a node is zero plus a finite sum of ones, a
  real number, and its maximum with one is a real number at least one.
-/
import proofs.«135360_j87393994539131_2_alg».proof.Proof.Gen.Pre_finite_inputs
import proofs.«135360_j87393994539131_2_alg».proof.Proof.Prelude
import Idealize.ShloMosaic.Lib.ReduceAll
import Idealize.ShloMosaic.Lib.ValueIdx

noncomputable section

namespace Cert.Finite

open Idealize.ShloMosaic Cert.Scores

instance subsingleton_scalar : Subsingleton Cert.Pre_finite_inputs.S_.Idx := ⟨fun a b => funext fun d => d.elim0⟩

/-- The pattern of `+∞`. -/
theorem ofBits_inf : Ideal.ofBits .f32 0x7F800000#32 = ⊤ := by
  simp [Ideal.ofBits, Ideal.ieee]

/-- An extended real whose absolute value is below `+∞` is a real number. -/
theorem isReal_of_abs_lt (x : EReal) (h : Ideal.cmp .olt (max x (-x)) ⊤ = 1#1) : IsReal x := by
  induction x using EReal.rec with
  | bot => simp [Ideal.cmp] at h
  | coe r => exact ⟨r, rfl⟩
  | top => simp [Ideal.cmp] at h

/-- One entry of one input: the printed comparison against the broadcast `+∞` says the entry is real. -/
theorem elem {s : Shape} (a : FVec Ideal s .f32) (hb : Cert.Pre_finite_inputs.S_.BroadcastsInDim s (![] : Fin 0 → Fin s.rank)) (i : s.Idx)
    (h : cmpf .olt (Host.absf a) (broadcastInDim s ![] hb (constant Cert.Pre_finite_inputs.S_ .f32 0x7F800000#32)) i = 1#1) :
    IsReal (a i) := by
  simp only [cmpf, Host.absf, broadcastInDim, constant, Ideal.hostAbsf_def, Ideal.ofBits_def, ofBits_inf] at h
  exact isReal_of_abs_lt _ h

open Cert.Pre_finite_inputs in
/-- Under the precondition every entry of every float input is a real number. -/
theorem of_pre [Cert.Pre_finite_inputs.Facts] (a0 : FVec Ideal S50000x128 .f32) (a1 : IVec S2x800000 32) (a2 : FVec Ideal S128x128 .f32) (a3 : FVec Ideal S128 .f32)
    (a4 : FVec Ideal S128x128 .f32) (a5 a6 : FVec Ideal S128 .f32)
    (h : fn (F := Ideal) a0 a1 a2 a3 a4 a5 a6 = fun _ => 1#1) :
    (∀ i, IsReal (a0 i)) ∧ (∀ i, IsReal (a2 i)) ∧ (∀ i, IsReal (a3 i)) ∧ (∀ i, IsReal (a4 i)) ∧ (∀ i, IsReal (a5 i))
      ∧ (∀ i, IsReal (a6 i)) := by
  have h0 := congrFun h ValueIdx.ix0
  dsimp only [fn, fn_part1] at h0
  simp only [andi, IntOp.andi_eq_one] at h0
  obtain ⟨⟨⟨⟨⟨e0, e2⟩, e3⟩, e4⟩, e5⟩, e6⟩ := h0
  exact ⟨fun i => elem _ _ i (Host.reduce_andi_all _ _ _ _ _ e0 i), fun i => elem _ _ i (Host.reduce_andi_all _ _ _ _ _ e2 i),
    fun i => elem _ _ i (Host.reduce_andi_all _ _ _ _ _ e3 i), fun i => elem _ _ i (Host.reduce_andi_all _ _ _ _ _ e4 i),
    fun i => elem _ _ i (Host.reduce_andi_all _ _ _ _ _ e5 i), fun i => elem _ _ i (Host.reduce_andi_all _ _ _ _ _ e6 i)⟩

/-- A scatter-add of real updates into a real operand has real entries: each is an operand entry plus a finite sum of
    updates. -/
theorem scatterAdd_real {s si u : Shape} {w : Nat} (d : ScatterDims s si u) (x : FVec Ideal s .f32) (idx : IVec si w)
    (upd : FVec Ideal u .f32) (hx : ∀ i, IsReal (x i)) (hu : ∀ j, IsReal (upd j)) (i : s.Idx) :
    IsReal (Host.scatterAdd (F := Ideal) d x idx upd i) :=
  IsReal.add (hx i) (IsReal.sum _ fun j => hu j)

/-- A broadcast scalar literal has the literal at every entry. -/
theorem splat_apply {s : Shape} (hb : (⟨0, ![]⟩ : Shape).BroadcastsInDim s (![] : Fin 0 → Fin s.rank)) (b : BitVec 32) (i : s.Idx) :
    broadcastInDim s ![] hb (constant (F := Ideal) (⟨0, ![]⟩ : Shape) .f32 b) i = Ideal.ofBits .f32 b := by
  simp only [broadcastInDim, constant, Ideal.ofBits_def]

theorem zeros_real {s : Shape} (hb : (⟨0, ![]⟩ : Shape).BroadcastsInDim s (![] : Fin 0 → Fin s.rank)) (i : s.Idx) :
    IsReal (broadcastInDim s ![] hb (constant (F := Ideal) (⟨0, ![]⟩ : Shape) .f32 0x00000000#32) i) := by
  rw [splat_apply, Cert.Spec.ofBits_zero]; exact isReal_zero

theorem ones_real {s : Shape} (hb : (⟨0, ![]⟩ : Shape).BroadcastsInDim s (![] : Fin 0 → Fin s.rank)) (i : s.Idx) :
    IsReal (broadcastInDim s ![] hb (constant (F := Ideal) (⟨0, ![]⟩ : Shape) .f32 0x3F800000#32) i) := by
  rw [splat_apply, Cert.Spec.ofBits_one]; exact isReal_one

/-- The maximum of a real entry and a broadcast one is a real number at least one. -/
theorem max_ones {s : Shape} (hb : (⟨0, ![]⟩ : Shape).BroadcastsInDim s (![] : Fin 0 → Fin s.rank)) (x : FVec Ideal s .f32) (i : s.Idx)
    (hx : IsReal (x i)) :
    ∃ d : ℝ, 1 ≤ d ∧ maximumf x (broadcastInDim s ![] hb (constant (F := Ideal) (⟨0, ![]⟩ : Shape) .f32 0x3F800000#32)) i = (d : EReal) := by
  obtain ⟨t, ht⟩ := hx
  refine ⟨max t 1, le_max_right _ _, ?_⟩
  show max (x i) (broadcastInDim s ![] hb (constant (F := Ideal) (⟨0, ![]⟩ : Shape) .f32 0x3F800000#32) i) = _
  rw [splat_apply, Cert.Spec.ofBits_one, ht]
  exact max_one_eq t

/-- Every entry of the aggregated matrix is a real number when every entry of `h` is: it is zero plus a finite sum of
    entries of `h`. -/
theorem msgSum_real (h : (⟨Cert.KernelIdeal.S50000x128, .f32⟩ : BufTy).Contents (Elt Ideal))
    (ei : (⟨Cert.KernelIdeal.S2x800000, .i32⟩ : BufTy).Contents (Elt Ideal)) (hh : ∀ i, IsReal (h i)) (i : Cert.KernelIdeal.S50000x128.Idx) :
    IsReal (Cert.Prelude.msgSumK h ei i) :=
  scatterAdd_real _ _ _ _ (fun i => zeros_real _ i) (fun j => hh (GatherDims.operandIdx _ j _)) i

/-- Every entry of the clipped edge count is a real number at least one. -/
theorem degMax_real (ei : (⟨Cert.KernelIdeal.S2x800000, .i32⟩ : BufTy).Contents (Elt Ideal)) (n : Cert.KernelIdeal.S50000.Idx) :
    ∃ d : ℝ, 1 ≤ d ∧ Cert.Prelude.degMaxK ei n = (d : EReal) :=
  max_ones _ _ n (scatterAdd_real _ _ _ _ (fun i => zeros_real _ i) (fun j => ones_real _ j) n)

end Cert.Finite

end
-- ==== Proof.LibBlockSums.lean ====
/-
  Two laws of finite sums in an additive commutative monoid (no finiteness of the values is needed, so they
  hold in the extended reals as they stand): a sum over n·b indices is the sum over the n blocks of the sums
  within each block, and an accumulator that adds one term per step holds the partial sum.
-/
import Idealize.ShloMosaic.PureOps.Ideal
import Mathlib.Algebra.BigOperators.Fin
import Mathlib.Logic.Equiv.Fin.Basic

open scoped BigOperators

namespace Cert.BlockSums

/-- The `j`-th index of block `t`, among `n` blocks of `b` indices each, is below `n * b`. -/
theorem blk_lt {n b : ℕ} (t : Fin n) (j : Fin b) : t.val * b + j.val < n * b :=
  calc t.val * b + j.val < t.val * b + b := Nat.add_lt_add_left j.isLt _
    _ = (t.val + 1) * b := (Nat.succ_mul _ _).symm
    _ ≤ n * b := Nat.mul_le_mul_right b t.isLt

/-- a sum over n·b indices is the sum over n blocks of the sums over each block's b indices -/
theorem sum_blocks {M : Type*} [AddCommMonoid M] (n b : ℕ) (f : Fin (n * b) → M) :
    ∑ i : Fin (n * b), f i = ∑ t : Fin n, ∑ j : Fin b, f ⟨t.val * b + j.val, blk_lt t j⟩ := by
  rw [← Equiv.sum_comp (finProdFinEquiv (m := n) (n := b)) f, Fintype.sum_prod_type]
  refine Finset.sum_congr rfl fun t _ => Finset.sum_congr rfl fun j _ => ?_
  refine congrArg f (Fin.ext ?_)
  show j.val + b * t.val = t.val * b + j.val
  rw [Nat.mul_comm, Nat.add_comm]

/-- 4096 indices are 8 blocks of 512. -/
theorem sum_blocks_4096 {M : Type*} [AddCommMonoid M] (f : Fin 4096 → M) :
    ∑ i : Fin 4096, f i = ∑ t : Fin 8, ∑ j : Fin 512, f ⟨t.val * 512 + j.val, by
      have := t.isLt; have := j.isLt; omega⟩ :=
  sum_blocks 8 512 f

/-- 16384 indices are 16 blocks of 1024. -/
theorem sum_blocks_16384 {M : Type*} [AddCommMonoid M] (f : Fin 16384 → M) :
    ∑ k : Fin 16384, f k = ∑ t : Fin 16, ∑ j : Fin 1024, f ⟨t.val * 1024 + j.val, by
      have := t.isLt; have := j.isLt; omega⟩ :=
  sum_blocks 16 1024 f

/-- an accumulator that starts at zero-plus-first-block and adds one block per step holds the sum of the blocks so far -/
theorem acc_eq_sum {M : Type*} [AddCommMonoid M] (p : ℕ → M) (acc : ℕ → M) (h0 : acc 0 = 0 + p 0)
    (hs : ∀ n, acc (n + 1) = acc n + p (n + 1)) (n : ℕ) :
    acc n = ∑ k ∈ Finset.range (n + 1), p k := by
  induction n with
  | zero => rw [h0, zero_add, Finset.sum_range_one]
  | succ n ih => rw [Finset.sum_range_succ _ (n + 1), hs, ih]

/-- after the last step the accumulator holds the sum of all the blocks -/
theorem acc_last {M : Type*} [AddCommMonoid M] (N : ℕ) (p : ℕ → M) (acc : ℕ → M) (h0 : acc 0 = 0 + p 0)
    (hs : ∀ n, acc (n + 1) = acc n + p (n + 1)) :
    acc N = ∑ t : Fin (N + 1), p t.val := by
  rw [acc_eq_sum p acc h0 hs N, Finset.sum_range]

end Cert.BlockSums
-- ==== Proof.Algebra.lean ====
/-
  The laws that join the two forms of the result.

  (1) Dividing by a real number `d ≥ 1` is multiplying by `1 / d`, for every extended real; so the aggregated row divided
      by its clipped edge count is the row times the reciprocal, and the two pre-normalization matrices are one.
  (2) A sum over 50000 rows taken in ten blocks of 5000 is the sum over all rows (addition on the extended reals is
      commutative and associative; nothing need be finite).
  (3) For real numbers `a r` with mean `μ = (Σ a r) / n` over `n = 50000` rows,
      `(Σ (a r)²) / n − μ² = (Σ (a r − μ)²) / n`.  This one is an identity of the field of real numbers: it fails at
      infinite entries, which is where the precondition is used.
-/
import proofs.«135360_j87393994539131_2_alg».proof.Proof.Spec
import proofs.«135360_j87393994539131_2_alg».proof.Proof.LibRealLaw
import proofs.«135360_j87393994539131_2_alg».proof.Proof.LibBlockSums

noncomputable section

namespace Cert.Algebra

open Idealize.ShloMosaic Idealize.ShloMosaic.ValueIdx Cert.Spec Cert.Scores

/-! ## (1) the quotient and the reciprocal -/

/-- The matrix before normalization is the same whether the aggregated row is divided by `dm r` or multiplied by its
    reciprocal, the weights being read transposed and the bias as a row. -/
theorem preBN_eq (M : SND.Idx → EReal) (dm : SN.Idx → EReal) (hx : SND.Idx → EReal) (Wl Wr : SDD.Idx → EReal) (bl : SD.Idx → EReal)
    (iv : SN1.Idx → EReal) (wl wr : SDD.Idx → EReal) (b2 : S1D.Idx → EReal)
    (hdm : ∀ r : Fin 50000, ∃ d : ℝ, 1 ≤ d ∧ dm (ix1 r) = (d : EReal))
    (hiv : ∀ r : Fin 50000, iv (ix2 r (0 : Fin 1)) = Ideal.div 1 (dm (ix1 r)))
    (hwl : ∀ k q : Fin 128, wl (ix2 k q) = Wl (ix2 q k)) (hwr : ∀ k q : Fin 128, wr (ix2 k q) = Wr (ix2 q k))
    (hb : ∀ q : Fin 128, b2 (ix2 (0 : Fin 1) q) = bl (ix1 q)) (r : Fin 50000) (q : Fin 128) :
    preBN M iv hx wl wr b2 r q = preBNR M dm hx Wl Wr bl r q := by
  obtain ⟨d, hd1, hd⟩ := hdm r
  have hd0 : d ≠ 0 := ne_of_gt (lt_of_lt_of_le one_pos hd1)
  unfold preBN preBNR
  rw [hiv, hb, hd]
  simp only [hwl, hwr, Ideal.div_coe hd0, one_mul]

/-- With real inputs every entry before normalization is a real number. -/
theorem preBNR_real (M : SND.Idx → EReal) (dm : SN.Idx → EReal) (hx : SND.Idx → EReal) (Wl Wr : SDD.Idx → EReal) (bl : SD.Idx → EReal)
    (hdm : ∀ r : Fin 50000, ∃ d : ℝ, 1 ≤ d ∧ dm (ix1 r) = (d : EReal))
    (hM : ∀ i, IsReal (M i)) (hh : ∀ i, IsReal (hx i)) (hWl : ∀ i, IsReal (Wl i)) (hWr : ∀ i, IsReal (Wr i))
    (hbl : ∀ i, IsReal (bl i)) (r : Fin 50000) (q : Fin 128) : IsReal (preBNR M dm hx Wl Wr bl r q) := by
  obtain ⟨d, hd1, hd⟩ := hdm r
  have hd0 : d ≠ 0 := ne_of_gt (lt_of_lt_of_le one_pos hd1)
  unfold preBNR
  rw [hd]
  simp only [Ideal.div_coe hd0]
  exact ((IsReal.sum _ fun k => ((hM _).mul (isReal_coe _)).mul (hWl _)).add (hbl _)).add
    (IsReal.sum _ fun k => (hh _).mul (hWr _))

/-! ## (2) the blocked sum -/

theorem blockedSum_eq (f : Fin 50000 → EReal) : blockedSum f = ∑ r : Fin 50000, f r :=
  (Cert.BlockSums.sum_blocks 10 5000 f).symm

theorem meanK_eq (O : Fin 50000 → Fin 128 → EReal) (q : Fin 128) : meanK O q = meanR O q := by
  unfold meanK meanR; rw [blockedSum_eq]

/-! ## (3) the two forms of the variance -/

/-- Mean of squares minus squared mean is the mean of squared deviations, over the real numbers. -/
theorem var_real (a : Fin 50000 → ℝ) :
    (∑ r, a r * a r) * (1 / 50000) - ((∑ r, a r) * (1 / 50000)) * ((∑ r, a r) * (1 / 50000))
      = (∑ r, (a r - (∑ r, a r) * (1 / 50000)) * (a r - (∑ r, a r) * (1 / 50000))) * (1 / 50000) := by
  have e : ∀ r, (a r - (∑ r, a r) * (1 / 50000)) * (a r - (∑ r, a r) * (1 / 50000))
      = a r * a r - 2 * ((∑ r, a r) * (1 / 50000)) * a r + ((∑ r, a r) * (1 / 50000)) * ((∑ r, a r) * (1 / 50000)) := fun r => by ring
  simp only [e, Finset.sum_add_distrib, Finset.sum_sub_distrib, ← Finset.mul_sum, Finset.sum_const, Finset.card_univ,
    Fintype.card_fin, nsmul_eq_mul]
  push_cast
  ring

/-- The column mean of real entries, as a real number. -/
theorem meanR_coe (O : Fin 50000 → Fin 128 → EReal) (q : Fin 128) (a : Fin 50000 → ℝ) (ha : ∀ r, O r q = (a r : EReal)) :
    meanR O q = (((∑ r, a r) * (1 / 50000) : ℝ) : EReal) := by
  unfold meanR
  rw [nRows_eq, Ideal.div_coe (by norm_num : (50000 : ℝ) ≠ 0), Finset.sum_congr rfl fun r _ => ha r, ← coe_sum, ← EReal.coe_mul]

/-- The two inverse standard deviations of a column of real entries are one. -/
theorem invstdK_eq (O : Fin 50000 → Fin 128 → EReal) (q : Fin 128) (hO : ∀ r, IsReal (O r q)) : invstdK O q = invstdR O q := by
  choose a ha using hO
  unfold invstdK invstdR
  rw [meanK_eq, blockedSum_eq, meanR_coe O q a ha, nRows_eq]
  simp only [Ideal.div_coe (by norm_num : (50000 : ℝ) ≠ 0), ha, ← EReal.coe_mul, ← EReal.coe_sub, ← coe_sum]
  rw [var_real a]

/-! ## The two results are one -/

/-- Entry by entry the two forms of the result agree, for real inputs and a clipped count that is a real number at
    least one. -/
theorem result_eq (M : SND.Idx → EReal) (dm : SN.Idx → EReal) (hx : SND.Idx → EReal) (Wl Wr : SDD.Idx → EReal) (bl : SD.Idx → EReal)
    (iv : SN1.Idx → EReal) (wl wr : SDD.Idx → EReal) (b2 : S1D.Idx → EReal) (g be : Fin 128 → EReal)
    (hdm : ∀ r : Fin 50000, ∃ d : ℝ, 1 ≤ d ∧ dm (ix1 r) = (d : EReal))
    (hiv : ∀ r : Fin 50000, iv (ix2 r (0 : Fin 1)) = Ideal.div 1 (dm (ix1 r)))
    (hwl : ∀ k q : Fin 128, wl (ix2 k q) = Wl (ix2 q k)) (hwr : ∀ k q : Fin 128, wr (ix2 k q) = Wr (ix2 q k))
    (hb : ∀ q : Fin 128, b2 (ix2 (0 : Fin 1) q) = bl (ix1 q))
    (hM : ∀ i, IsReal (M i)) (hh : ∀ i, IsReal (hx i)) (hWl : ∀ i, IsReal (Wl i)) (hWr : ∀ i, IsReal (Wr i))
    (hbl : ∀ i, IsReal (bl i)) (r : Fin 50000) (q : Fin 128) :
    outEntry (preBN M iv hx wl wr b2) hx (meanK (preBN M iv hx wl wr b2)) (invstdK (preBN M iv hx wl wr b2)) g be r q
      = outEntry (preBNR M dm hx Wl Wr bl) hx (meanR (preBNR M dm hx Wl Wr bl)) (invstdR (preBNR M dm hx Wl Wr bl)) g be r q := by
  have e : preBN M iv hx wl wr b2 = preBNR M dm hx Wl Wr bl :=
    funext fun r => funext fun q => preBN_eq M dm hx Wl Wr bl iv wl wr b2 hdm hiv hwl hwr hb r q
  rw [e]
  unfold outEntry
  rw [meanK_eq, invstdK_eq _ q fun r => preBNR_real M dm hx Wl Wr bl hdm hM hh hWl hWr hbl r q]

end Cert.Algebra

end
-- ==== Proof.BridgeK.lean ====
/-
  The kernel's result buffer, entry by entry, in the reference's form.

  The second region leaves at entry `(r, q)` the normalized, rectified value computed from the arrays it is entered
  with; those arrays are the aggregated rows, the features, the reciprocal of the clipped edge count, the transposed
  weights, the bias, scale and shift as rows, and the column mean and inverse standard deviation the first region and
  the host operations after it computed from the same pre-normalization matrix.  With real inputs (the precondition)
  the quotient is the product with the reciprocal, the blocked column sums are the whole column sums, and the mean of
  squares minus the squared mean is the mean of squared deviations: so the entry is the reference's.
-/
import proofs.«135360_j87393994539131_2_alg».proof.Proof.KFinal
import proofs.«135360_j87393994539131_2_alg».proof.Proof.KHostA
import proofs.«135360_j87393994539131_2_alg».proof.Proof.KHostC
import proofs.«135360_j87393994539131_2_alg».proof.Proof.Finite
import proofs.«135360_j87393994539131_2_alg».proof.Proof.Algebra

noncomputable section

namespace Cert.Bridge

open Idealize.ShloMosaic Idealize.ShloMosaic.TcCoe Idealize.ShloMosaic.ValueIdx Idealize.SL.Sem Cert.KernelIdeal Cert.KernelIdeal.Gen Cert.Scores

variable (m : (ℓ : Loc nD τ sig) → Buf (Elt Ideal) ℓ) (ρ : Dev nD → PrngReg)

/-- The matrix before normalization, from the arrays the second region is entered with. -/
def preK (c : Dev nD) : Fin 50000 → Fin 128 → EReal :=
  Spec.preBN (Gen.V3 m ρ c main_v13 : S50000x128.Idx → EReal) (Gen.V3 m ρ c main_v22 : S50000x1.Idx → EReal) (Gen.V3 m ρ c main_arg0 : S50000x128.Idx → EReal) (Gen.V3 m ρ c main_v23 : S128x128.Idx → EReal) (Gen.V3 m ρ c main_v24 : S128x128.Idx → EReal) (Gen.V3 m ρ c main_v25 : S1x128.Idx → EReal)

/-- The matrix before normalization in the reference's form, from the launch memory. -/
def preR (c : Dev nD) : Fin 50000 → Fin 128 → EReal :=
  Spec.preBNR (Cert.Prelude.msgSumK (m ((c.tc : Thread nD τ).loc main_arg0)) (m ((c.tc : Thread nD τ).loc main_arg1))) (Cert.Prelude.degMaxK (m ((c.tc : Thread nD τ).loc main_arg1)))
    (m ((c.tc : Thread nD τ).loc main_arg0)) (m ((c.tc : Thread nD τ).loc main_arg2)) (m ((c.tc : Thread nD τ).loc main_arg4)) (m ((c.tc : Thread nD τ).loc main_arg3))

theorem kernel_entry (c : Dev nD)
    (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = fun _ => 1#1)
    (hmean : ∀ q : Fin 128, (Gen.V3 m ρ c main_v38 : S1x128.Idx → EReal) (ix2 (0 : Fin 1) q) = Spec.meanK (preK m ρ c) q)
    (hinv : ∀ q : Fin 128, (Gen.V3 m ρ c main_v45 : S1x128.Idx → EReal) (ix2 (0 : Fin 1) q) = Spec.invstdK (preK m ρ c) q)
    (r : Fin 50000) (q : Fin 128) :
    (Gen.W4 m ρ c (Proc.devRef .tc main_v46) : S50000x128.Idx → EReal) (ix2 r q)
      = Spec.outEntry (preR m c) (m ((c.tc : Thread nD τ).loc main_arg0)) (Spec.meanR (preR m c)) (Spec.invstdR (preR m c))
          (fun q => ((m ((c.tc : Thread nD τ).loc main_arg5)) : S128.Idx → EReal) (ix1 q)) (fun q => ((m ((c.tc : Thread nD τ).loc main_arg6)) : S128.Idx → EReal) (ix1 q)) r q := by
  obtain ⟨hh, hWl, hbl, hWr, -, -⟩ := Cert.Finite.of_pre _ _ _ _ _ _ _ hpre
  rw [Cert.KernelIdeal.KFinal.final_apply]
  show Spec.outEntry (preK m ρ c) (Gen.V3 m ρ c main_arg0 : S50000x128.Idx → EReal) (fun q => (Gen.V3 m ρ c main_v38 : S1x128.Idx → EReal) (ix2 (0 : Fin 1) q))
      (fun q => (Gen.V3 m ρ c main_v45 : S1x128.Idx → EReal) (ix2 (0 : Fin 1) q)) (fun q => (Gen.V3 m ρ c main_v26 : S1x128.Idx → EReal) (ix2 (0 : Fin 1) q))
      (fun q => (Gen.V3 m ρ c main_v27 : S1x128.Idx → EReal) (ix2 (0 : Fin 1) q)) r q = _
  rw [show (fun q => (Gen.V3 m ρ c main_v38 : S1x128.Idx → EReal) (ix2 (0 : Fin 1) q)) = Spec.meanK (preK m ρ c) from funext hmean,
    show (fun q => (Gen.V3 m ρ c main_v45 : S1x128.Idx → EReal) (ix2 (0 : Fin 1) q)) = Spec.invstdK (preK m ρ c) from funext hinv,
    show (fun q => (Gen.V3 m ρ c main_v26 : S1x128.Idx → EReal) (ix2 (0 : Fin 1) q)) = (fun q => ((m ((c.tc : Thread nD τ).loc main_arg5)) : S128.Idx → EReal) (ix1 q))
      from funext (Cert.KernelIdeal.KStats.V3_gamma_apply m ρ c),
    show (fun q => (Gen.V3 m ρ c main_v27 : S1x128.Idx → EReal) (ix2 (0 : Fin 1) q)) = (fun q => ((m ((c.tc : Thread nD τ).loc main_arg6)) : S128.Idx → EReal) (ix1 q))
      from funext (Cert.KernelIdeal.KStats.V3_beta_apply m ρ c)]
  unfold preK preR
  rw [Cert.KernelIdeal.KStats.V3_msg, Cert.KernelIdeal.KStats.V3_h]
  exact Cert.Algebra.result_eq _ (Cert.Prelude.degMaxK (m ((c.tc : Thread nD τ).loc main_arg1))) _ (m ((c.tc : Thread nD τ).loc main_arg2)) (m ((c.tc : Thread nD τ).loc main_arg4)) (m ((c.tc : Thread nD τ).loc main_arg3)) _ _ _ _ _ _
    (fun r => Cert.Finite.degMax_real _ (ix1 r)) (Cert.KernelIdeal.KStats.V3_inv_apply m ρ c) (Cert.KernelIdeal.KStats.V3_wl_apply m ρ c)
    (Cert.KernelIdeal.KStats.V3_wr_apply m ρ c) (Cert.KernelIdeal.KStats.V3_bl_apply m ρ c) (Cert.Finite.msgSum_real _ _ hh) hh hWl hWr hbl r q

/-- The column mean the second region is entered with. -/
theorem mean_eq (c : Dev nD) (q : Fin 128) : (Gen.V3 m ρ c main_v38 : S1x128.Idx → EReal) (ix2 (0 : Fin 1) q) = Spec.meanK (preK m ρ c) q := by
  unfold preK
  rw [Cert.KernelIdeal.KStats.V3_eq_V1_msg m ρ c, Cert.KernelIdeal.KStats.V3_eq_V1_inv m ρ c, Cert.KernelIdeal.KStats.V3_eq_V1_h m ρ c,
    Cert.KernelIdeal.KStats.V3_eq_V1_wl m ρ c, Cert.KernelIdeal.KStats.V3_eq_V1_wr m ρ c, Cert.KernelIdeal.KStats.V3_eq_V1_bl m ρ c]
  exact Cert.KernelIdeal.KStats.V3_mean_apply m ρ c q

/-- The column inverse standard deviation the second region is entered with. -/
theorem invstd_eq (c : Dev nD) (q : Fin 128) : (Gen.V3 m ρ c main_v45 : S1x128.Idx → EReal) (ix2 (0 : Fin 1) q) = Spec.invstdK (preK m ρ c) q := by
  unfold preK
  rw [Cert.KernelIdeal.KStats.V3_eq_V1_msg m ρ c, Cert.KernelIdeal.KStats.V3_eq_V1_inv m ρ c, Cert.KernelIdeal.KStats.V3_eq_V1_h m ρ c,
    Cert.KernelIdeal.KStats.V3_eq_V1_wl m ρ c, Cert.KernelIdeal.KStats.V3_eq_V1_wr m ρ c, Cert.KernelIdeal.KStats.V3_eq_V1_bl m ρ c]
  exact Cert.KernelIdeal.KStats.V3_invstd_apply m ρ c q

/-- The kernel's result buffer, entry by entry, in the reference's form, under the precondition. -/
theorem kernel_result (c : Dev nD)
    (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = fun _ => 1#1)
    (r : Fin 50000) (q : Fin 128) :
    (Gen.W4 m ρ c (Proc.devRef .tc main_v46) : S50000x128.Idx → EReal) (ix2 r q)
      = Spec.outEntry (preR m c) (m ((c.tc : Thread nD τ).loc main_arg0)) (Spec.meanR (preR m c)) (Spec.invstdR (preR m c))
          (fun q => ((m ((c.tc : Thread nD τ).loc main_arg5)) : S128.Idx → EReal) (ix1 q)) (fun q => ((m ((c.tc : Thread nD τ).loc main_arg6)) : S128.Idx → EReal) (ix1 q)) r q :=
  kernel_entry m ρ c hpre (mean_eq m ρ c) (invstd_eq m ρ c) r q

end Cert.Bridge

end
-- ==== Proof.RefRun.lean ====
/-
  The reference program as one straight line of host operations.

  The program is a line of tensor operations, two of which are calls of small functions: the column variance (which itself
  calls a selection between its result and a fill value) and the rectifier.  A call runs the callee's operations on buffers
  of its own, so the whole program is the list below: the callee's operations written out at the place of the call over
  that call's buffers.  Running a list of operations leaves every buffer at the fold of the operations' results over the
  contents the run started from.
-/
import proofs.«135360_j87393994539131_2_alg».proof.Proof.Gen.ReferenceIdeal
import Idealize.ShloMosaic.Lib.StableHlo.Run
import Idealize.ShloMosaic.Lib.Pipeline.Regions

noncomputable section

namespace Cert.ReferenceIdeal.RVal

open Cert.ReferenceIdeal Cert.ReferenceIdeal.Gen Idealize.ShloMosaic Idealize.ShloMosaic.TcCoe Idealize.SL.Sem Idealize.ShloMosaic.StableHlo

variable {F : FTy → Type} [FloatOps F]

/-- The program's 85 operations in order: the aggregation (26), the layer before normalization (11), the column mean and
    the column variance with its selection (28), the normalization, the rectifier and the residual sum (20). -/
abbrev ops : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_1 (constant S_ .f32 0x3F800000#32),
    unary main_cst_1 main_v14 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v15 (broadcastInDim S50000 ![] bcast_S_S50000 : (⟨S_, .f32⟩ : BufTy).Contents (Elt F) → (⟨S50000, .f32⟩ : BufTy).Contents (Elt F)),
    unary main_v3 main_v16 (broadcastInDim S800000x1 ![0] bcast_S800000_S800000x1_0 : (⟨S800000, .i32⟩ : BufTy).Contents (Elt F) → (⟨S800000x1, .i32⟩ : BufTy).Contents (Elt F)),
    ternary main_v15 main_v16 main_v14 main_v17 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_3 (constant S_ .f32 0x3F800000#32),
    unary main_cst_3 main_v18 (broadcastInDim S50000 ![] bcast_S_S50000 : (⟨S_, .f32⟩ : BufTy).Contents (Elt F) → (⟨S50000, .f32⟩ : BufTy).Contents (Elt F)),
    binary main_v17 main_v18 main_v19 (maximumf : (⟨S50000, .f32⟩ : BufTy).Contents (Elt F) → (⟨S50000, .f32⟩ : BufTy).Contents (Elt F) → (⟨S50000, .f32⟩ : BufTy).Contents (Elt F)),
    unary main_v19 main_v20 (broadcastInDim S50000x1 ![0] bcast_S50000_S50000x1_0 : (⟨S50000, .f32⟩ : BufTy).Contents (Elt F) → (⟨S50000x1, .f32⟩ : BufTy).Contents (Elt F)),
    unary main_v20 main_v21 (broadcastInDim S50000x128 ![0, 1] bcast_S50000x1_S50000x128_0_1 : (⟨S50000x1, .f32⟩ : BufTy).Contents (Elt F) → (⟨S50000x128, .f32⟩ : BufTy).Contents (Elt F)),
    binary main_v13 main_v21 main_v22 (Host.divf : (⟨S50000x128, .f32⟩ : BufTy).Contents (Elt F) → (⟨S50000x128, .f32⟩ : BufTy).Contents (Elt F) → (⟨S50000x128, .f32⟩ : BufTy).Contents (Elt F)),
    unary main_arg2 main_v23 ((transpose S128x128 [1, 0] · transposes_S128x128_S128x128_1_0) : (⟨S128x128, .f32⟩ : BufTy).Contents (Elt F) → (⟨S128x128, .f32⟩ : BufTy).Contents (Elt F)),
    binary main_v22 main_v23 main_v24 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v25 (broadcastInDim S1x128 ![1] bcast_S128_S1x128_1 : (⟨S128, .f32⟩ : BufTy).Contents (Elt F) → (⟨S1x128, .f32⟩ : BufTy).Contents (Elt F)),
    unary main_v25 main_v26 (broadcastInDim S50000x128 ![0, 1] bcast_S1x128_S50000x128_0_1 : (⟨S1x128, .f32⟩ : BufTy).Contents (Elt F) → (⟨S50000x128, .f32⟩ : BufTy).Contents (Elt F)),
    binary main_v24 main_v26 main_v27 (addf : (⟨S50000x128, .f32⟩ : BufTy).Contents (Elt F) → (⟨S50000x128, .f32⟩ : BufTy).Contents (Elt F) → (⟨S50000x128, .f32⟩ : BufTy).Contents (Elt F)),
    unary main_arg4 main_v28 ((transpose S128x128 [1, 0] · transposes_S128x128_S128x128_1_0) : (⟨S128x128, .f32⟩ : BufTy).Contents (Elt F) → (⟨S128x128, .f32⟩ : BufTy).Contents (Elt F)),
    binary main_arg0 main_v28 main_v29 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v27 main_v29 main_v30 (addf : (⟨S50000x128, .f32⟩ : BufTy).Contents (Elt F) → (⟨S50000x128, .f32⟩ : BufTy).Contents (Elt F) → (⟨S50000x128, .f32⟩ : BufTy).Contents (Elt F)),
    nullary main_cst_4 (constant S_ .f32 0x00000000#32),
    binary main_v30 main_cst_4 main_v31 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_5 (constant S_ .f32 0x47435000#32),
    unary main_cst_5 main_v32 (broadcastInDim S128 ![] bcast_S_S128 : (⟨S_, .f32⟩ : BufTy).Contents (Elt F) → (⟨S128, .f32⟩ : BufTy).Contents (Elt F)),
    binary main_v31 main_v32 main_v33 (Host.divf : (⟨S128, .f32⟩ : BufTy).Contents (Elt F) → (⟨S128, .f32⟩ : BufTy).Contents (Elt F) → (⟨S128, .f32⟩ : BufTy).Contents (Elt F)),
    nullary main_c_6 (constantI S_ 32 0#32),
    TRef.nullary main_call0.cst (constant S_ .f32 0x00000000#32),
    TRef.binary (.of main_v30) main_call0.cst main_call0.v0 (fun x v => Host.reduceAdd x v reducesTo_S50000x128_S128_d0 h_S_),
    TRef.unary main_call0.v0 main_call0.v1 (broadcastInDim S1x128 ![1] bcast_S128_S1x128_1),
    TRef.nullary main_call0.cst_0 (constant S_ .f32 0x47435000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S50000x128 ![0, 1] bcast_S1x128_S50000x128_0_1),
    TRef.binary (.of main_v30) main_call0.v4 main_call0.v5 subf,
    TRef.binary main_call0.v5 main_call0.v5 main_call0.v6 mulf,
    TRef.unary (.of main_c_6) main_call0.v7 (sitofp .f32),
    TRef.nullary main_call0.cst_1 (constant S_ .f32 0x47435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S50000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v33 main_v35 (broadcastInDim S1x128 ![1] bcast_S128_S1x128_1 : (⟨S128, .f32⟩ : BufTy).Contents (Elt F) → (⟨S1x128, .f32⟩ : BufTy).Contents (Elt F)),
    unary main_v35 main_v36 (broadcastInDim S50000x128 ![0, 1] bcast_S1x128_S50000x128_0_1 : (⟨S1x128, .f32⟩ : BufTy).Contents (Elt F) → (⟨S50000x128, .f32⟩ : BufTy).Contents (Elt F)),
    binary main_v30 main_v36 main_v37 (subf : (⟨S50000x128, .f32⟩ : BufTy).Contents (Elt F) → (⟨S50000x128, .f32⟩ : BufTy).Contents (Elt F) → (⟨S50000x128, .f32⟩ : BufTy).Contents (Elt F)),
    unary main_arg5 main_v38 (broadcastInDim S1x128 ![1] bcast_S128_S1x128_1 : (⟨S128, .f32⟩ : BufTy).Contents (Elt F) → (⟨S1x128, .f32⟩ : BufTy).Contents (Elt F)),
    unary main_v38 main_v39 (broadcastInDim S50000x128 ![0, 1] bcast_S1x128_S50000x128_0_1 : (⟨S1x128, .f32⟩ : BufTy).Contents (Elt F) → (⟨S50000x128, .f32⟩ : BufTy).Contents (Elt F)),
    binary main_v39 main_v37 main_v40 (mulf : (⟨S50000x128, .f32⟩ : BufTy).Contents (Elt F) → (⟨S50000x128, .f32⟩ : BufTy).Contents (Elt F) → (⟨S50000x128, .f32⟩ : BufTy).Contents (Elt F)),
    nullary main_cst_7 (constant S_ .f32 0x3727C5AC#32),
    unary main_cst_7 main_v41 (broadcastInDim S128 ![] bcast_S_S128 : (⟨S_, .f32⟩ : BufTy).Contents (Elt F) → (⟨S128, .f32⟩ : BufTy).Contents (Elt F)),
    binary main_v34 main_v41 main_v42 (addf : (⟨S128, .f32⟩ : BufTy).Contents (Elt F) → (⟨S128, .f32⟩ : BufTy).Contents (Elt F) → (⟨S128, .f32⟩ : BufTy).Contents (Elt F)),
    unary main_v42 main_v43 (Host.rsqrt : (⟨S128, .f32⟩ : BufTy).Contents (Elt F) → (⟨S128, .f32⟩ : BufTy).Contents (Elt F)),
    unary main_v43 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v40 main_v45 main_v46 (mulf : (⟨S50000x128, .f32⟩ : BufTy).Contents (Elt F) → (⟨S50000x128, .f32⟩ : BufTy).Contents (Elt F) → (⟨S50000x128, .f32⟩ : BufTy).Contents (Elt F)),
    unary main_arg6 main_v47 (broadcastInDim S1x128 ![1] bcast_S128_S1x128_1 : (⟨S128, .f32⟩ : BufTy).Contents (Elt F) → (⟨S1x128, .f32⟩ : BufTy).Contents (Elt F)),
    unary main_v47 main_v48 (broadcastInDim S50000x128 ![0, 1] bcast_S1x128_S50000x128_0_1 : (⟨S1x128, .f32⟩ : BufTy).Contents (Elt F) → (⟨S50000x128, .f32⟩ : BufTy).Contents (Elt F)),
    binary main_v46 main_v48 main_v49 (addf : (⟨S50000x128, .f32⟩ : BufTy).Contents (Elt F) → (⟨S50000x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (.of main_v49) main_call1.v0 main_call1.v1 maximumf,
    binary main_v50 main_arg0 main_v51 (addf : (⟨S50000x128, .f32⟩ : BufTy).Contents (Elt F) → (⟨S50000x128, .f32⟩ : BufTy).Contents (Elt F) → (⟨S50000x128, .f32⟩ : BufTy).Contents (Elt F)) ]

/-- The program is that line: with the called functions opened at their calls and the sequencing reassociated the two
    sides are the same chain of steps, which is a comparison by computation. -/
theorem main_eq (c : Dev nD) : main (F := F) c = seq ops := by chain_rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., binary_bufs_sub .., unary_bufs_sub .., unary_bufs_sub .., binary_bufs_sub .., unary_bufs_sub ..,
    binary_bufs_sub .., unary_bufs_sub .., unary_bufs_sub .., binary_bufs_sub .., unary_bufs_sub .., binary_bufs_sub ..,
    binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., nullary_bufs_sub .., unary_bufs_sub .., binary_bufs_sub ..,
    binary_bufs_sub ..⟩

/-- Every weakly fair execution of the program ends, with every buffer at the fold of the operations over the contents
    the run started from. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RVal

end
-- ==== Proof.RefValueDefs.lean ====
/-
  The reference program's result after the aggregation, as one function of the aggregated rows, the divisor column
  and the parameters.

  Given the aggregated rows `M` and the divisor `dm` (one entry per row), the program forms the layer's output
  `O = (M / dm) · Wlᵀ + bl + h · Wrᵀ`, the mean of each column of `O` over the 50000 rows, the variance of each column
  as the mean of the squared deviations from that mean, and the result
  `max (γ · (O − mean) · (variance + ε)^(-1/2) + β) 0 + h`.  Each definition below is the composition of the
  operations the program applies, in its order, over the extended reals.
-/
import proofs.«135360_j87393994539131_2_alg».proof.Proof.Gen.ReferenceIdeal
import Idealize.ShloMosaic.PureOps.Ideal

noncomputable section

namespace Cert.ReferenceIdeal.RVal

open Cert.ReferenceIdeal Cert.ReferenceIdeal.Gen Idealize.ShloMosaic

/-- A row vector of 128 entries repeated down the 50000 rows. -/
def rowsOf (v : FVec Ideal S128 .f32) : FVec Ideal S50000x128 .f32 :=
  broadcastInDim S50000x128 ![0, 1] bcast_S1x128_S50000x128_0_1 (broadcastInDim S1x128 ![1] bcast_S128_S1x128_1 v)

/-- The layer's output before normalization: the aggregated rows divided by their divisor and projected, plus the
    bias, plus the rows themselves projected. -/
def preO (M : FVec Ideal S50000x128 .f32) (dm : FVec Ideal S50000 .f32) (h : FVec Ideal S50000x128 .f32)
    (Wl : FVec Ideal S128x128 .f32) (bl : FVec Ideal S128 .f32) (Wr : FVec Ideal S128x128 .f32) : FVec Ideal S50000x128 .f32 :=
  addf
    (addf
      (Host.dotGeneral (F := Ideal) dot_S50000x128_S128x128_S50000x128_1_0_0_1_n_n none
        (Host.divf (F := Ideal) M
          (broadcastInDim S50000x128 ![0, 1] bcast_S50000x1_S50000x128_0_1 (broadcastInDim S50000x1 ![0] bcast_S50000_S50000x1_0 dm)))
        (transpose S128x128 [1, 0] Wl transposes_S128x128_S128x128_1_0))
      (rowsOf bl))
    (Host.dotGeneral (F := Ideal) dot_S50000x128_S128x128_S50000x128_1_0_0_1_n_n none h
      (transpose S128x128 [1, 0] Wr transposes_S128x128_S128x128_1_0))

/-- The mean of each column: the column's sum from zero, divided by the number of rows. -/
def colMean (O : FVec Ideal S50000x128 .f32) : FVec Ideal S128 .f32 :=
  Host.divf (F := Ideal)
    (Host.reduceAdd (F := Ideal) O (constant (F := Ideal) S_ .f32 0x00000000#32) reducesTo_S50000x128_S128_d0 h_S_)
    (broadcastInDim S128 ![] bcast_S_S128 (constant (F := Ideal) S_ .f32 0x47435000#32))

/-- The number of rows less the correction, the correction an integer converted to a float. -/
def varDivisor (ddof : IVec S_ 32) : FVec Ideal S_ .f32 :=
  subf (constant (F := Ideal) S_ .f32 0x47435000#32) (sitofp (F := Ideal) .f32 ddof)

/-- The squared deviations of every entry from its column's mean, the mean taken inside the variance. -/
def sqDev (O : FVec Ideal S50000x128 .f32) : FVec Ideal S50000x128 .f32 :=
  let d : FVec Ideal S50000x128 .f32 :=
    subf O
      (broadcastInDim S50000x128 ![0, 1] bcast_S1x128_S50000x128_0_1
        (Host.divf (F := Ideal)
          (broadcastInDim S1x128 ![1] bcast_S128_S1x128_1
            (Host.reduceAdd (F := Ideal) O (constant (F := Ideal) S_ .f32 0x00000000#32) reducesTo_S50000x128_S128_d0 h_S_))
          (broadcastInDim S1x128 ![] bcast_S_S1x128 (constant (F := Ideal) S_ .f32 0x47435000#32))))
  mulf d d

/-- The variance of each column with correction `ddof`: the column sums of the squared deviations divided by the
    corrected count where that count is positive, the fill value elsewhere. -/
def colVar (O : FVec Ideal S50000x128 .f32) (ddof : IVec S_ 32) : FVec Ideal S128 .f32 :=
  select
    (broadcastInDim S128 ![] bcast_S_S128
      (cmpf .ogt (varDivisor ddof) (constant (F := Ideal) S_ .f32 0x00000000#32)))
    (Host.divf (F := Ideal)
      (Host.reduceAdd (F := Ideal) (sqDev O) (constant (F := Ideal) S_ .f32 0x00000000#32) reducesTo_S50000x128_S128_d0 h_S_)
      (broadcastInDim S128 ![] bcast_S_S128 (varDivisor ddof)))
    (broadcastInDim S128 ![] bcast_S_S128 (id (constant (F := Ideal) S_ .f32 0x7FC00000#32)))

/-- The normalized, rectified output plus the residual rows, from the layer's output `O`. -/
def normOut (O : FVec Ideal S50000x128 .f32) (h : FVec Ideal S50000x128 .f32) (g be : FVec Ideal S128 .f32) :
    FVec Ideal S50000x128 .f32 :=
  addf
    (maximumf
      (addf
        (mulf
          (mulf (rowsOf g) (subf O (rowsOf (colMean O))))
          (rowsOf (Host.rsqrt (F := Ideal)
            (addf (colVar O (constantI S_ 32 0#32))
              (broadcastInDim S128 ![] bcast_S_S128 (constant (F := Ideal) S_ .f32 0x3727C5AC#32))))))
        (rowsOf be))
      (broadcastInDim S50000x128 ![] bcast_S_S50000x128 (constant (F := Ideal) S_ .f32 0x00000000#32)))
    h

/-- The program's result from the aggregated rows and their divisor. -/
def tailTerm (M : FVec Ideal S50000x128 .f32) (dm : FVec Ideal S50000 .f32) (h : FVec Ideal S50000x128 .f32)
    (Wl : FVec Ideal S128x128 .f32) (bl : FVec Ideal S128 .f32) (Wr : FVec Ideal S128x128 .f32) (g be : FVec Ideal S128 .f32) :
    FVec Ideal S50000x128 .f32 :=
  normOut (preO M dm h Wl bl Wr) h g be

end Cert.ReferenceIdeal.RVal

end
-- ==== Proof.LibTypedRef.lean ====
/-
  Typed references: contents moved to the buffer's type and back.

  A called function's operations are printed over TYPED references (`StableHlo.TRef sig T`): a buffer together with the
  fact that its type is `T`.  Such an operation reads its operands through `TRef.ofBuf` (the buffer's contents as
  contents of type `T`) and writes its result through `TRef.toBuf` (the other way), both transports along that fact.  So
  a fold over such operations (`StableHlo.after`), once rewritten to the operations' functions, carries a pair
  `ofBuf (toBuf v)` around every intermediate value.  The two lemmas cancel the pairs, for any reference signature and any
  value family; with them as `simp only` lemmas the fold's term becomes the plain composition of the operations'
  functions, which a definitional comparison with a staged definition of the same value then closes quickly.  (Without
  them the comparison has to see through every transport, and on a term holding a reduction or a gather it unfolds
  those first.)
-/
import Idealize.ShloMosaic.Lib.StableHlo

namespace Idealize.ShloMosaic.StableHlo.TRef

variable {sig : RefSig} {Val : EltTy → Type} {T : BufTy}

/-- Contents moved to a typed reference's buffer type and back are unchanged. -/
theorem ofBuf_toBuf (x : TRef sig T) (v : T.Contents Val) : x.ofBuf (x.toBuf v) = v := by
  obtain ⟨r, rfl, _, _⟩ := x
  rfl

/-- A buffer's contents read at the reference's type and moved back are unchanged. -/
theorem toBuf_ofBuf (x : TRef sig T) (u : x.ref.ty.Contents Val) : x.toBuf (x.ofBuf u) = u := by
  obtain ⟨r, rfl, _, _⟩ := x
  rfl

end Idealize.ShloMosaic.StableHlo.TRef
-- ==== Proof.LibFold.lean ====
/-
  A line of host operations run in two stretches.

  `StableHlo.after ops V` is the valuation after the operations `ops`, applied in order to the valuation `V`.  Running
  a concatenation is running the first stretch and then the second from what the first leaves.  With it a long
  prefix of host operations can be read stage by stage: a later stretch's result as a function of what the earlier
  stretches left at its operands, each operand then read in its own smaller stretch — instead of one composed term in
  which a value used several times is written out once per use.
-/
import Idealize.ShloMosaic.Lib.StableHlo.Run

namespace Idealize.ShloMosaic.StableHlo

variable {τ : Topo} {sig : RefSig} {Val : EltTy → Type}

/-- The valuation after two stretches run one after the other. -/
theorem after_append (l₁ l₂ : List (HloOp τ sig Val)) (V : Valuation τ sig Val) :
    after (l₁ ++ l₂) V = after l₂ (after l₁ V) := by
  induction l₁ generalizing V with
  | nil => rfl
  | cons op ops ih => exact ih (op.result V)

end Idealize.ShloMosaic.StableHlo
-- ==== Proof.RefRunRead.lean ====
/-
  The reference program's result buffer after the run, as a function of the seven argument arrays.

  The line of operations is read in four stretches, each from whatever the earlier stretches left in the buffers:
  the aggregation (the aggregated rows and the divisor column), the layer before normalization, the column mean and
  the column variance, and the normalization with the rectifier and the residual sum.  Running a concatenation of
  stretches is running them one after the other, so the result buffer holds the last stretch's function of what the
  earlier stretches computed, and the argument buffers, which no operation writes, hold what they held.
-/
import proofs.«135360_j87393994539131_2_alg».proof.Proof.RefRun
import proofs.«135360_j87393994539131_2_alg».proof.Proof.RefValueDefs
import proofs.«135360_j87393994539131_2_alg».proof.Proof.Prelude
import proofs.«135360_j87393994539131_2_alg».proof.Proof.LibTypedRef
import proofs.«135360_j87393994539131_2_alg».proof.Proof.LibFold

noncomputable section

namespace Cert.ReferenceIdeal.RVal

open Cert.ReferenceIdeal Cert.ReferenceIdeal.Gen Idealize.ShloMosaic Idealize.ShloMosaic.TcCoe Idealize.SL.Sem Idealize.ShloMosaic.StableHlo

variable {F : FTy → Type} [FloatOps F]

/-- The aggregation: the edge list split into sources and destinations, the gathered source rows summed into the
    destination rows, the edge counts, and their maximum with one. -/
abbrev opsA : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_1 (constant S_ .f32 0x3F800000#32),
    unary main_cst_1 main_v14 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v15 (broadcastInDim S50000 ![] bcast_S_S50000 : (⟨S_, .f32⟩ : BufTy).Contents (Elt F) → (⟨S50000, .f32⟩ : BufTy).Contents (Elt F)),
    unary main_v3 main_v16 (broadcastInDim S800000x1 ![0] bcast_S800000_S800000x1_0 : (⟨S800000, .i32⟩ : BufTy).Contents (Elt F) → (⟨S800000x1, .i32⟩ : BufTy).Contents (Elt F)),
    ternary main_v15 main_v16 main_v14 main_v17 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_3 (constant S_ .f32 0x3F800000#32),
    unary main_cst_3 main_v18 (broadcastInDim S50000 ![] bcast_S_S50000 : (⟨S_, .f32⟩ : BufTy).Contents (Elt F) → (⟨S50000, .f32⟩ : BufTy).Contents (Elt F)),
    binary main_v17 main_v18 main_v19 (maximumf : (⟨S50000, .f32⟩ : BufTy).Contents (Elt F) → (⟨S50000, .f32⟩ : BufTy).Contents (Elt F) → (⟨S50000, .f32⟩ : BufTy).Contents (Elt F)) ]

/-- The layer before normalization: the aggregated rows divided by their divisor and projected, the bias, the rows
    themselves projected. -/
abbrev opsB : List (HloOp τ sig (Elt F)) :=
  [ unary main_v19 main_v20 (broadcastInDim S50000x1 ![0] bcast_S50000_S50000x1_0 : (⟨S50000, .f32⟩ : BufTy).Contents (Elt F) → (⟨S50000x1, .f32⟩ : BufTy).Contents (Elt F)),
    unary main_v20 main_v21 (broadcastInDim S50000x128 ![0, 1] bcast_S50000x1_S50000x128_0_1 : (⟨S50000x1, .f32⟩ : BufTy).Contents (Elt F) → (⟨S50000x128, .f32⟩ : BufTy).Contents (Elt F)),
    binary main_v13 main_v21 main_v22 (Host.divf : (⟨S50000x128, .f32⟩ : BufTy).Contents (Elt F) → (⟨S50000x128, .f32⟩ : BufTy).Contents (Elt F) → (⟨S50000x128, .f32⟩ : BufTy).Contents (Elt F)),
    unary main_arg2 main_v23 ((transpose S128x128 [1, 0] · transposes_S128x128_S128x128_1_0) : (⟨S128x128, .f32⟩ : BufTy).Contents (Elt F) → (⟨S128x128, .f32⟩ : BufTy).Contents (Elt F)),
    binary main_v22 main_v23 main_v24 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v25 (broadcastInDim S1x128 ![1] bcast_S128_S1x128_1 : (⟨S128, .f32⟩ : BufTy).Contents (Elt F) → (⟨S1x128, .f32⟩ : BufTy).Contents (Elt F)),
    unary main_v25 main_v26 (broadcastInDim S50000x128 ![0, 1] bcast_S1x128_S50000x128_0_1 : (⟨S1x128, .f32⟩ : BufTy).Contents (Elt F) → (⟨S50000x128, .f32⟩ : BufTy).Contents (Elt F)),
    binary main_v24 main_v26 main_v27 (addf : (⟨S50000x128, .f32⟩ : BufTy).Contents (Elt F) → (⟨S50000x128, .f32⟩ : BufTy).Contents (Elt F) → (⟨S50000x128, .f32⟩ : BufTy).Contents (Elt F)),
    unary main_arg4 main_v28 ((transpose S128x128 [1, 0] · transposes_S128x128_S128x128_1_0) : (⟨S128x128, .f32⟩ : BufTy).Contents (Elt F) → (⟨S128x128, .f32⟩ : BufTy).Contents (Elt F)),
    binary main_arg0 main_v28 main_v29 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v27 main_v29 main_v30 (addf : (⟨S50000x128, .f32⟩ : BufTy).Contents (Elt F) → (⟨S50000x128, .f32⟩ : BufTy).Contents (Elt F) → (⟨S50000x128, .f32⟩ : BufTy).Contents (Elt F)) ]

/-- The column mean, and the column variance with its selection against the fill value. -/
abbrev opsC : List (HloOp τ sig (Elt F)) :=
  [ nullary main_cst_4 (constant S_ .f32 0x00000000#32),
    binary main_v30 main_cst_4 main_v31 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_5 (constant S_ .f32 0x47435000#32),
    unary main_cst_5 main_v32 (broadcastInDim S128 ![] bcast_S_S128 : (⟨S_, .f32⟩ : BufTy).Contents (Elt F) → (⟨S128, .f32⟩ : BufTy).Contents (Elt F)),
    binary main_v31 main_v32 main_v33 (Host.divf : (⟨S128, .f32⟩ : BufTy).Contents (Elt F) → (⟨S128, .f32⟩ : BufTy).Contents (Elt F) → (⟨S128, .f32⟩ : BufTy).Contents (Elt F)),
    nullary main_c_6 (constantI S_ 32 0#32),
    TRef.nullary main_call0.cst (constant S_ .f32 0x00000000#32),
    TRef.binary (.of main_v30) main_call0.cst main_call0.v0 (fun x v => Host.reduceAdd x v reducesTo_S50000x128_S128_d0 h_S_),
    TRef.unary main_call0.v0 main_call0.v1 (broadcastInDim S1x128 ![1] bcast_S128_S1x128_1),
    TRef.nullary main_call0.cst_0 (constant S_ .f32 0x47435000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S50000x128 ![0, 1] bcast_S1x128_S50000x128_0_1),
    TRef.binary (.of main_v30) main_call0.v4 main_call0.v5 subf,
    TRef.binary main_call0.v5 main_call0.v5 main_call0.v6 mulf,
    TRef.unary (.of main_c_6) main_call0.v7 (sitofp .f32),
    TRef.nullary main_call0.cst_1 (constant S_ .f32 0x47435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S50000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b) ]

/-- The normalization, the rectifier and the residual sum. -/
abbrev opsD : List (HloOp τ sig (Elt F)) :=
  [ unary main_v33 main_v35 (broadcastInDim S1x128 ![1] bcast_S128_S1x128_1 : (⟨S128, .f32⟩ : BufTy).Contents (Elt F) → (⟨S1x128, .f32⟩ : BufTy).Contents (Elt F)),
    unary main_v35 main_v36 (broadcastInDim S50000x128 ![0, 1] bcast_S1x128_S50000x128_0_1 : (⟨S1x128, .f32⟩ : BufTy).Contents (Elt F) → (⟨S50000x128, .f32⟩ : BufTy).Contents (Elt F)),
    binary main_v30 main_v36 main_v37 (subf : (⟨S50000x128, .f32⟩ : BufTy).Contents (Elt F) → (⟨S50000x128, .f32⟩ : BufTy).Contents (Elt F) → (⟨S50000x128, .f32⟩ : BufTy).Contents (Elt F)),
    unary main_arg5 main_v38 (broadcastInDim S1x128 ![1] bcast_S128_S1x128_1 : (⟨S128, .f32⟩ : BufTy).Contents (Elt F) → (⟨S1x128, .f32⟩ : BufTy).Contents (Elt F)),
    unary main_v38 main_v39 (broadcastInDim S50000x128 ![0, 1] bcast_S1x128_S50000x128_0_1 : (⟨S1x128, .f32⟩ : BufTy).Contents (Elt F) → (⟨S50000x128, .f32⟩ : BufTy).Contents (Elt F)),
    binary main_v39 main_v37 main_v40 (mulf : (⟨S50000x128, .f32⟩ : BufTy).Contents (Elt F) → (⟨S50000x128, .f32⟩ : BufTy).Contents (Elt F) → (⟨S50000x128, .f32⟩ : BufTy).Contents (Elt F)),
    nullary main_cst_7 (constant S_ .f32 0x3727C5AC#32),
    unary main_cst_7 main_v41 (broadcastInDim S128 ![] bcast_S_S128 : (⟨S_, .f32⟩ : BufTy).Contents (Elt F) → (⟨S128, .f32⟩ : BufTy).Contents (Elt F)),
    binary main_v34 main_v41 main_v42 (addf : (⟨S128, .f32⟩ : BufTy).Contents (Elt F) → (⟨S128, .f32⟩ : BufTy).Contents (Elt F) → (⟨S128, .f32⟩ : BufTy).Contents (Elt F)),
    unary main_v42 main_v43 (Host.rsqrt : (⟨S128, .f32⟩ : BufTy).Contents (Elt F) → (⟨S128, .f32⟩ : BufTy).Contents (Elt F)),
    unary main_v43 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v40 main_v45 main_v46 (mulf : (⟨S50000x128, .f32⟩ : BufTy).Contents (Elt F) → (⟨S50000x128, .f32⟩ : BufTy).Contents (Elt F) → (⟨S50000x128, .f32⟩ : BufTy).Contents (Elt F)),
    unary main_arg6 main_v47 (broadcastInDim S1x128 ![1] bcast_S128_S1x128_1 : (⟨S128, .f32⟩ : BufTy).Contents (Elt F) → (⟨S1x128, .f32⟩ : BufTy).Contents (Elt F)),
    unary main_v47 main_v48 (broadcastInDim S50000x128 ![0, 1] bcast_S1x128_S50000x128_0_1 : (⟨S1x128, .f32⟩ : BufTy).Contents (Elt F) → (⟨S50000x128, .f32⟩ : BufTy).Contents (Elt F)),
    binary main_v46 main_v48 main_v49 (addf : (⟨S50000x128, .f32⟩ : BufTy).Contents (Elt F) → (⟨S50000x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (.of main_v49) main_call1.v0 main_call1.v1 maximumf,
    binary main_v50 main_arg0 main_v51 (addf : (⟨S50000x128, .f32⟩ : BufTy).Contents (Elt F) → (⟨S50000x128, .f32⟩ : BufTy).Contents (Elt F) → (⟨S50000x128, .f32⟩ : BufTy).Contents (Elt F)) ]

theorem ops_split : (ops : List (HloOp τ sig (Elt F))) = opsA ++ (opsB ++ (opsC ++ opsD)) := rfl

/-- The whole line's fold is the four stretches' folds composed. -/
theorem fold_split (V : Valuation τ sig (Elt F)) :
    after ops V = after opsD (after opsC (after opsB (after opsA V))) := by
  rw [ops_split, after_append, after_append, after_append]

/-! ## The aggregation -/

theorem A_v13 (V : Valuation τ sig (Elt Ideal)) :
    after (opsA (F := Ideal)) V (main_v13 : DevRef τ sig) = Cert.Prelude.msgSumR (V (main_arg0 : DevRef τ sig)) (V (main_arg1 : DevRef τ sig)) := by
  after_results
  rfl

theorem A_v19 (V : Valuation τ sig (Elt Ideal)) :
    after (opsA (F := Ideal)) V (main_v19 : DevRef τ sig) = Cert.Prelude.degMaxR (V (main_arg1 : DevRef τ sig)) := by
  after_results
  rfl

theorem A_arg0 (V : Valuation τ sig (Elt Ideal)) :
    after (opsA (F := Ideal)) V (main_arg0 : DevRef τ sig) = V (main_arg0 : DevRef τ sig) := by
  after_results

theorem A_arg2 (V : Valuation τ sig (Elt Ideal)) :
    after (opsA (F := Ideal)) V (main_arg2 : DevRef τ sig) = V (main_arg2 : DevRef τ sig) := by
  after_results

theorem A_arg3 (V : Valuation τ sig (Elt Ideal)) :
    after (opsA (F := Ideal)) V (main_arg3 : DevRef τ sig) = V (main_arg3 : DevRef τ sig) := by
  after_results

theorem A_arg4 (V : Valuation τ sig (Elt Ideal)) :
    after (opsA (F := Ideal)) V (main_arg4 : DevRef τ sig) = V (main_arg4 : DevRef τ sig) := by
  after_results

theorem A_arg5 (V : Valuation τ sig (Elt Ideal)) :
    after (opsA (F := Ideal)) V (main_arg5 : DevRef τ sig) = V (main_arg5 : DevRef τ sig) := by
  after_results

theorem A_arg6 (V : Valuation τ sig (Elt Ideal)) :
    after (opsA (F := Ideal)) V (main_arg6 : DevRef τ sig) = V (main_arg6 : DevRef τ sig) := by
  after_results

/-! ## The layer before normalization -/

theorem B_v30 (W : Valuation τ sig (Elt Ideal)) :
    after (opsB (F := Ideal)) W (main_v30 : DevRef τ sig)
      = preO (W (main_v13 : DevRef τ sig)) (W (main_v19 : DevRef τ sig)) (W (main_arg0 : DevRef τ sig)) (W (main_arg2 : DevRef τ sig)) (W (main_arg3 : DevRef τ sig)) (W (main_arg4 : DevRef τ sig)) := by
  after_results
  rfl

theorem B_arg0 (V : Valuation τ sig (Elt Ideal)) :
    after (opsB (F := Ideal)) V (main_arg0 : DevRef τ sig) = V (main_arg0 : DevRef τ sig) := by
  after_results

theorem B_arg5 (V : Valuation τ sig (Elt Ideal)) :
    after (opsB (F := Ideal)) V (main_arg5 : DevRef τ sig) = V (main_arg5 : DevRef τ sig) := by
  after_results

theorem B_arg6 (V : Valuation τ sig (Elt Ideal)) :
    after (opsB (F := Ideal)) V (main_arg6 : DevRef τ sig) = V (main_arg6 : DevRef τ sig) := by
  after_results

/-! ## The column mean and variance -/

theorem C_v33 (W : Valuation τ sig (Elt Ideal)) :
    after (opsC (F := Ideal)) W (main_v33 : DevRef τ sig) = colMean (W (main_v30 : DevRef τ sig)) := by
  after_results
  rfl

theorem C_v34 (W : Valuation τ sig (Elt Ideal)) :
    after (opsC (F := Ideal)) W (main_v34 : DevRef τ sig) = colVar (W (main_v30 : DevRef τ sig)) (constantI S_ 32 0#32) := by
  after_results_simp
  simp only [TRef.ofBuf_toBuf]
  rfl

theorem C_v30 (V : Valuation τ sig (Elt Ideal)) :
    after (opsC (F := Ideal)) V (main_v30 : DevRef τ sig) = V (main_v30 : DevRef τ sig) := by
  after_results

theorem C_arg0 (V : Valuation τ sig (Elt Ideal)) :
    after (opsC (F := Ideal)) V (main_arg0 : DevRef τ sig) = V (main_arg0 : DevRef τ sig) := by
  after_results

theorem C_arg5 (V : Valuation τ sig (Elt Ideal)) :
    after (opsC (F := Ideal)) V (main_arg5 : DevRef τ sig) = V (main_arg5 : DevRef τ sig) := by
  after_results

theorem C_arg6 (V : Valuation τ sig (Elt Ideal)) :
    after (opsC (F := Ideal)) V (main_arg6 : DevRef τ sig) = V (main_arg6 : DevRef τ sig) := by
  after_results

/-! ## The normalization -/

/-- The last stretch's function of the layer's output, its column mean and variance, and the parameters. -/
def normFrom (O : FVec Ideal S50000x128 .f32) (mean var : FVec Ideal S128 .f32) (h : FVec Ideal S50000x128 .f32)
    (g be : FVec Ideal S128 .f32) : FVec Ideal S50000x128 .f32 :=
  addf
    (maximumf
      (addf
        (mulf
          (mulf (rowsOf g) (subf O (rowsOf mean)))
          (rowsOf (Host.rsqrt (F := Ideal)
            (addf var (broadcastInDim S128 ![] bcast_S_S128 (constant (F := Ideal) S_ .f32 0x3727C5AC#32))))))
        (rowsOf be))
      (broadcastInDim S50000x128 ![] bcast_S_S50000x128 (constant (F := Ideal) S_ .f32 0x00000000#32)))
    h

theorem normOut_eq (O h : FVec Ideal S50000x128 .f32) (g be : FVec Ideal S128 .f32) :
    normOut O h g be = normFrom O (colMean O) (colVar O (constantI S_ 32 0#32)) h g be := rfl

theorem D_v51 (W : Valuation τ sig (Elt Ideal)) :
    after (opsD (F := Ideal)) W (main_v51 : DevRef τ sig)
      = normFrom (W (main_v30 : DevRef τ sig)) (W (main_v33 : DevRef τ sig)) (W (main_v34 : DevRef τ sig)) (W (main_arg0 : DevRef τ sig)) (W (main_arg5 : DevRef τ sig)) (W (main_arg6 : DevRef τ sig)) := by
  after_results_simp
  simp only [TRef.ofBuf_toBuf]
  rfl

/-! ## The whole line -/

/-- The program's result as a function of its seven arguments: the features, the edge list, the two weight matrices
    and the bias, the scale and the shift. -/
def resTerm (h : (⟨S50000x128, .f32⟩ : BufTy).Contents (Elt Ideal)) (ei : (⟨S2x800000, .i32⟩ : BufTy).Contents (Elt Ideal))
    (Wl : (⟨S128x128, .f32⟩ : BufTy).Contents (Elt Ideal)) (bl : (⟨S128, .f32⟩ : BufTy).Contents (Elt Ideal))
    (Wr : (⟨S128x128, .f32⟩ : BufTy).Contents (Elt Ideal)) (g be : (⟨S128, .f32⟩ : BufTy).Contents (Elt Ideal)) :
    (⟨S50000x128, .f32⟩ : BufTy).Contents (Elt Ideal) :=
  tailTerm (Cert.Prelude.msgSumR h ei) (Cert.Prelude.degMaxR ei) h Wl bl Wr g be

theorem fold_v51 (V : Valuation τ sig (Elt Ideal)) :
    after (ops (F := Ideal)) V (main_v51 : DevRef τ sig)
      = resTerm (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) := by
  rw [fold_split, D_v51, C_v33, C_v34, C_v30, C_arg0, C_arg5, C_arg6, B_v30, B_arg0, B_arg5, B_arg6,
    A_v13, A_v19, A_arg0, A_arg2, A_arg3, A_arg4, A_arg5, A_arg6]
  rfl

theorem fold_arg0 (V : Valuation τ sig (Elt Ideal)) :
    after (ops (F := Ideal)) V (main_arg0 : DevRef τ sig) = V (main_arg0 : DevRef τ sig) := by
  after_results_simp

theorem fold_arg1 (V : Valuation τ sig (Elt Ideal)) :
    after (ops (F := Ideal)) V (main_arg1 : DevRef τ sig) = V (main_arg1 : DevRef τ sig) := by
  after_results_simp

theorem fold_arg2 (V : Valuation τ sig (Elt Ideal)) :
    after (ops (F := Ideal)) V (main_arg2 : DevRef τ sig) = V (main_arg2 : DevRef τ sig) := by
  after_results_simp

theorem fold_arg3 (V : Valuation τ sig (Elt Ideal)) :
    after (ops (F := Ideal)) V (main_arg3 : DevRef τ sig) = V (main_arg3 : DevRef τ sig) := by
  after_results_simp

theorem fold_arg4 (V : Valuation τ sig (Elt Ideal)) :
    after (ops (F := Ideal)) V (main_arg4 : DevRef τ sig) = V (main_arg4 : DevRef τ sig) := by
  after_results_simp

theorem fold_arg5 (V : Valuation τ sig (Elt Ideal)) :
    after (ops (F := Ideal)) V (main_arg5 : DevRef τ sig) = V (main_arg5 : DevRef τ sig) := by
  after_results_simp

theorem fold_arg6 (V : Valuation τ sig (Elt Ideal)) :
    after (ops (F := Ideal)) V (main_arg6 : DevRef τ sig) = V (main_arg6 : DevRef τ sig) := by
  after_results_simp

/-- Every weakly fair execution of the program ends with the result buffer at `resTerm` of the arguments' contents
    at the start, and the arguments unchanged. -/
theorem run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v51)
        = resTerm (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
            (m ((c.tc : Thread Cert.ReferenceIdeal.nD Cert.ReferenceIdeal.τ).loc Cert.ReferenceIdeal.main_arg3))
            (m ((c.tc : Thread Cert.ReferenceIdeal.nD Cert.ReferenceIdeal.τ).loc Cert.ReferenceIdeal.main_arg4))
            (m ((c.tc : Thread Cert.ReferenceIdeal.nD Cert.ReferenceIdeal.τ).loc Cert.ReferenceIdeal.main_arg5))
            (m ((c.tc : Thread Cert.ReferenceIdeal.nD Cert.ReferenceIdeal.τ).loc Cert.ReferenceIdeal.main_arg6))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)) :=
  (θ_run defs _ _).mono (fun _ hh c => ⟨(hh c main_v51).trans (fold_v51 (launchContents m c)),
      (hh c main_arg0).trans (fold_arg0 _), (hh c main_arg1).trans (fold_arg1 _), (hh c main_arg2).trans (fold_arg2 _),
      (hh c main_arg3).trans (fold_arg3 _), (hh c main_arg4).trans (fold_arg4 _), (hh c main_arg5).trans (fold_arg5 _),
      (hh c main_arg6).trans (fold_arg6 _)⟩)
    (run_fold (F := Ideal) m ρ)

end Cert.ReferenceIdeal.RVal

end
-- ==== Proof.RefValue.lean ====
/-
  The reference's result, entry by entry.

  After the aggregation the reference forms `O = (M / dm) · Wlᵀ + bl + h · Wrᵀ`: at `(r, q)` the sum over `k` of
  `(M r k / dm r) · Wl q k`, plus `bl q`, plus the sum over `k` of `h r k · Wr q k` (a product of matrices at an entry is
  the sum over the shared coordinate; a transposed matrix at `(k, q)` is the matrix at `(q, k)`; the divisor column
  repeated across the columns reads the row's divisor).  The column mean is the column's sum from zero divided by the
  number of rows.  The column variance divides the column sums of the squared deviations by the number of rows less a
  correction; at correction zero that is the number of rows, which is positive, so the selection guarding the quotient
  takes it.  The result at `(r, q)` is `max (γ q · (O r q − μ q) · (v q + ε)^(-1/2) + β q) 0 + h r q`.
-/
import proofs.«135360_j87393994539131_2_alg».proof.Proof.RefValueDefs
import proofs.«135360_j87393994539131_2_alg».proof.Proof.Spec
import proofs.«135360_j87393994539131_2_alg».proof.Proof.LibPlainDot
import Idealize.ShloMosaic.Lib.IdealHost
import Idealize.ShloMosaic.Lib.KernelVsHost
import Idealize.ShloMosaic.Lib.ValueLayout
import Idealize.ShloMosaic.Lib.Pipeline.Value
import Idealize.ShloMosaic.Lib.ValueIdx
import Idealize.ShloMosaic.PureOps.Ideal.Laws

noncomputable section

namespace Cert.ReferenceIdeal.RVal

open Cert.ReferenceIdeal Cert.ReferenceIdeal.Gen Idealize.ShloMosaic Idealize.ShloMosaic.ValueIdx

/-! ## Broadcasts read at an index -/

section Layout
variable {α : Type}

/-- A vector laid out as a one-row matrix: entry `(0, q)` is entry `q`. -/
theorem vecRow_apply {n : ℕ} (h : (⟨1, ![n]⟩ : Shape).BroadcastsInDim ⟨2, ![1, n]⟩ ![1]) (x : (⟨1, ![n]⟩ : Shape).Idx → α)
    (u : Fin 1) (q : Fin n) : broadcastInDim ⟨2, ![1, n]⟩ ![1] h x (ix2 u q) = x (ix1 q) := by
  refine broadcastInDim_apply ![1] h x (ix2 u q) (ix1 q) ?_
  intro a
  fin_cases a
  show q.val = if n = 1 then 0 else q.val
  split
  · have := q.isLt; omega
  · rfl

/-- A vector laid out as a one-column matrix: entry `(r, 0)` is entry `r`. -/
theorem vecCol_apply {a : ℕ} (h : (⟨1, ![a]⟩ : Shape).BroadcastsInDim ⟨2, ![a, 1]⟩ ![0]) (x : (⟨1, ![a]⟩ : Shape).Idx → α)
    (r : Fin a) (u : Fin 1) : broadcastInDim ⟨2, ![a, 1]⟩ ![0] h x (ix2 r u) = x (ix1 r) := by
  refine broadcastInDim_apply ![0] h x (ix2 r u) (ix1 r) ?_
  intro d
  fin_cases d
  show r.val = if a = 1 then 0 else r.val
  split
  · have := r.isLt; omega
  · rfl

/-- A one-column matrix repeated across the columns: entry `(r, c)` is entry `(r, 0)`. -/
theorem colMat_apply {a b : ℕ} (h : (⟨2, ![a, 1]⟩ : Shape).BroadcastsInDim ⟨2, ![a, b]⟩ ![0, 1]) (x : (⟨2, ![a, 1]⟩ : Shape).Idx → α)
    (r : Fin a) (c : Fin b) : broadcastInDim ⟨2, ![a, b]⟩ ![0, 1] h x (ix2 r c) = x (ix2 r (0 : Fin 1)) := by
  refine broadcastInDim_apply ![0, 1] h x (ix2 r c) (ix2 r (0 : Fin 1)) ?_
  intro d
  fin_cases d
  · show r.val = if a = 1 then 0 else r.val
    split
    · have := r.isLt; omega
    · rfl
  · show (0 : ℕ) = if (1 : ℕ) = 1 then 0 else _
    simp

end Layout

/-- A row vector repeated down the rows: entry `(r, q)` is entry `q`. -/
theorem rowsOf_apply (v : FVec Ideal S128 .f32) (r : Fin 50000) (q : Fin 128) : rowsOf v (ix2 r q) = v (ix1 q) := by
  unfold rowsOf
  rw [broadcastInDim_oneRow_apply, vecRow_apply]

/-- A broadcast scalar reads the scalar everywhere. -/
theorem splat_apply {T : Shape} (h : S_.BroadcastsInDim T ![]) (b : BitVec 32) (j : T.Idx) :
    broadcastInDim T ![] h (constant (F := Ideal) S_ .f32 b) j = Ideal.ofBits .f32 b := by
  rw [broadcastInDim_scalar_apply]; rfl

/-- A scalar literal read at its one index. -/
theorem const_ix0 (b : BitVec 32) : constant (F := Ideal) S_ .f32 b ix0 = Ideal.ofBits .f32 b := rfl

/-- A column sum from an initial value: the initial value plus the sum over the 50000 rows. -/
theorem colSum_apply (x : FVec Ideal S50000x128 .f32) (init : FVec Ideal S_ .f32) (q : Fin 128) :
    Host.reduceAdd (F := Ideal) x init reducesTo_S50000x128_S128_d0 h_S_ (ix1 q) = init ix0 + ∑ r : Fin 50000, x (ix2 r q) := by
  rw [hostReduceAdd_apply]
  refine (Ideal.hostReduceAdd_single reducesTo_S50000x128_S128_d0 (by decide) x _ (ix1 q)).trans ?_
  rw [eq_ix0 (Shape.Idx.first h_S_)]
  refine congrArg (init ix0 + ·) (Finset.sum_congr rfl fun i _ => ?_)
  exact congrArg x (funext fun ax => Fin.ext (by match ax with | ⟨0, _⟩ => rfl | ⟨1, _⟩ => rfl))

/-- The record of both products is the plain [50000,128] x [128,128] one. -/
theorem dot_plain : dot_S50000x128_S128x128_S50000x128_1_0_0_1_n_n = DotDims.plain 50000 128 128 := rfl

/-- A product of the layer at `(r, q)`: the sum over the shared coordinate. -/
theorem prod_apply (l : FVec Ideal S50000x128 .f32) (w : FVec Ideal S128x128 .f32) (r : Fin 50000) (q : Fin 128) :
    Host.dotGeneral (F := Ideal) dot_S50000x128_S128x128_S50000x128_1_0_0_1_n_n none l w (ix2 r q)
      = ∑ k : Fin 128, l (ix2 r k) * w (ix2 k q) :=
  Cert.PlainDot.dotGeneral_apply dot_S50000x128_S128x128_S50000x128_1_0_0_1_n_n dot_plain none .single l w r q

/-- The divisor column repeated across the columns: entry `(r, k)` is the divisor of row `r`. -/
theorem divisor_apply (dm : FVec Ideal S50000 .f32) (r : Fin 50000) (k : Fin 128) :
    broadcastInDim S50000x128 ![0, 1] bcast_S50000x1_S50000x128_0_1 (broadcastInDim S50000x1 ![0] bcast_S50000_S50000x1_0 dm) (ix2 r k)
      = dm (ix1 r) :=
  (colMat_apply bcast_S50000x1_S50000x128_0_1 _ r k).trans (vecCol_apply bcast_S50000_S50000x1_0 dm r 0)

/-- A transposed weight matrix: entry `(k, q)` is entry `(q, k)`. -/
theorem weightT_apply (W : FVec Ideal S128x128 .f32) (k q : Fin 128) :
    transpose S128x128 [1, 0] W transposes_S128x128_S128x128_1_0 (ix2 k q) = W (ix2 q k) :=
  transpose_ix2_apply W transposes_S128x128_S128x128_1_0 k q

/-- The layer's output before normalization, entry by entry. -/
theorem preO_apply (M : FVec Ideal S50000x128 .f32) (dm : FVec Ideal S50000 .f32) (h : FVec Ideal S50000x128 .f32)
    (Wl : FVec Ideal S128x128 .f32) (bl : FVec Ideal S128 .f32) (Wr : FVec Ideal S128x128 .f32) (r : Fin 50000) (q : Fin 128) :
    preO M dm h Wl bl Wr (ix2 r q) = Spec.preBNR M dm h Wl Wr bl r q := by
  unfold preO Cert.Spec.preBNR
  rw [addf_apply, addf_apply, prod_apply, prod_apply, rowsOf_apply]
  refine congrArg₂ (· + ·) (congrArg (· + bl (ix1 q)) (Finset.sum_congr rfl fun k _ => ?_)) (Finset.sum_congr rfl fun k _ => ?_)
  · rw [hostDivf_apply, divisor_apply, weightT_apply]
  · rw [weightT_apply]

/-! ## The column statistics -/

/-- The column mean, entry by entry. -/
theorem colMean_apply (O : FVec Ideal S50000x128 .f32) (q : Fin 128) :
    colMean O (ix1 q) = Spec.meanR (fun r q => O (ix2 r q)) q := by
  unfold colMean Cert.Spec.meanR Cert.Spec.nRows
  rw [hostDivf_apply, colSum_apply, splat_apply]
  simp only [const_ix0, Cert.Spec.ofBits_zero, zero_add]

/-- The squared deviation of an entry from its column's mean. -/
theorem sqDev_apply (O : FVec Ideal S50000x128 .f32) (r : Fin 50000) (q : Fin 128) :
    sqDev O (ix2 r q) = (O (ix2 r q) - Spec.meanR (fun r q => O (ix2 r q)) q) * (O (ix2 r q) - Spec.meanR (fun r q => O (ix2 r q)) q) := by
  unfold sqDev
  dsimp only
  rw [mulf_apply, subf_apply, broadcastInDim_oneRow_apply, hostDivf_apply, vecRow_apply, colSum_apply, splat_apply]
  unfold Cert.Spec.meanR Cert.Spec.nRows
  simp only [const_ix0, Cert.Spec.ofBits_zero, zero_add]

/-- The corrected count at correction zero is the number of rows. -/
theorem varDivisor_zero : varDivisor (constantI S_ 32 0#32) ix0 = Spec.nRows := by
  unfold varDivisor Cert.Spec.nRows
  rw [subf_apply, const_ix0, sitofp_apply]
  show _ - (((0#32 : BitVec 32).toInt : ℝ) : EReal) = _
  simp

/-- The column variance at correction zero: the mean of the squared deviations (the corrected count is positive, so
    the selection takes the quotient). -/
theorem colVar_apply (O : FVec Ideal S50000x128 .f32) (q : Fin 128) :
    colVar O (constantI S_ 32 0#32) (ix1 q)
      = Ideal.div (∑ r : Fin 50000, (O (ix2 r q) - Spec.meanR (fun r q => O (ix2 r q)) q) * (O (ix2 r q) - Spec.meanR (fun r q => O (ix2 r q)) q)) Spec.nRows := by
  unfold colVar
  rw [select_apply, broadcastInDim_scalar_apply, cmpf_apply, varDivisor_zero, const_ix0, Cert.Spec.ofBits_zero]
  have hc : FloatOps.cmpf (F := Ideal) (φ := .f32) .ogt Spec.nRows (0 : EReal) = 1#1 := by
    rw [Cert.Spec.nRows_eq]
    show BitVec.ofBool (decide ((0 : EReal) < ((50000 : ℝ) : EReal))) = 1#1
    have : (0 : EReal) < ((50000 : ℝ) : EReal) := by exact_mod_cast (by norm_num : (0 : ℝ) < 50000)
    simp [this]
  rw [hc, select_one, hostDivf_apply, colSum_apply, broadcastInDim_scalar_apply, varDivisor_zero]
  simp only [const_ix0, Cert.Spec.ofBits_zero, zero_add, sqDev_apply]

/-! ## The result -/

/-- The normalized, rectified output plus the residual, entry by entry. -/
theorem normOut_apply (O : FVec Ideal S50000x128 .f32) (h : FVec Ideal S50000x128 .f32) (g be : FVec Ideal S128 .f32)
    (r : Fin 50000) (q : Fin 128) :
    normOut O h g be (ix2 r q)
      = Spec.outEntry (fun r q => O (ix2 r q)) h (Spec.meanR (fun r q => O (ix2 r q))) (Spec.invstdR (fun r q => O (ix2 r q)))
          (fun q => g (ix1 q)) (fun q => be (ix1 q)) r q := by
  unfold normOut Cert.Spec.outEntry Cert.Spec.invstdR
  rw [addf_apply, maximumf_apply, addf_apply, mulf_apply, mulf_apply, subf_apply, rowsOf_apply, rowsOf_apply, rowsOf_apply, rowsOf_apply,
    splat_apply, Cert.Spec.ofBits_zero, colMean_apply]
  show max (g (ix1 q) * (O (ix2 r q) - _) * Ideal.rsqrt (addf (colVar O (constantI S_ 32 0#32)) _ (ix1 q)) + be (ix1 q)) 0 + h (ix2 r q) = _
  rw [addf_apply, colVar_apply, splat_apply]
  rfl

/-- The program's result from the aggregated rows and their divisor, entry by entry. -/
theorem tail_apply (M : FVec Ideal S50000x128 .f32) (dm : FVec Ideal S50000 .f32) (h : FVec Ideal S50000x128 .f32)
    (Wl : FVec Ideal S128x128 .f32) (bl : FVec Ideal S128 .f32) (Wr : FVec Ideal S128x128 .f32) (g be : FVec Ideal S128 .f32)
    (r : Fin 50000) (q : Fin 128) :
    tailTerm M dm h Wl bl Wr g be (ix2 r q)
      = Spec.outEntry (Spec.preBNR M dm h Wl Wr bl) h (Spec.meanR (Spec.preBNR M dm h Wl Wr bl)) (Spec.invstdR (Spec.preBNR M dm h Wl Wr bl))
          (fun q => g (ix1 q)) (fun q => be (ix1 q)) r q := by
  unfold tailTerm
  rw [normOut_apply]
  have e : (fun r q => preO M dm h Wl bl Wr (ix2 r q)) = Spec.preBNR M dm h Wl Wr bl :=
    funext fun r => funext fun q => preO_apply M dm h Wl bl Wr r q
  rw [e]

end Cert.ReferenceIdeal.RVal

end
-- ==== Proof.lean ====
/-
  The kernel and its reference compute the same array.

  Both programs aggregate the features over the edge list in the same way: `M`, whose row `n` is the sum of the source
  rows of the edges into node `n`, and `dm n`, the number of those edges or one when there is none.  From there the
  reference forms `O = (M / dm) · W_lᵀ + b_l + h · W_rᵀ`, normalizes each column of `O` over the 50000 rows with the
  column's mean and the mean of its squared deviations, scales, shifts, rectifies and adds `h`.  The kernel multiplies
  `M` by the reciprocal `1 / dm` instead of dividing, computes `O` block by block (ten blocks of 5000 rows) twice — once
  to sum each column of `O` and of `O²` per block, once to write the normalized result —, sums the ten partial sums,
  and takes the variance as the mean of squares minus the squared mean.

  Over the extended reals a change of float format is the identity and sums may be regrouped freely, so the blocked
  sums are the whole sums.  The quotient by `dm n` is the product with its reciprocal because `dm n` is a real number
  at least one.  The two forms of the variance agree for REAL entries of `O` (the identity fails at infinite
  entries): this is where the precondition is used — every float input is real, hence so are `M` and `O`.  With equal
  means and variances the remaining operations are the same on both sides, entry by entry.

  The frames of the two kernel programs are the generated ones; the reference's frame is its run with the result
  dropped.  The idealization rewrote nothing, so there is nothing to preserve.
-/
import proofs.«135360_j87393994539131_2_alg».proof.Defs
import proofs.«135360_j87393994539131_2_alg».proof.Proof.Gen.Kernel
import proofs.«135360_j87393994539131_2_alg».proof.Proof.Gen.Kernel.Skeleton
import proofs.«135360_j87393994539131_2_alg».proof.Proof.Gen.Kernel.Launch
import proofs.«135360_j87393994539131_2_alg».proof.Proof.Gen.Kernel.Points
import proofs.«135360_j87393994539131_2_alg».proof.Proof.Gen.Kernel.Frame
import proofs.«135360_j87393994539131_2_alg».proof.Proof.Gen.KernelIdeal
import proofs.«135360_j87393994539131_2_alg».proof.Proof.Gen.KernelIdeal.Skeleton
import proofs.«135360_j87393994539131_2_alg».proof.Proof.Gen.KernelIdeal.Launch
import proofs.«135360_j87393994539131_2_alg».proof.Proof.Gen.KernelIdeal.Points
import proofs.«135360_j87393994539131_2_alg».proof.Proof.Gen.KernelIdeal.Frame
import proofs.«135360_j87393994539131_2_alg».proof.Proof.Gen.ReferenceIdeal
import proofs.«135360_j87393994539131_2_alg».proof.Proof.Gen.Pre_finite_inputs
import proofs.«135360_j87393994539131_2_alg».proof.Proof.KRun
import proofs.«135360_j87393994539131_2_alg».proof.Proof.BridgeK
import proofs.«135360_j87393994539131_2_alg».proof.Proof.RefRunRead
import proofs.«135360_j87393994539131_2_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.RVal.run m ρ)

/-- Under the precondition the kernel's result buffer at the last boundary is the reference's function of the kernel's
    own arguments: entry by entry both are the same normalized, rectified value plus the residual. -/
theorem kernel_value (m : (ℓ : Loc Cert.KernelIdeal.nD Cert.KernelIdeal.τ Cert.KernelIdeal.sig) → Buf (Elt Ideal) ℓ) (ρ : Dev Cert.KernelIdeal.nD → PrngReg) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) = fun _ => 1#1) :
    (Cert.KernelIdeal.Gen.W4 m ρ c (Proc.devRef .tc Cert.KernelIdeal.main_v46) : Cert.KernelIdeal.S50000x128.Idx → EReal)
      = Cert.ReferenceIdeal.RVal.resTerm (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) := by
  funext i
  obtain ⟨r, q, rfl⟩ : ∃ (r : Fin 50000) (q : Fin 128), i = ix2 r q := ⟨i 0, i 1, eq_ix2 i⟩
  rw [Cert.Bridge.kernel_result m ρ c hpre r q]
  unfold Cert.ReferenceIdeal.RVal.resTerm
  rw [Cert.ReferenceIdeal.RVal.tail_apply]
  rfl

theorem algebraic : Cert.algebraic_KernelIdeal_ReferenceIdeal := by
  intro m ρ m' ρ' hpre hagree
  refine ⟨fun c => Cert.ReferenceIdeal.RVal.resTerm (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun _ h c => ⟨(h c).1.trans (kernel_value m ρ c (hpre c)), (h c).2⟩)
      (Cert.KernelIdeal.KRun.run_result m ρ)
  · refine (θ_run Cert.ReferenceIdeal.defs _ _).mono (fun _ h c => ⟨(h c).1.trans ?_, (h c).2⟩) (Cert.ReferenceIdeal.RVal.run m' ρ')
    rw [(hagree c).1, (hagree c).2.1, (hagree c).2.2.1, (hagree c).2.2.2.1, (hagree c).2.2.2.2.1, (hagree c).2.2.2.2.2.1,
      (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
